-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x256 : Shape := ⟨4, ![8, 128, 128, 256]⟩
abbrev S256x128 : Shape := ⟨2, ![256, 128]⟩
abbrev S128x128 : Shape := ⟨2, ![128, 128]⟩
abbrev S128x256 : Shape := ⟨2, ![128, 256]⟩
abbrev S128 : Shape := ⟨1, ![128]⟩
abbrev S_ : Shape := ⟨0, ![]⟩

class Facts : Prop where
  bcast_S_S8x128x128x256 : S_.BroadcastsInDim S8x128x128x256 (![] : Fin 0 → Fin S8x128x128x256.rank)
  reducesTo_S8x128x128x256_S_d0_1_2_3 : S8x128x128x256.ReducesTo [0, 1, 2, 3] S_
  h_S_ : 0 < S_.numel
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part6 {F : FTy → Type} [FloatOps F] (main_arg21 : FVec F S128 .f32) (main_arg22 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg21
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg22
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  main_v113

def fn_part5 {F : FTy → Type} [FloatOps F] (main_arg18 : FVec F S128 .f32) (main_arg19 : FVec F S128 .f32) (main_arg20 : FVec F S128 .f32) (main_arg21 : FVec F S128 .f32) (main_arg22 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S128x128 .f32) (main_arg5 : FVec F S256x128 .f32) (main_arg6 : FVec F S128x256 .f32) (main_arg7 : FVec F S128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S8x128x128x256 .f32) (main_arg1 : FVec F S256x128 .f32) (main_arg2 : FVec F S128x128 .f32) (main_arg3 : FVec F S256x128 .f32) (main_arg4 : FVec F S128x128 .f32) (main_arg5 : FVec F S256x128 .f32) (main_arg6 : FVec F S128x256 .f32) (main_arg7 : FVec F S128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) : IVec S_ 1 :=
  let main_v0 : FVec F S8x128x128x256 .f32 := Host.absf main_arg0
  let main_cst : FVec F S_ .f32 := constant S_ .f32 0x7F800000#32
  let main_v1 : FVec F S8x128x128x256 .f32 := broadcastInDim S8x128x128x256 ![] bcast_S_S8x128x128x256 main_cst
  let main_v2 : IVec S8x128x128x256 1 := cmpf .olt main_v0 main_v1
  let main_c : IVec S_ 1 := constantI S_ 1 1#1
  let main_v3 : IVec S_ 1 := (fun x v => Host.reduce IntOp.andi x v reducesTo_S8x128x128x256_S_d0_1_2_3 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S8x128x128x256 : Shape := ⟨4, ![8, 128, 128, 256]⟩
abbrev S256x128 : Shape := ⟨2, ![256, 128]⟩
abbrev S128x128 : Shape := ⟨2, ![128, 128]⟩
abbrev S128x256 : Shape := ⟨2, ![128, 256]⟩
abbrev S128 : Shape := ⟨1, ![128]⟩
abbrev S256x384 : Shape := ⟨2, ![256, 384]⟩
abbrev S_ : Shape := ⟨0, ![]⟩
abbrev S256x256 : Shape := ⟨2, ![256, 256]⟩
abbrev S256 : Shape := ⟨1, ![256]⟩
abbrev S1x16x128x256 : Shape := ⟨4, ![1, 16, 128, 256]⟩
abbrev S16x128x256 : Shape := ⟨3, ![16, 128, 256]⟩
abbrev S2048x256 : Shape := ⟨2, ![2048, 256]⟩
abbrev S2048x384 : Shape := ⟨2, ![2048, 384]⟩
abbrev S2048x128 : Shape := ⟨2, ![2048, 128]⟩
abbrev S1x256 : Shape := ⟨2, ![1, 256]⟩
abbrev S16x128x128 : Shape := ⟨3, ![16, 128, 128]⟩
abbrev S16x128 : Shape := ⟨2, ![16, 128]⟩
abbrev S16x128x1 : Shape := ⟨3, ![16, 128, 1]⟩

abbrev nBuf : Space → Nat
  | .hbm => 38
  | .vmem => 15
  | .smem => 0
  | _ => 0

abbrev bufTy : (tb : Table) → Fin (tcTables nBuf tb) → BufTy
  | .hbm, ⟨0, _⟩ => ⟨S8x128x128x256, .f32⟩
  | .hbm, ⟨1, _⟩ => ⟨S256x128, .f32⟩
  | .hbm, ⟨2, _⟩ => ⟨S128x128, .f32⟩
  | .hbm, ⟨3, _⟩ => ⟨S256x128, .f32⟩
  | .hbm, ⟨4, _⟩ => ⟨S128x128, .f32⟩
  | .hbm, ⟨5, _⟩ => ⟨S256x128, .f32⟩
  | .hbm, ⟨6, _⟩ => ⟨S128x256, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S256x384, .f32⟩
  | .hbm, ⟨24, _⟩ => ⟨S_, .f32⟩
  | .hbm, ⟨25, _⟩ => ⟨S128x128, .f32⟩
  | .hbm, ⟨26, _⟩ => ⟨S128x256, .f32⟩
  | .hbm, ⟨27, _⟩ => ⟨S128x256, .f32⟩
  | .hbm, ⟨28, _⟩ => ⟨S256x256, .f32⟩
  | .hbm, ⟨29, _⟩ => ⟨S256, .f32⟩
  | .hbm, ⟨30, _⟩ => ⟨S256, .f32⟩
  | .hbm, ⟨31, _⟩ => ⟨S256, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S8x128x128x256, .f32⟩
  | .local _ .vmem, ⟨0, _⟩ => ⟨S1x16x128x256, .f32⟩
  | .local _ .vmem, ⟨1, _⟩ => ⟨S1x16x128x256, .f32⟩
  | .local _ .vmem, ⟨2, _⟩ => ⟨S256x384, .f32⟩
  | .local _ .vmem, ⟨3, _⟩ => ⟨S256x256, .f32⟩
  | .local _ .vmem, ⟨4, _⟩ => ⟨S128x256, .f32⟩
  | .local _ .vmem, ⟨5, _⟩ => ⟨S256, .f32⟩
  | .local _ .vmem, ⟨6, _⟩ => ⟨S256, .f32⟩
  | .local _ .vmem, ⟨7, _⟩ => ⟨S256, .f32⟩
  | .local _ .vmem, ⟨8, _⟩ => ⟨S256, .f32⟩
  | .local _ .vmem, ⟨9, _⟩ => ⟨S256, .f32⟩
  | .local _ .vmem, ⟨10, _⟩ => ⟨S256, .f32⟩
  | .local _ .vmem, ⟨11, _⟩ => ⟨S256, .f32⟩
  | .local _ .vmem, ⟨12, _⟩ => ⟨S256, .f32⟩
  | .local _ .vmem, ⟨13, _⟩ => ⟨S1x16x128x256, .f32⟩
  | .local _ .vmem, ⟨14, _⟩ => ⟨S1x16x128x256, .f32⟩
  | _, _ => ⟨S8x128x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_cst : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x16x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

class Facts₀ : Prop where
  concatenates_S256x128_S256x128_S256x128_S256x384_d1 : Shape.Concatenates [S256x128, S256x128, S256x128] S256x384 1
  bcast_S_S128x128 : S_.BroadcastsInDim S128x128 (![] : Fin 0 → Fin S128x128.rank)
  concatenates_S128x128_S128x128_S128x256_d1 : Shape.Concatenates [S128x128, S128x128] S128x256 1
  concatenates_S128x256_S128x256_S256x256_d0 : Shape.Concatenates [S128x256, S128x256] S256x256 0
  concatenates_S128_S128_S256_d0 : Shape.Concatenates [S128, S128] S256 0
  inb_S1x16x128x256_S1x16x128x256_0_0_0_0 : ∀ a, (![0, 0, 0, 0] : Fin 4 → Nat) a + S1x16x128x256.size a ≤ S1x16x128x256.size a
  h_S1x16x128x256 : 0 < S1x16x128x256.numel
  shapeCasts_S1x16x128x256_S16x128x256 : S1x16x128x256.ShapeCasts S16x128x256
  shapeCasts_S16x128x256_S2048x256 : S16x128x256.ShapeCasts S2048x256
  bitsLt_bf16_f32 : FTy.bits .bf16 < FTy.bits .f32
  inb_S256x384_S256x384_0_0 : ∀ a, (![0, 0] : Fin 2 → Nat) a + S256x384.size a ≤ S256x384.size a
  h_S256x384 : 0 < S256x384.numel
  shapeCasts_S256x384_S256x384 : S256x384.ShapeCasts S256x384
  slices_S2048x384_o0_0_S2048x256 : S2048x384.Slices ![0, 0] S2048x256
  slices_S2048x384_o0_256_S2048x128 : S2048x384.Slices ![0, 256] S2048x128
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S2048x256_o0_0_S2048x128 : S2048x256.Slices ![0, 0] S2048x128
  slices_S2048x256_o0_128_S2048x128 : S2048x256.Slices ![0, 128] S2048x128
  shapeCasts_S2048x128_S16x128x128 : S2048x128.ShapeCasts S16x128x128
  reduces_S16x128x128_S16x128 : S16x128x128.Reduces [2] S16x128
  shapeCasts_S16x128_S16x128x1 : S16x128.ShapeCasts S16x128x1
  broadcasts_S16x128x1_S16x128x128 : S16x128x1.Broadcasts S16x128x128
  shapeCasts_S16x128x128_S2048x128 : S16x128x128.ShapeCasts S2048x128
  inb_S128x256_S128x256_0_0 : ∀ a, (![0, 0] : Fin 2 → Nat) a + S128x256.size a ≤ S128x256.size a
  h_S128x256 : 0 < S128x256.numel
  shapeCasts_S2048x256_S16x128x256 : S2048x256.ShapeCasts S16x128x256
  shapeCasts_S16x128x256_S1x16x128x256 : S16x128x256.ShapeCasts S1x16x128x256
  dot_S2048x256_S256x384_S2048x384_1_0_0_1_n_n_wf : DotDims.WF S2048x256 S256x384 S2048x384 [1] [0] [0] [1] [] []
  dot_S2048x256_S256x256_S2048x256_1_0_0_1_n_n_wf : DotDims.WF S2048x256 S256x256 S2048x256 [1] [0] [0] [1] [] []
  dot_S16x128x128_S16x128x128_S16x128x128_2_2_1_1_0_0_wf : DotDims.WF S16x128x128 S16x128x128 S16x128x128 [2] [2] [1] [1] [0] [0]
  dot_S16x128x128_S16x128x128_S16x128x128_2_1_1_2_0_0_wf : DotDims.WF S16x128x128 S16x128x128 S16x128x128 [2] [1] [1] [2] [0] [0]
  dot_S2048x128_S128x256_S2048x256_1_0_0_1_n_n_wf : DotDims.WF S2048x128 S128x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x256.size a ≤ S8x128x128x256.size a
  hwx0_0 : ∀ i : grid0.Coords, EltTy.bits .f32 = 32 ∨ (Rect.block (s := S8x128x128x256) S1x16x128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x384.size a ≤ S256x384.size a
  hwx0_1 : ∀ i : grid0.Coords, EltTy.bits .f32 = 32 ∨ (Rect.block (s := S256x384) S256x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x16x128x256.size a ≤ S8x128x128x256.size a
  hwx0_12 : ∀ i : grid0.Coords, EltTy.bits .f32 = 32 ∨ (Rect.block (s := S8x128x128x256) S1x16x128x256.size (cc0_transform_12 i) (hinb0_12 i)).WholeWords (EltTy.packing .f32)

variable [Facts₀]

def dot_S2048x256_S256x384_S2048x384_1_0_0_1_n_n : DotDims S2048x256 S256x384 S2048x384 where
  lhsContracting := [1]
  rhsContracting := [0]
  lhsNonContracting := [0]
  rhsNonContracting := [1]
  lhsBatch := []
  rhsBatch := []
  wf := dot_S2048x256_S256x384_S2048x384_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S16x128x128_S16x128x128_S16x128x128_2_2_1_1_0_0 : DotDims S16x128x128 S16x128x128 S16x128x128 where
  lhsContracting := [2]
  rhsContracting := [2]
  lhsNonContracting := [1]
  rhsNonContracting := [1]
  lhsBatch := [0]
  rhsBatch := [0]
  wf := dot_S16x128x128_S16x128x128_S16x128x128_2_2_1_1_0_0_wf
def dot_S16x128x128_S16x128x128_S16x128x128_2_1_1_2_0_0 : DotDims S16x128x128 S16x128x128 S16x128x128 where
  lhsContracting := [2]
  rhsContracting := [1]
  lhsNonContracting := [1]
  rhsNonContracting := [2]
  lhsBatch := [0]
  rhsBatch := [0]
  wf := dot_S16x128x128_S16x128x128_S16x128x128_2_1_1_2_0_0_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf

abbrev win0_0 : Pipeline.Window sig grid0 :=
  Pipeline.Window.ofSpec (Memref.whole main_arg0) S1x16x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S1x16x128x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8x128x128x256 : Shape := ⟨4, ![8, 128, 128, 256]⟩
abbrev S256x128 : Shape := ⟨2, ![256, 128]⟩
abbrev S128x128 : Shape := ⟨2, ![128, 128]⟩
abbrev S128x256 : Shape := ⟨2, ![128, 256]⟩
abbrev S128 : Shape := ⟨1, ![128]⟩
abbrev S8x128x128x128 : Shape := ⟨4, ![8, 128, 128, 128]⟩
abbrev S1x1x1x128 : Shape := ⟨4, ![1, 1, 1, 128]⟩
abbrev S_ : Shape := ⟨0, ![]⟩
abbrev S8x128x128 : Shape := ⟨3, ![8, 128, 128]⟩
abbrev S8x128x128x1 : Shape := ⟨4, ![8, 128, 128, 1]⟩

abbrev nBuf : Space → Nat
  | .hbm => 124
  | .vmem => 0
  | .smem => 0
  | _ => 0

abbrev bufTy : (tb : Table) → Fin (tcTables nBuf tb) → BufTy
  | .hbm, ⟨0, _⟩ => ⟨S8x128x128x256, .f32⟩
  | .hbm, ⟨1, _⟩ => ⟨S256x128, .f32⟩
  | .hbm, ⟨2, _⟩ => ⟨S128x128, .f32⟩
  | .hbm, ⟨3, _⟩ => ⟨S256x128, .f32⟩
  | .hbm, ⟨4, _⟩ => ⟨S128x128, .f32⟩
  | .hbm, ⟨5, _⟩ => ⟨S256x128, .f32⟩
  | .hbm, ⟨6, _⟩ => ⟨S128x256, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S8x128x128x128, .f32⟩
  | .hbm, ⟨24, _⟩ => ⟨S1x1x1x128, .f32⟩
  | .hbm, ⟨25, _⟩ => ⟨S8x128x128x128, .f32⟩
  | .hbm, ⟨26, _⟩ => ⟨S8x128x128x128, .f32⟩
  | .hbm, ⟨27, _⟩ => ⟨S1x1x1x128, .f32⟩
  | .hbm, ⟨28, _⟩ => ⟨S8x128x128x128, .f32⟩
  | .hbm, ⟨29, _⟩ => ⟨S8x128x128x128, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S1x1x1x128, .f32⟩
  | .hbm, ⟨35, _⟩ => ⟨S8x128x128x128, .f32⟩
  | .hbm, ⟨36, _⟩ => ⟨S8x128x128x128, .f32⟩
  | .hbm, ⟨37, _⟩ => ⟨S1x1x1x128, .f32⟩
  | .hbm, ⟨38, _⟩ => ⟨S8x128x128x128, .f32⟩
  | .hbm, ⟨39, _⟩ => ⟨S8x128x128x128, .f32⟩
  | .hbm, ⟨40, _⟩ => ⟨S_, .f32⟩
  | .hbm, ⟨41, _⟩ => ⟨S8x128x128x128, .f32⟩
  | .hbm, ⟨42, _⟩ => ⟨S8x128x128x128, .f32⟩
  | .hbm, ⟨43, _⟩ => ⟨S8x128x128x128, .f32⟩
  | .hbm, ⟨44, _⟩ => ⟨S1x1x1x128, .f32⟩
  | .hbm, ⟨45, _⟩ => ⟨S8x128x128x128, .f32⟩
  | .hbm, ⟨46, _⟩ => ⟨S8x128x128x128, .f32⟩
  | .hbm, ⟨47, _⟩ => ⟨S1x1x1x128, .f32⟩
  | .hbm, ⟨48, _⟩ => ⟨S8x128x128x128, .f32⟩
  | .hbm, ⟨49, _⟩ => ⟨S8x128x128x128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S1x1x1x128, .f32⟩
  | .hbm, ⟨55, _⟩ => ⟨S8x128x128x128, .f32⟩
  | .hbm, ⟨56, _⟩ => ⟨S8x128x128x128, .f32⟩
  | .hbm, ⟨57, _⟩ => ⟨S1x1x1x128, .f32⟩
  | .hbm, ⟨58, _⟩ => ⟨S8x128x128x128, .f32⟩
  | .hbm, ⟨59, _⟩ => ⟨S8x128x128x128, .f32⟩
  | .hbm, ⟨60, _⟩ => ⟨S_, .f32⟩
  | .hbm, ⟨61, _⟩ => ⟨S8x128x128x128, .f32⟩
  | .hbm, ⟨62, _⟩ => ⟨S8x128x128x128, .f32⟩
  | .hbm, ⟨63, _⟩ => ⟨S8x128x128x128, .f32⟩
  | .hbm, ⟨64, _⟩ => ⟨S1x1x1x128, .f32⟩
  | .hbm, ⟨65, _⟩ => ⟨S8x128x128x128, .f32⟩
  | .hbm, ⟨66, _⟩ => ⟨S8x128x128x128, .f32⟩
  | .hbm, ⟨67, _⟩ => ⟨S1x1x1x128, .f32⟩
  | .hbm, ⟨68, _⟩ => ⟨S8x128x128x128, .f32⟩
  | .hbm, ⟨69, _⟩ => ⟨S8x128x128x128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S1x1x1x128, .f32⟩
  | .hbm, ⟨75, _⟩ => ⟨S8x128x128x128, .f32⟩
  | .hbm, ⟨76, _⟩ => ⟨S8x128x128x128, .f32⟩
  | .hbm, ⟨77, _⟩ => ⟨S1x1x1x128, .f32⟩
  | .hbm, ⟨78, _⟩ => ⟨S8x128x128x128, .f32⟩
  | .hbm, ⟨79, _⟩ => ⟨S8x128x128x128, .f32⟩
  | .hbm, ⟨80, _⟩ => ⟨S_, .f32⟩
  | .hbm, ⟨81, _⟩ => ⟨S8x128x128x128, .f32⟩
  | .hbm, ⟨82, _⟩ => ⟨S8x128x128x128, .f32⟩
  | .hbm, ⟨83, _⟩ => ⟨S8x128x128x128, .f32⟩
  | .hbm, ⟨84, _⟩ => ⟨S1x1x1x128, .f32⟩
  | .hbm, ⟨85, _⟩ => ⟨S8x128x128x128, .f32⟩
  | .hbm, ⟨86, _⟩ => ⟨S8x128x128x128, .f32⟩
  | .hbm, ⟨87, _⟩ => ⟨S1x1x1x128, .f32⟩
  | .hbm, ⟨88, _⟩ => ⟨S8x128x128x128, .f32⟩
  | .hbm, ⟨89, _⟩ => ⟨S8x128x128x128, .f32⟩
  | .hbm, ⟨90, _⟩ => ⟨S_, .f32⟩
  | .hbm, ⟨91, _⟩ => ⟨S128, .f32⟩
  | .hbm, ⟨92, _⟩ => ⟨S128, .f32⟩
  | .hbm, ⟨93, _⟩ => ⟨S128, .f32⟩
  | .hbm, ⟨94, _⟩ => ⟨S1x1x1x128, .f32⟩
  | .hbm, ⟨95, _⟩ => ⟨S8x128x128x128, .f32⟩
  | .hbm, ⟨96, _⟩ => ⟨S8x128x128x128, .f32⟩
  | .hbm, ⟨97, _⟩ => ⟨S1x1x1x128, .f32⟩
  | .hbm, ⟨98, _⟩ => ⟨S8x128x128x128, .f32⟩
  | .hbm, ⟨99, _⟩ => ⟨S8x128x128x128, .f32⟩
  | .hbm, ⟨100, _⟩ => ⟨S_, .f32⟩
  | .hbm, ⟨101, _⟩ => ⟨S8x128x128x128, .f32⟩
  | .hbm, ⟨102, _⟩ => ⟨S8x128x128x128, .f32⟩
  | .hbm, ⟨103, _⟩ => ⟨S8x128x128x128, .f32⟩
  | .hbm, ⟨104, _⟩ => ⟨S8x128x128x128, .f32⟩
  | .hbm, ⟨105, _⟩ => ⟨S_, .f32⟩
  | .hbm, ⟨106, _⟩ => ⟨S8x128x128x128, .f32⟩
  | .hbm, ⟨107, _⟩ => ⟨S8x128x128x128, .f32⟩
  | .hbm, ⟨108, _⟩ => ⟨S_, .f32⟩
  | .hbm, ⟨109, _⟩ => ⟨S8x128x128, .f32⟩
  | .hbm, ⟨110, _⟩ => ⟨S_, .f32⟩
  | .hbm, ⟨111, _⟩ => ⟨S8x128x128, .f32⟩
  | .hbm, ⟨112, _⟩ => ⟨S8x128x128, .f32⟩
  | .hbm, ⟨113, _⟩ => ⟨S8x128x128x1, .f32⟩
  | .hbm, ⟨114, _⟩ => ⟨S8x128x128x128, .f32⟩
  | .hbm, ⟨115, _⟩ => ⟨S8x128x128x128, .f32⟩
  | .hbm, ⟨116, _⟩ => ⟨S8x128x128x128, .f32⟩
  | .hbm, ⟨117, _⟩ => ⟨S_, .f32⟩
  | .hbm, ⟨118, _⟩ => ⟨S8x128x128, .f32⟩
  | .hbm, ⟨119, _⟩ => ⟨S8x128x128x1, .f32⟩
  | .hbm, ⟨120, _⟩ => ⟨S8x128x128x128, .f32⟩
  | .hbm, ⟨121, _⟩ => ⟨S8x128x128x128, .f32⟩
  | .hbm, ⟨122, _⟩ => ⟨S8x128x128x128, .f32⟩
  | .hbm, ⟨123, _⟩ => ⟨S8x128x128x256, .f32⟩
  | _, _ => ⟨S8x128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_call0_cst : Ref sig .tc := ⟨.hbm, 40, rfl⟩
abbrev main_call0_v0 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_0 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call1_cst : Ref sig .tc := ⟨.hbm, 60, rfl⟩
abbrev main_call1_v0 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_1 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_call2_cst : Ref sig .tc := ⟨.hbm, 80, rfl⟩
abbrev main_call2_v0 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_2 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_call3_cst : Ref sig .tc := ⟨.hbm, 100, rfl⟩
abbrev main_call3_v0 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_3 : Ref sig .tc := ⟨.hbm, 105, rfl⟩
abbrev main_v70 : Ref sig .tc := ⟨.hbm, 106, rfl⟩
abbrev main_v71 : Ref sig .tc := ⟨.hbm, 107, rfl⟩
abbrev main_cst_4 : Ref sig .tc := ⟨.hbm, 108, rfl⟩
abbrev main_v72 : Ref sig .tc := ⟨.hbm, 109, rfl⟩
abbrev main_cst_5 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_6 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩

abbrev nD : Nat := 1
abbrev τ : Topo := Topo.v7x

variable {F : FTy → Type} [FloatOps F]

class Facts₀ : Prop where
  bcast_S128_S1x1x1x128_3 : S128.BroadcastsInDim S1x1x1x128 (![3] : Fin 1 → Fin S1x1x1x128.rank)
  bcast_S1x1x1x128_S8x128x128x128_0_1_2_3 : S1x1x1x128.BroadcastsInDim S8x128x128x128 (![0, 1, 2, 3] : Fin 4 → Fin S8x128x128x128.rank)
  bcast_S_S128 : S_.BroadcastsInDim S128 (![] : Fin 0 → Fin S128.rank)
  bcast_S_S8x128x128x128 : S_.BroadcastsInDim S8x128x128x128 (![] : Fin 0 → Fin S8x128x128x128.rank)
  reducesTo_S8x128x128x128_S8x128x128_d3 : S8x128x128x128.ReducesTo [3] S8x128x128
  h_S_ : 0 < S_.numel
  bcast_S_S8x128x128 : S_.BroadcastsInDim S8x128x128 (![] : Fin 0 → Fin S8x128x128.rank)
  bcast_S8x128x128_S8x128x128x1_0_1_2 : S8x128x128.BroadcastsInDim S8x128x128x1 (![0, 1, 2] : Fin 3 → Fin S8x128x128x1.rank)
  bcast_S8x128x128x1_S8x128x128x128_0_1_2_3 : S8x128x128x1.BroadcastsInDim S8x128x128x128 (![0, 1, 2, 3] : Fin 4 → Fin S8x128x128x128.rank)
  dot_S8x128x128x256_S256x128_S8x128x128x128_3_0_012_1_n_n_wf : DotDims.WF S8x128x128x256 S256x128 S8x128x128x128 [3] [0] [0, 1, 2] [1] [] []
  dot_S8x128x128x128_S128x128_S8x128x128x128_3_0_012_1_n_n_wf : DotDims.WF S8x128x128x128 S128x128 S8x128x128x128 [3] [0] [0, 1, 2] [1] [] []
  dot_S8x128x128x128_S8x128x128x128_S8x128x128x128_3_3_2_2_01_01_wf : DotDims.WF S8x128x128x128 S8x128x128x128 S8x128x128x128 [3] [3] [2] [2] [0, 1] [0, 1]
  dot_S8x128x128x128_S8x128x128x128_S8x128x128x128_3_2_2_3_01_01_wf : DotDims.WF S8x128x128x128 S8x128x128x128 S8x128x128x128 [3] [2] [2] [3] [0, 1] [0, 1]
  dot_S8x128x128x128_S128x256_S8x128x128x256_3_0_012_1_n_n_wf : DotDims.WF S8x128x128x128 S128x256 S8x128x128x256 [3] [0] [0, 1, 2] [1] [] []

variable [Facts₀]

def dot_S8x128x128x256_S256x128_S8x128x128x128_3_0_012_1_n_n : DotDims S8x128x128x256 S256x128 S8x128x128x128 where
  lhsContracting := [3]
  rhsContracting := [0]
  lhsNonContracting := [0, 1, 2]
  rhsNonContracting := [1]
  lhsBatch := []
  rhsBatch := []
  wf := dot_S8x128x128x256_S256x128_S8x128x128x128_3_0_012_1_n_n_wf
def dot_S8x128x128x128_S128x128_S8x128x128x128_3_0_012_1_n_n : DotDims S8x128x128x128 S128x128 S8x128x128x128 where
  lhsContracting := [3]
  rhsContracting := [0]
  lhsNonContracting := [0, 1, 2]
  rhsNonContracting := [1]
  lhsBatch := []
  rhsBatch := []
  wf := dot_S8x128x128x128_S128x128_S8x128x128x128_3_0_012_1_n_n_wf
def dot_S8x128x128x128_S8x128x128x128_S8x128x128x128_3_3_2_2_01_01 : DotDims S8x128x128x128 S8x128x128x128 S8x128x128x128 where
  lhsContracting := [3]
  rhsContracting := [3]
  lhsNonContracting := [2]
  rhsNonContracting := [2]
  lhsBatch := [0, 1]
  rhsBatch := [0, 1]
  wf := dot_S8x128x128x128_S8x128x128x128_S8x128x128x128_3_3_2_2_01_01_wf
def dot_S8x128x128x128_S8x128x128x128_S8x128x128x128_3_2_2_3_01_01 : DotDims S8x128x128x128 S8x128x128x128 S8x128x128x128 where
  lhsContracting := [3]
  rhsContracting := [2]
  lhsNonContracting := [2]
  rhsNonContracting := [3]
  lhsBatch := [0, 1]
  rhsBatch := [0, 1]
  wf := dot_S8x128x128x128_S8x128x128x128_S8x128x128x128_3_2_2_3_01_01_wf
def dot_S8x128x128x128_S128x256_S8x128x128x256_3_0_012_1_n_n : DotDims S8x128x128x128 S128x256 S8x128x128x256 where
  lhsContracting := [3]
  rhsContracting := [0]
  lhsNonContracting := [0, 1, 2]
  rhsNonContracting := [1]
  lhsBatch := []
  rhsBatch := []
  wf := dot_S8x128x128x128_S128x256_S8x128x128x256_3_0_012_1_n_n_wf

class Facts : Prop extends Facts₀ where

variable [Facts]
-- ==== Proof.FrameBitsDefs.lean ====
/-
  The frame of `Kernel`: the vocabulary.

  @main is one stretch of fourteen host operations (concatenations and a broadcast that assemble the weight and
  normalisation arrays out of the arguments) followed by one pipelined region on an 8 x 8 grid with thirteen
  windows: twelve inputs and one output.  Windows 0 and 12 are blocks of extents [1, 16, 128, 256] of arrays of
  extents [8, 128, 128, 256]; windows 1 to 11 are whole arrays, the same block at every point.

  Here: the buffers as the region finds them (`V`), each window's block at a point (`iblk`), what the body leaves
  in the output window's buffer as a function of the twelve input blocks (`out12`: its one store covers the whole
  buffer, so the buffer ends at that store's payload), and the pipeline's proof data (`dats`).
-/
import proofs.«134137_j43911745634356_2_alg».proof.Proof.Gen.Kernel.Launch
import proofs.«134137_j43911745634356_2_alg».proof.Proof.Gen.Kernel.Skeleton
import proofs.«134137_j43911745634356_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The buffers at the region's entry -/

/-- Core `c`'s TensorCore buffers when the region is entered: the launch contents carried through the fourteen
    host operations in order. -/
abbrev V (c : Dev nD) (b : Ref sig .tc) : Buf (Elt F) ((c : Thread nD τ).loc b) :=
  StableHlo.after hostOps0 (fun b => m (c, b)) b

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: each buffer through its whole rectangle -/

/-- The whole of a [1, 16, 128, 256] block (windows 0 and 12). -/
abbrev rBlock : Rect S1x16x128x256 := Rect.unit (s := S1x16x128x256) ![0, 0, 0, 0] S1x16x128x256.size inb_S1x16x128x256_S1x16x128x256_0_0_0_0
/-- The whole of the [256, 384] array (window 1). -/
abbrev rW1 : Rect S256x384 := Rect.unit (s := S256x384) ![0, 0] S256x384.size inb_S256x384_S256x384_0_0
/-- The whole of the [256, 256] array (window 2). -/
abbrev rW2 : Rect S256x256 := Rect.unit (s := S256x256) ![0, 0] S256x256.size inb_S256x256_S256x256_0_0
/-- The whole of the [128, 256] array (window 3). -/
abbrev rW3 : Rect S128x256 := Rect.unit (s := S128x256) ![0, 0] S128x256.size inb_S128x256_S128x256_0_0
/-- The whole of a [256] vector (windows 4 to 11). -/
abbrev rVec : Rect S256 := Rect.unit (s := S256) ![0] S256.size inb_S256_S256_0

/-! ## What the body leaves in the output window's buffer -/

/-- Window 12's buffer after the body, from the twelve input blocks in window order: the body loads every input
    whole, and stores once, over the whole output block, the value it computes from them — the two projections of
    the first matrix product (`k0_pay3`, `k0_pay4`), the attention (`k0_pay5`) and the last product reshaped
    (`k0_pay1`). -/
def out12 (x0 : Vec F S1x16x128x256 .f32) (x1 : Vec F S256x384 .f32) (x2 : Vec F S256x256 .f32) (x3 : Vec F S128x256 .f32)
    (x4 x5 x6 x7 x8 x9 x10 x11 : Vec F S256 .f32) : Vec F S1x16x128x256 .f32 :=
  View.canon [⟨rBlock,
    k0_pay1
      (k0_pay5 (k0_pay3 (View.ld x0 rBlock) (View.ld x1 rW1))
        (k0_pay4 (View.ld x0 rBlock) (View.ld x1 rW1) (View.ld x4 rVec) (View.ld x5 rVec) (View.ld x6 rVec) (View.ld x7 rVec) (View.ld x2 rW2))
        (View.ld x8 rVec) (View.ld x9 rVec) (View.ld x10 rVec) (View.ld x11 rVec))
      (View.ld x3 rW3)⟩]

/-! ## The pipeline's proof data -/

/-- The proof data of the one pipeline on core `c`: the arrays as the region finds them; after the body at point
    `t` each input's buffer still at its block and the output's at `out12` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

/-- The proof data's arrays are the region-entry contents (the definition projected; `V` is never unfolded). -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) :
    (dats m 0 c).after 12 t = out12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

end Cert.Kernel.Frame

end
-- ==== Proof.FrameBitsHost.lean ====
/-
  The frame of `Kernel`: @main up to the region, and the frame claim's post from a frame run.

  The fourteen host operations write their fourteen results and nothing else, so the region finds every argument
  array as launched.  An input window's buffer holds that window's block at every point, fetched there or not
  (a window that is the same block at every point is fetched once and kept).  The frame claim's post then follows
  from a run that leaves the windows' arrays at what the pipeline computes and every other unscoped buffer as the
  region found it: arguments 0 and 6 are the arrays of the input windows 0 and 3, every other argument bypasses
  the region.
-/
import proofs.«134137_j43911745634356_2_alg».proof.Proof.FrameBitsDefs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- No host operation allocates its result afresh: each overwrites a buffer of the program. -/
theorem hostOps0_fresh : (hostOps0 : List (HloOp τ sig (Elt F))).Forall fun op => op.fresh = ∅ := by
  simp only [List.Forall]; repeat' constructor

/-- @main is the stretch of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The references the host operations write: their fourteen results, in order. -/
def hostResults : List (Ref sig .tc) :=
  [main_v0, main_cst, main_v1, main_v2, main_v3, main_v4, main_v5, main_v6, main_v7, main_v8, main_v9, main_v10, main_v11, main_v12]

/-- A buffer that is none of the fourteen results is found by the region as launched. -/
theorem V_of_not_result (c : Dev nD) (r : Ref sig .tc) (hr : r ∉ hostResults) : V m c r = m ((c : Thread nD τ).loc r) := by
  simp only [hostResults, List.mem_cons, List.mem_nil_iff, or_false, not_or] at hr
  obtain ⟨h0, h1, h2, h3, h4, h5, h6, h7, h8, h9, h10, h11, h12, h13⟩ := hr
  refine StableHlo.after_of_forall_not_mem (b := Proc.devRef .tc r) _ _ (List.forall_iff_forall_mem.mp ?_)
  simp only [hostOps0, List.Forall, StableHlo.nary_writes, StableHlo.nullary_writes, StableHlo.unary_writes,
    StableHlo.binary_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9, StableHlo.devRef_ne_of_ne h10, StableHlo.devRef_ne_of_ne h11,
    StableHlo.devRef_ne_of_ne h12, StableHlo.devRef_ne_of_ne h13⟩

/-! No host operation writes an argument: the region finds each as launched. -/
theorem V_main_arg0 (c : Dev nD) : V m c main_arg0 = m ((c : Thread nD τ).loc main_arg0) := V_of_not_result m c main_arg0 (by decide)
theorem V_main_arg1 (c : Dev nD) : V m c main_arg1 = m ((c : Thread nD τ).loc main_arg1) := V_of_not_result m c main_arg1 (by decide)
theorem V_main_arg2 (c : Dev nD) : V m c main_arg2 = m ((c : Thread nD τ).loc main_arg2) := V_of_not_result m c main_arg2 (by decide)
theorem V_main_arg3 (c : Dev nD) : V m c main_arg3 = m ((c : Thread nD τ).loc main_arg3) := V_of_not_result m c main_arg3 (by decide)
theorem V_main_arg4 (c : Dev nD) : V m c main_arg4 = m ((c : Thread nD τ).loc main_arg4) := V_of_not_result m c main_arg4 (by decide)
theorem V_main_arg5 (c : Dev nD) : V m c main_arg5 = m ((c : Thread nD τ).loc main_arg5) := V_of_not_result m c main_arg5 (by decide)
theorem V_main_arg6 (c : Dev nD) : V m c main_arg6 = m ((c : Thread nD τ).loc main_arg6) := V_of_not_result m c main_arg6 (by decide)
theorem V_main_arg7 (c : Dev nD) : V m c main_arg7 = m ((c : Thread nD τ).loc main_arg7) := V_of_not_result m c main_arg7 (by decide)
theorem V_main_arg8 (c : Dev nD) : V m c main_arg8 = m ((c : Thread nD τ).loc main_arg8) := V_of_not_result m c main_arg8 (by decide)
theorem V_main_arg9 (c : Dev nD) : V m c main_arg9 = m ((c : Thread nD τ).loc main_arg9) := V_of_not_result m c main_arg9 (by decide)
theorem V_main_arg10 (c : Dev nD) : V m c main_arg10 = m ((c : Thread nD τ).loc main_arg10) := V_of_not_result m c main_arg10 (by decide)
theorem V_main_arg11 (c : Dev nD) : V m c main_arg11 = m ((c : Thread nD τ).loc main_arg11) := V_of_not_result m c main_arg11 (by decide)
theorem V_main_arg12 (c : Dev nD) : V m c main_arg12 = m ((c : Thread nD τ).loc main_arg12) := V_of_not_result m c main_arg12 (by decide)
theorem V_main_arg13 (c : Dev nD) : V m c main_arg13 = m ((c : Thread nD τ).loc main_arg13) := V_of_not_result m c main_arg13 (by decide)
theorem V_main_arg14 (c : Dev nD) : V m c main_arg14 = m ((c : Thread nD τ).loc main_arg14) := V_of_not_result m c main_arg14 (by decide)
theorem V_main_arg15 (c : Dev nD) : V m c main_arg15 = m ((c : Thread nD τ).loc main_arg15) := V_of_not_result m c main_arg15 (by decide)
theorem V_main_arg16 (c : Dev nD) : V m c main_arg16 = m ((c : Thread nD τ).loc main_arg16) := V_of_not_result m c main_arg16 (by decide)
theorem V_main_arg17 (c : Dev nD) : V m c main_arg17 = m ((c : Thread nD τ).loc main_arg17) := V_of_not_result m c main_arg17 (by decide)
theorem V_main_arg18 (c : Dev nD) : V m c main_arg18 = m ((c : Thread nD τ).loc main_arg18) := V_of_not_result m c main_arg18 (by decide)
theorem V_main_arg19 (c : Dev nD) : V m c main_arg19 = m ((c : Thread nD τ).loc main_arg19) := V_of_not_result m c main_arg19 (by decide)
theorem V_main_arg20 (c : Dev nD) : V m c main_arg20 = m ((c : Thread nD τ).loc main_arg20) := V_of_not_result m c main_arg20 (by decide)
theorem V_main_arg21 (c : Dev nD) : V m c main_arg21 = m ((c : Thread nD τ).loc main_arg21) := V_of_not_result m c main_arg21 (by decide)
theorem V_main_arg22 (c : Dev nD) : V m c main_arg22 = m ((c : Thread nD τ).loc main_arg22) := V_of_not_result m c main_arg22 (by decide)

/-! ## What the body finds in each input window's buffer

For any proof data whose array is the region-entry contents (`hA`) and whose body leaves the block in place
(`hafter`), the window's current buffer holds its block at every point: where the pipeline fetched it, the block
fetched; where it did not, the block index has not moved and the buffer still holds the block.  No window is cut,
none is ever idle. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run that ends with every window's array at
    what the pipeline computes from the proof data, and every other unscoped buffer as the region found it, ends with
    every argument as launched: an input window's array is never written back, and no host operation writes an
    argument. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 3).trans (((dats 0 c).arrAt_in 3 rfl _).trans ((hA c 3).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c)⟩) h

end Cert.Kernel.Frame

end
-- ==== Proof.FrameBitsBody.lean ====
/-
  The frame of `Kernel`: the kernel body's triple.

  The body loads each of its twelve input buffers whole (seven in its first part, four in its second, one after
  them), loads the output buffer once (a value it never uses), and stores once over the whole output buffer.  So
  from the inputs held at contents reading `x0 … x11` and the output held at anything it runs to its return with
  the inputs as they were and the output reading `out12 x0 … x11`: the one store covers the buffer.
-/
import proofs.«134137_j43911745634356_2_alg».proof.Proof.FrameBitsDefs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one store is through the whole rectangle of the output block, so it covers the block. -/
theorem cover12 (p0 : Vec F S1x16x128x256 .f32) (y : S1x16x128x256.Idx) :
    ∃ pc ∈ ([⟨rBlock, p0⟩] : List (View.Piece (Elt F) S1x16x128x256 .f32)), y ∈ pc.1.set :=
  View.cover_of_tiled [⟨rBlock, p0⟩] S1x16x128x256.size (by rfl) y

set_option maxHeartbeats 2000000 in
/-- The kernel body on whole staging memrefs, the inputs' at read contents `x0 … x11` and the output's at anything,
    at any grid point `i`, runs to the continuation holding the inputs' as they were and the output's at
    `out12 x0 … x11`. -/
theorem sound_kernel (c : Dev nD) (E : Set ℕ) (i : grid0.Coords)
    (arg2 : Memref sig .tc .vmem S1x16x128x256 .f32) (harg2 : arg2.IsWhole)
    (arg3 : Memref sig .tc .vmem S256x384 .f32) (harg3 : arg3.IsWhole)
    (arg4 : Memref sig .tc .vmem S256x256 .f32) (harg4 : arg4.IsWhole)
    (arg5 : Memref sig .tc .vmem S128x256 .f32) (harg5 : arg5.IsWhole)
    (arg6 : Memref sig .tc .vmem S256 .f32) (harg6 : arg6.IsWhole)
    (arg7 : Memref sig .tc .vmem S256 .f32) (harg7 : arg7.IsWhole)
    (arg8 : Memref sig .tc .vmem S256 .f32) (harg8 : arg8.IsWhole)
    (arg9 : Memref sig .tc .vmem S256 .f32) (harg9 : arg9.IsWhole)
    (arg10 : Memref sig .tc .vmem S256 .f32) (harg10 : arg10.IsWhole)
    (arg11 : Memref sig .tc .vmem S256 .f32) (harg11 : arg11.IsWhole)
    (arg12 : Memref sig .tc .vmem S256 .f32) (harg12 : arg12.IsWhole)
    (arg13 : Memref sig .tc .vmem S256 .f32) (harg13 : arg13.IsWhole)
    (arg14 : Memref sig .tc .vmem S1x16x128x256 .f32) (harg14 : arg14.IsWhole)
    (x0 : Vec F S1x16x128x256 .f32) (x1 : Vec F S256x384 .f32) (x2 : Vec F S256x256 .f32) (x3 : Vec F S128x256 .f32)
    (x4 x5 x6 x7 x8 x9 x10 x11 : Vec F S256 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11
        ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11
            ∗ owns (c : Thread nD τ) arg14 fullShare (out12 x0 x1 x2 x3 x4 x5 x6 x7 x8 x9 x10 x11)) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0; subst hf1; subst hf2; subst hf3; subst hf4; subst hf5; subst hf6; subst hf7; subst hf8; subst hf9; subst hf10; subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover12 _)

end Cert.Kernel.Frame

end
-- ==== Proof.FrameBits.lean ====
/-
  The frame of `Kernel`: the body obligation, the run and the frame.

  At every point the body is handed each input window's buffer at that window's block and the output window's at
  something; it hands back the inputs as they were and the output at `out12` of the input blocks; the invariant (the
  scoped rest, the generator register) and what the core owes pass through unread.  The pipeline's launch theorem
  then runs @main: it terminates without fault, every window's array ends at what the pipeline computes from the
  proof data and every other unscoped buffer as the region found it — in particular every argument as launched.
-/
import proofs.«134137_j43911745634356_2_alg».proof.Proof.FrameBitsHost
import proofs.«134137_j43911745634356_2_alg».proof.Proof.FrameBitsBody

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds in each input window's buffer -/

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d

/-! ## The body obligation, at a generic point -/

/-- What the body is called with at point `t`: the invariant, what the core owes, and the thirteen windows' current
    buffers, each at what it then holds; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns: the same, each buffer at what the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 1000000 in
/-- The body at any point: the inputs' buffers hold their blocks, so the kernel's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the pipeline computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.Kernel.Frame.run_main' depends on axioms: [propext, Classical.choice, Quot.sound] -/
#guard_msgs in #print axioms run_main

/-- The frame: @main runs to its end without fault and leaves each of its twenty-three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  frame_of m ρ (dats m) (A_eq m) (run_main m ρ)

end Cert.Kernel.Frame

end
-- ==== Proof.FrameIdealDefs.lean ====
/-
  The frame of `KernelIdeal`: the vocabulary.

  @main is one stretch of fourteen host operations (concatenations and a broadcast that assemble the weight and
  normalisation arrays out of the arguments) followed by one pipelined region on an 8 x 8 grid with thirteen
  windows: twelve inputs and one output.  Windows 0 and 12 are blocks of extents [1, 16, 128, 256] of arrays of
  extents [8, 128, 128, 256]; windows 1 to 11 are whole arrays, the same block at every point.

  Here: the buffers as the region finds them (`V`), each window's block at a point (`iblk`), what the body leaves
  in the output window's buffer as a function of the twelve input blocks (`out12`: its one store covers the whole
  buffer, so the buffer ends at that store's payload), and the pipeline's proof data (`dats`).
-/
import proofs.«134137_j43911745634356_2_alg».proof.Proof.Gen.KernelIdeal.Launch
import proofs.«134137_j43911745634356_2_alg».proof.Proof.Gen.KernelIdeal.Skeleton
import proofs.«134137_j43911745634356_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The buffers at the region's entry -/

/-- Core `c`'s TensorCore buffers when the region is entered: the launch contents carried through the fourteen
    host operations in order. -/
abbrev V (c : Dev nD) (b : Ref sig .tc) : Buf (Elt F) ((c : Thread nD τ).loc b) :=
  StableHlo.after hostOps0 (fun b => m (c, b)) b

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: each buffer through its whole rectangle -/

/-- The whole of a [1, 16, 128, 256] block (windows 0 and 12). -/
abbrev rBlock : Rect S1x16x128x256 := Rect.unit (s := S1x16x128x256) ![0, 0, 0, 0] S1x16x128x256.size inb_S1x16x128x256_S1x16x128x256_0_0_0_0
/-- The whole of the [256, 384] array (window 1). -/
abbrev rW1 : Rect S256x384 := Rect.unit (s := S256x384) ![0, 0] S256x384.size inb_S256x384_S256x384_0_0
/-- The whole of the [256, 256] array (window 2). -/
abbrev rW2 : Rect S256x256 := Rect.unit (s := S256x256) ![0, 0] S256x256.size inb_S256x256_S256x256_0_0
/-- The whole of the [128, 256] array (window 3). -/
abbrev rW3 : Rect S128x256 := Rect.unit (s := S128x256) ![0, 0] S128x256.size inb_S128x256_S128x256_0_0
/-- The whole of a [256] vector (windows 4 to 11). -/
abbrev rVec : Rect S256 := Rect.unit (s := S256) ![0] S256.size inb_S256_S256_0

/-! ## What the body leaves in the output window's buffer -/

/-- Window 12's buffer after the body, from the twelve input blocks in window order: the body loads every input
    whole, and stores once, over the whole output block, the value it computes from them — the two projections of
    the first matrix product (`k0_pay3`, `k0_pay4`), the attention (`k0_pay5`) and the last product reshaped
    (`k0_pay1`). -/
def out12 (x0 : Vec F S1x16x128x256 .f32) (x1 : Vec F S256x384 .f32) (x2 : Vec F S256x256 .f32) (x3 : Vec F S128x256 .f32)
    (x4 x5 x6 x7 x8 x9 x10 x11 : Vec F S256 .f32) : Vec F S1x16x128x256 .f32 :=
  View.canon [⟨rBlock,
    k0_pay1
      (k0_pay5 (k0_pay3 (View.ld x0 rBlock) (View.ld x1 rW1))
        (k0_pay4 (View.ld x0 rBlock) (View.ld x1 rW1) (View.ld x4 rVec) (View.ld x5 rVec) (View.ld x6 rVec) (View.ld x7 rVec) (View.ld x2 rW2))
        (View.ld x8 rVec) (View.ld x9 rVec) (View.ld x10 rVec) (View.ld x11 rVec))
      (View.ld x3 rW3)⟩]

/-! ## The pipeline's proof data -/

/-- The proof data of the one pipeline on core `c`: the arrays as the region finds them; after the body at point
    `t` each input's buffer still at its block and the output's at `out12` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

/-- The proof data's arrays are the region-entry contents (the definition projected; `V` is never unfolded). -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) :
    (dats m 0 c).after 12 t = out12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

end Cert.KernelIdeal.Frame

end
-- ==== Proof.FrameIdealHost.lean ====
/-
  The frame of `KernelIdeal`: @main up to the region, and the frame claim's post from a frame run.

  The fourteen host operations write their fourteen results and nothing else, so the region finds every argument
  array as launched.  An input window's buffer holds that window's block at every point, fetched there or not
  (a window that is the same block at every point is fetched once and kept).  The frame claim's post then follows
  from a run that leaves the windows' arrays at what the pipeline computes and every other unscoped buffer as the
  region found it: arguments 0 and 6 are the arrays of the input windows 0 and 3, every other argument bypasses
  the region.
-/
import proofs.«134137_j43911745634356_2_alg».proof.Proof.FrameIdealDefs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- No host operation allocates its result afresh: each overwrites a buffer of the program. -/
theorem hostOps0_fresh : (hostOps0 : List (HloOp τ sig (Elt F))).Forall fun op => op.fresh = ∅ := by
  simp only [List.Forall]; repeat' constructor

/-- @main is the stretch of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The references the host operations write: their fourteen results, in order. -/
def hostResults : List (Ref sig .tc) :=
  [main_v0, main_cst, main_v1, main_v2, main_v3, main_v4, main_v5, main_v6, main_v7, main_v8, main_v9, main_v10, main_v11, main_v12]

/-- A buffer that is none of the fourteen results is found by the region as launched. -/
theorem V_of_not_result (c : Dev nD) (r : Ref sig .tc) (hr : r ∉ hostResults) : V m c r = m ((c : Thread nD τ).loc r) := by
  simp only [hostResults, List.mem_cons, List.mem_nil_iff, or_false, not_or] at hr
  obtain ⟨h0, h1, h2, h3, h4, h5, h6, h7, h8, h9, h10, h11, h12, h13⟩ := hr
  refine StableHlo.after_of_forall_not_mem (b := Proc.devRef .tc r) _ _ (List.forall_iff_forall_mem.mp ?_)
  simp only [hostOps0, List.Forall, StableHlo.nary_writes, StableHlo.nullary_writes, StableHlo.unary_writes,
    StableHlo.binary_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9, StableHlo.devRef_ne_of_ne h10, StableHlo.devRef_ne_of_ne h11,
    StableHlo.devRef_ne_of_ne h12, StableHlo.devRef_ne_of_ne h13⟩

/-! No host operation writes an argument: the region finds each as launched. -/
theorem V_main_arg0 (c : Dev nD) : V m c main_arg0 = m ((c : Thread nD τ).loc main_arg0) := V_of_not_result m c main_arg0 (by decide)
theorem V_main_arg1 (c : Dev nD) : V m c main_arg1 = m ((c : Thread nD τ).loc main_arg1) := V_of_not_result m c main_arg1 (by decide)
theorem V_main_arg2 (c : Dev nD) : V m c main_arg2 = m ((c : Thread nD τ).loc main_arg2) := V_of_not_result m c main_arg2 (by decide)
theorem V_main_arg3 (c : Dev nD) : V m c main_arg3 = m ((c : Thread nD τ).loc main_arg3) := V_of_not_result m c main_arg3 (by decide)
theorem V_main_arg4 (c : Dev nD) : V m c main_arg4 = m ((c : Thread nD τ).loc main_arg4) := V_of_not_result m c main_arg4 (by decide)
theorem V_main_arg5 (c : Dev nD) : V m c main_arg5 = m ((c : Thread nD τ).loc main_arg5) := V_of_not_result m c main_arg5 (by decide)
theorem V_main_arg6 (c : Dev nD) : V m c main_arg6 = m ((c : Thread nD τ).loc main_arg6) := V_of_not_result m c main_arg6 (by decide)
theorem V_main_arg7 (c : Dev nD) : V m c main_arg7 = m ((c : Thread nD τ).loc main_arg7) := V_of_not_result m c main_arg7 (by decide)
theorem V_main_arg8 (c : Dev nD) : V m c main_arg8 = m ((c : Thread nD τ).loc main_arg8) := V_of_not_result m c main_arg8 (by decide)
theorem V_main_arg9 (c : Dev nD) : V m c main_arg9 = m ((c : Thread nD τ).loc main_arg9) := V_of_not_result m c main_arg9 (by decide)
theorem V_main_arg10 (c : Dev nD) : V m c main_arg10 = m ((c : Thread nD τ).loc main_arg10) := V_of_not_result m c main_arg10 (by decide)
theorem V_main_arg11 (c : Dev nD) : V m c main_arg11 = m ((c : Thread nD τ).loc main_arg11) := V_of_not_result m c main_arg11 (by decide)
theorem V_main_arg12 (c : Dev nD) : V m c main_arg12 = m ((c : Thread nD τ).loc main_arg12) := V_of_not_result m c main_arg12 (by decide)
theorem V_main_arg13 (c : Dev nD) : V m c main_arg13 = m ((c : Thread nD τ).loc main_arg13) := V_of_not_result m c main_arg13 (by decide)
theorem V_main_arg14 (c : Dev nD) : V m c main_arg14 = m ((c : Thread nD τ).loc main_arg14) := V_of_not_result m c main_arg14 (by decide)
theorem V_main_arg15 (c : Dev nD) : V m c main_arg15 = m ((c : Thread nD τ).loc main_arg15) := V_of_not_result m c main_arg15 (by decide)
theorem V_main_arg16 (c : Dev nD) : V m c main_arg16 = m ((c : Thread nD τ).loc main_arg16) := V_of_not_result m c main_arg16 (by decide)
theorem V_main_arg17 (c : Dev nD) : V m c main_arg17 = m ((c : Thread nD τ).loc main_arg17) := V_of_not_result m c main_arg17 (by decide)
theorem V_main_arg18 (c : Dev nD) : V m c main_arg18 = m ((c : Thread nD τ).loc main_arg18) := V_of_not_result m c main_arg18 (by decide)
theorem V_main_arg19 (c : Dev nD) : V m c main_arg19 = m ((c : Thread nD τ).loc main_arg19) := V_of_not_result m c main_arg19 (by decide)
theorem V_main_arg20 (c : Dev nD) : V m c main_arg20 = m ((c : Thread nD τ).loc main_arg20) := V_of_not_result m c main_arg20 (by decide)
theorem V_main_arg21 (c : Dev nD) : V m c main_arg21 = m ((c : Thread nD τ).loc main_arg21) := V_of_not_result m c main_arg21 (by decide)
theorem V_main_arg22 (c : Dev nD) : V m c main_arg22 = m ((c : Thread nD τ).loc main_arg22) := V_of_not_result m c main_arg22 (by decide)

/-! ## What the body finds in each input window's buffer

For any proof data whose array is the region-entry contents (`hA`) and whose body leaves the block in place
(`hafter`), the window's current buffer holds its block at every point: where the pipeline fetched it, the block
fetched; where it did not, the block index has not moved and the buffer still holds the block.  No window is cut,
none is ever idle. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run that ends with every window's array at
    what the pipeline computes from the proof data, and every other unscoped buffer as the region found it, ends with
    every argument as launched: an input window's array is never written back, and no host operation writes an
    argument. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 3).trans (((dats 0 c).arrAt_in 3 rfl _).trans ((hA c 3).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c)⟩) h

end Cert.KernelIdeal.Frame

end
-- ==== Proof.FrameIdealBody.lean ====
/-
  The frame of `KernelIdeal`: the kernel body's triple.

  The body loads each of its twelve input buffers whole (seven in its first part, four in its second, one after
  them), loads the output buffer once (a value it never uses), and stores once over the whole output buffer.  So
  from the inputs held at contents reading `x0 … x11` and the output held at anything it runs to its return with
  the inputs as they were and the output reading `out12 x0 … x11`: the one store covers the buffer.
-/
import proofs.«134137_j43911745634356_2_alg».proof.Proof.FrameIdealDefs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one store is through the whole rectangle of the output block, so it covers the block. -/
theorem cover12 (p0 : Vec F S1x16x128x256 .f32) (y : S1x16x128x256.Idx) :
    ∃ pc ∈ ([⟨rBlock, p0⟩] : List (View.Piece (Elt F) S1x16x128x256 .f32)), y ∈ pc.1.set :=
  View.cover_of_tiled [⟨rBlock, p0⟩] S1x16x128x256.size (by rfl) y

set_option maxHeartbeats 2000000 in
/-- The kernel body on whole staging memrefs, the inputs' at read contents `x0 … x11` and the output's at anything,
    at any grid point `i`, runs to the continuation holding the inputs' as they were and the output's at
    `out12 x0 … x11`. -/
theorem sound_kernel (c : Dev nD) (E : Set ℕ) (i : grid0.Coords)
    (arg2 : Memref sig .tc .vmem S1x16x128x256 .f32) (harg2 : arg2.IsWhole)
    (arg3 : Memref sig .tc .vmem S256x384 .f32) (harg3 : arg3.IsWhole)
    (arg4 : Memref sig .tc .vmem S256x256 .f32) (harg4 : arg4.IsWhole)
    (arg5 : Memref sig .tc .vmem S128x256 .f32) (harg5 : arg5.IsWhole)
    (arg6 : Memref sig .tc .vmem S256 .f32) (harg6 : arg6.IsWhole)
    (arg7 : Memref sig .tc .vmem S256 .f32) (harg7 : arg7.IsWhole)
    (arg8 : Memref sig .tc .vmem S256 .f32) (harg8 : arg8.IsWhole)
    (arg9 : Memref sig .tc .vmem S256 .f32) (harg9 : arg9.IsWhole)
    (arg10 : Memref sig .tc .vmem S256 .f32) (harg10 : arg10.IsWhole)
    (arg11 : Memref sig .tc .vmem S256 .f32) (harg11 : arg11.IsWhole)
    (arg12 : Memref sig .tc .vmem S256 .f32) (harg12 : arg12.IsWhole)
    (arg13 : Memref sig .tc .vmem S256 .f32) (harg13 : arg13.IsWhole)
    (arg14 : Memref sig .tc .vmem S1x16x128x256 .f32) (harg14 : arg14.IsWhole)
    (x0 : Vec F S1x16x128x256 .f32) (x1 : Vec F S256x384 .f32) (x2 : Vec F S256x256 .f32) (x3 : Vec F S128x256 .f32)
    (x4 x5 x6 x7 x8 x9 x10 x11 : Vec F S256 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11
        ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11
            ∗ owns (c : Thread nD τ) arg14 fullShare (out12 x0 x1 x2 x3 x4 x5 x6 x7 x8 x9 x10 x11)) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0; subst hf1; subst hf2; subst hf3; subst hf4; subst hf5; subst hf6; subst hf7; subst hf8; subst hf9; subst hf10; subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover12 _)

end Cert.KernelIdeal.Frame

end
-- ==== Proof.FrameIdeal.lean ====
/-
  The frame of `KernelIdeal`: the body obligation, the run and the frame.

  At every point the body is handed each input window's buffer at that window's block and the output window's at
  something; it hands back the inputs as they were and the output at `out12` of the input blocks; the invariant (the
  scoped rest, the generator register) and what the core owes pass through unread.  The pipeline's launch theorem
  then runs @main: it terminates without fault, every window's array ends at what the pipeline computes from the
  proof data and every other unscoped buffer as the region found it — in particular every argument as launched.
-/
import proofs.«134137_j43911745634356_2_alg».proof.Proof.FrameIdealHost
import proofs.«134137_j43911745634356_2_alg».proof.Proof.FrameIdealBody

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds in each input window's buffer -/

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d

/-! ## The body obligation, at a generic point -/

/-- What the body is called with at point `t`: the invariant, what the core owes, and the thirteen windows' current
    buffers, each at what it then holds; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns: the same, each buffer at what the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 1000000 in
/-- The body at any point: the inputs' buffers hold their blocks, so the kernel's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the pipeline computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.KernelIdeal.Frame.run_main' depends on axioms: [propext, Classical.choice, Quot.sound] -/
#guard_msgs in #print axioms run_main

/-- The frame: @main runs to its end without fault and leaves each of its twenty-three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  frame_of m ρ (dats m) (A_eq m) (run_main m ρ)

end Cert.KernelIdeal.Frame

end
-- ==== Proof.AttnSpec.lean ====
/-
  The function both programs compute, written once over the argument arrays, on the extended reals.

  For an input x[b,h,u,·] with 256 channels: two branches (theta, phi) each apply a 1x1 convolution
  (a sum over the channels against a weight matrix), an affine per-channel normalisation
  g·(y − mu)·(v + eps)^(-1/2) + beta, and a clamp below at zero, twice; a third branch (gamma) is a bare
  1x1 convolution. For a fixed (b,h) the scores s[u,v] = scale · Σ_c theta[u,c]·phi[v,c] are turned into
  weights along v — the exponential of the difference to the row's maximum, divided by the row's sum of
  those exponentials —, the weights average gamma over v, and a last 1x1 convolution maps the 128
  channels back to 256. Every literal is kept as the word it is printed with.
-/
import Idealize.ShloMosaic.PureOps.Ideal
import Idealize.ShloMosaic.Lib.ValueIdx

noncomputable section

namespace Attn

open Idealize.ShloMosaic Idealize.ShloMosaic.ValueIdx

abbrev Arr4 := (⟨4, ![8, 128, 128, 256]⟩ : Shape).Idx → EReal
abbrev MatIn := (⟨2, ![256, 128]⟩ : Shape).Idx → EReal
abbrev MatMid := (⟨2, ![128, 128]⟩ : Shape).Idx → EReal
abbrev MatOut := (⟨2, ![128, 256]⟩ : Shape).Idx → EReal
abbrev Chan := (⟨1, ![128]⟩ : Shape).Idx → EReal
/-- A branch's activations: one extended real per (b, h, u, channel). -/
abbrev Act := Fin 8 → Fin 128 → Fin 128 → Fin 128 → EReal

/-- The normalisation's epsilon, the clamp's zero, the scores' scale and the maximum's start, as printed. -/
def eps : EReal := Ideal.ofBits .f32 0x3A83126F#32
def zero : EReal := Ideal.ofBits .f32 0x00000000#32
def scale : EReal := Ideal.ofBits .f32 0x3DB504F3#32
def negInf : EReal := Ideal.ofBits .f32 0xFF800000#32

/-- Per-channel affine normalisation followed by the clamp below at zero. -/
def normClamp (g beta mu v : Chan) (c : Fin 128) (y : EReal) : EReal :=
  max (g (ix1 c) * (y - mu (ix1 c)) * Ideal.rsqrt (v (ix1 c) + eps) + beta (ix1 c)) zero

/-- The first 1x1 convolution: the input's 256 channels against a weight column. -/
def convIn (x : Arr4) (w : MatIn) : Act := fun b h u c => ∑ k : Fin 256, x (ix4 b h u k) * w (ix2 k c)

/-- A branch's first layer: convolution, normalise, clamp. -/
def layerOne (x : Arr4) (w1 : MatIn) (g1 b1 m1 v1 : Chan) : Act :=
  fun b h u k => normClamp g1 b1 m1 v1 k (convIn x w1 b h u k)

/-- A branch's second layer over the first layer's 128 channels. -/
def layerTwo (a : Act) (w2 : MatMid) (g2 b2 m2 v2 : Chan) : Act :=
  fun b h u c => normClamp g2 b2 m2 v2 c (∑ k : Fin 128, a b h u k * w2 (ix2 k c))

/-- The scores of row u against position v, for one (b, h). -/
def score (th ph : Act) (b : Fin 8) (h u v : Fin 128) : EReal :=
  scale * ∑ c : Fin 128, th b h u c * ph b h v c

/-- A row's maximum: the fold of max from the start value, capped below by the start value once more. -/
def rowMax (s : Fin 128 → EReal) : EReal := max negInf ((Finset.univ : Finset (Fin 128)).fold max negInf s)

/-- The weight of position v in a row of scores. -/
def weight (s : Fin 128 → EReal) (v : Fin 128) : EReal :=
  Ideal.div (Ideal.exp (s v - rowMax s)) (∑ v' : Fin 128, Ideal.exp (s v' - rowMax s))

/-- The weighted average of gamma over v, per (b, h, u, channel). -/
def attend (th ph ga : Act) : Act :=
  fun b h u c => ∑ v : Fin 128, weight (score th ph b h u) v * ga b h v c

/-- The whole function, per (b, h, u, output channel). -/
def result (x : Arr4) (tw1 : MatIn) (tw2 : MatMid) (pw1 : MatIn) (pw2 : MatMid) (gw : MatIn) (rw : MatOut)
    (t1g t1b t1m t1v t2g t2b t2m t2v p1g p1b p1m p1v p2g p2b p2m p2v : Chan)
    (b : Fin 8) (h u : Fin 128) (f : Fin 256) : EReal :=
  ∑ c : Fin 128,
    attend (layerTwo (layerOne x tw1 t1g t1b t1m t1v) tw2 t2g t2b t2m t2v)
      (layerTwo (layerOne x pw1 p1g p1b p1m p1v) pw2 p2g p2b p2m p2v) (convIn x gw) b h u c * rw (ix2 c f)

/-- The result as an array. -/
def resultArr (x : Arr4) (tw1 : MatIn) (tw2 : MatMid) (pw1 : MatIn) (pw2 : MatMid) (gw : MatIn) (rw : MatOut)
    (t1g t1b t1m t1v t2g t2b t2m t2v p1g p1b p1m p1v p2g p2b p2m p2v : Chan) : Arr4 :=
  fun i => result x tw1 tw2 pw1 pw2 gw rw t1g t1b t1m t1v t2g t2b t2m t2v p1g p1b p1m p1v p2g p2b p2m p2v
    (i 0) (i 1) (i 2) (i 3)

/-- A sum over 256 consecutive positions is the sum over the first 128 plus the sum over the last 128. -/
theorem sum_halves {M : Type*} [AddCommMonoid M] (f : Fin 256 → M) :
    ∑ k : Fin 256, f k = ∑ k : Fin 128, f ⟨k.val, by omega⟩ + ∑ k : Fin 128, f ⟨128 + k.val, by omega⟩ :=
  Fin.sum_univ_add (a := 128) (b := 128) (f : Fin (128 + 128) → M)

end Attn

end
-- ==== Proof.RefLayers.lean ====
/-
  The reference program's two two-layer branches and its bare convolution, read at an index.

  Each branch layer is: a sum over the input channels against a weight column, then per channel
  g·(y − mu)·(v + eps)^(-1/2) + beta, then the maximum with zero. The per-channel vectors reach the
  four-dimensional array through two broadcasts; read at (b, h, u, c) each is its entry c.
-/
import proofs.«134137_j43911745634356_2_alg».proof.Proof.AttnSpec
import proofs.«134137_j43911745634356_2_alg».proof.Proof.Gen.ReferenceIdeal.Read
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

variable (x0 : (⟨S8x128x128x256, .f32⟩ : BufTy).Contents (Elt Ideal)) (x1 : (⟨S256x128, .f32⟩ : BufTy).Contents (Elt Ideal)) (x2 : (⟨S128x128, .f32⟩ : BufTy).Contents (Elt Ideal))
  (x3 : (⟨S256x128, .f32⟩ : BufTy).Contents (Elt Ideal)) (x4 : (⟨S128x128, .f32⟩ : BufTy).Contents (Elt Ideal)) (x5 : (⟨S256x128, .f32⟩ : BufTy).Contents (Elt Ideal)) (x6 : (⟨S128x256, .f32⟩ : BufTy).Contents (Elt Ideal))
  (x7 x8 x9 x10 x11 x12 x13 x14 x15 x16 x17 x18 x19 x20 x21 x22 : (⟨S128, .f32⟩ : BufTy).Contents (Elt Ideal))

/-! ## Per-channel vectors, broadcast over (b, h, u) -/

/-- The broadcast of a per-channel vector, read at (b, h, u, c), is the vector's entry c. -/
theorem chan_v5 (b : Fin 8) (h u c : Fin 128) :
    val_main_v5 (F := Ideal) x15 (ix4 b h u c) = x15 (ix1 c) := by
  rw [val_main_v5_apply, val_main_v4_apply]
  exact congrArg x15 (funext fun a => match a with | ⟨0, _⟩ => rfl)

/-- The broadcast of a per-channel vector, read at (b, h, u, c), is the vector's entry c. -/
theorem chan_v2 (b : Fin 8) (h u c : Fin 128) :
    val_main_v2 (F := Ideal) x17 (ix4 b h u c) = x17 (ix1 c) := by
  rw [val_main_v2_apply, val_main_v1_apply]
  exact congrArg x17 (funext fun a => match a with | ⟨0, _⟩ => rfl)

/-- The broadcast of a per-channel vector, read at (b, h, u, c), is the vector's entry c. -/
theorem chan_v14 (b : Fin 8) (h u c : Fin 128) :
    val_main_v14 (F := Ideal) x16 (ix4 b h u c) = x16 (ix1 c) := by
  rw [val_main_v14_apply, val_main_v13_apply]
  exact congrArg x16 (funext fun a => match a with | ⟨0, _⟩ => rfl)

/-- The broadcast inverse square root of (variance + epsilon), read at (b, h, u, c). -/
theorem rsqrt_v11 (b : Fin 8) (h u c : Fin 128) :
    val_main_v11 (F := Ideal) x18 (ix4 b h u c) = Ideal.rsqrt (x18 (ix1 c) + Attn.eps) := by
  rw [val_main_v11_apply, val_main_v10_apply, val_main_v9_apply, val_main_v8_apply, val_main_v7_apply,
    val_main_cst_apply]
  exact congrArg (fun j => Ideal.rsqrt (x18 j + Attn.eps)) (funext fun a => match a with | ⟨0, _⟩ => rfl)

/-- The broadcast of a per-channel vector, read at (b, h, u, c), is the vector's entry c. -/
theorem chan_v22 (b : Fin 8) (h u c : Fin 128) :
    val_main_v22 (F := Ideal) x19 (ix4 b h u c) = x19 (ix1 c) := by
  rw [val_main_v22_apply, val_main_v21_apply]
  exact congrArg x19 (funext fun a => match a with | ⟨0, _⟩ => rfl)

/-- The broadcast of a per-channel vector, read at (b, h, u, c), is the vector's entry c. -/
theorem chan_v19 (b : Fin 8) (h u c : Fin 128) :
    val_main_v19 (F := Ideal) x21 (ix4 b h u c) = x21 (ix1 c) := by
  rw [val_main_v19_apply, val_main_v18_apply]
  exact congrArg x21 (funext fun a => match a with | ⟨0, _⟩ => rfl)

/-- The broadcast of a per-channel vector, read at (b, h, u, c), is the vector's entry c. -/
theorem chan_v31 (b : Fin 8) (h u c : Fin 128) :
    val_main_v31 (F := Ideal) x20 (ix4 b h u c) = x20 (ix1 c) := by
  rw [val_main_v31_apply, val_main_v30_apply]
  exact congrArg x20 (funext fun a => match a with | ⟨0, _⟩ => rfl)

/-- The broadcast inverse square root of (variance + epsilon), read at (b, h, u, c). -/
theorem rsqrt_v28 (b : Fin 8) (h u c : Fin 128) :
    val_main_v28 (F := Ideal) x22 (ix4 b h u c) = Ideal.rsqrt (x22 (ix1 c) + Attn.eps) := by
  rw [val_main_v28_apply, val_main_v27_apply, val_main_v26_apply, val_main_v25_apply, val_main_v24_apply,
    val_main_cst_0_apply]
  exact congrArg (fun j => Ideal.rsqrt (x22 j + Attn.eps)) (funext fun a => match a with | ⟨0, _⟩ => rfl)

/-- The broadcast of a per-channel vector, read at (b, h, u, c), is the vector's entry c. -/
theorem chan_v39 (b : Fin 8) (h u c : Fin 128) :
    val_main_v39 (F := Ideal) x7 (ix4 b h u c) = x7 (ix1 c) := by
  rw [val_main_v39_apply, val_main_v38_apply]
  exact congrArg x7 (funext fun a => match a with | ⟨0, _⟩ => rfl)

/-- The broadcast of a per-channel vector, read at (b, h, u, c), is the vector's entry c. -/
theorem chan_v36 (b : Fin 8) (h u c : Fin 128) :
    val_main_v36 (F := Ideal) x9 (ix4 b h u c) = x9 (ix1 c) := by
  rw [val_main_v36_apply, val_main_v35_apply]
  exact congrArg x9 (funext fun a => match a with | ⟨0, _⟩ => rfl)

/-- The broadcast of a per-channel vector, read at (b, h, u, c), is the vector's entry c. -/
theorem chan_v48 (b : Fin 8) (h u c : Fin 128) :
    val_main_v48 (F := Ideal) x8 (ix4 b h u c) = x8 (ix1 c) := by
  rw [val_main_v48_apply, val_main_v47_apply]
  exact congrArg x8 (funext fun a => match a with | ⟨0, _⟩ => rfl)

/-- The broadcast inverse square root of (variance + epsilon), read at (b, h, u, c). -/
theorem rsqrt_v45 (b : Fin 8) (h u c : Fin 128) :
    val_main_v45 (F := Ideal) x10 (ix4 b h u c) = Ideal.rsqrt (x10 (ix1 c) + Attn.eps) := by
  rw [val_main_v45_apply, val_main_v44_apply, val_main_v43_apply, val_main_v42_apply, val_main_v41_apply,
    val_main_cst_1_apply]
  exact congrArg (fun j => Ideal.rsqrt (x10 j + Attn.eps)) (funext fun a => match a with | ⟨0, _⟩ => rfl)

/-- The broadcast of a per-channel vector, read at (b, h, u, c), is the vector's entry c. -/
theorem chan_v56 (b : Fin 8) (h u c : Fin 128) :
    val_main_v56 (F := Ideal) x11 (ix4 b h u c) = x11 (ix1 c) := by
  rw [val_main_v56_apply, val_main_v55_apply]
  exact congrArg x11 (funext fun a => match a with | ⟨0, _⟩ => rfl)

/-- The broadcast of a per-channel vector, read at (b, h, u, c), is the vector's entry c. -/
theorem chan_v53 (b : Fin 8) (h u c : Fin 128) :
    val_main_v53 (F := Ideal) x13 (ix4 b h u c) = x13 (ix1 c) := by
  rw [val_main_v53_apply, val_main_v52_apply]
  exact congrArg x13 (funext fun a => match a with | ⟨0, _⟩ => rfl)

/-- The broadcast of a per-channel vector, read at (b, h, u, c), is the vector's entry c. -/
theorem chan_v65 (b : Fin 8) (h u c : Fin 128) :
    val_main_v65 (F := Ideal) x12 (ix4 b h u c) = x12 (ix1 c) := by
  rw [val_main_v65_apply, val_main_v64_apply]
  exact congrArg x12 (funext fun a => match a with | ⟨0, _⟩ => rfl)

/-- The broadcast inverse square root of (variance + epsilon), read at (b, h, u, c). -/
theorem rsqrt_v62 (b : Fin 8) (h u c : Fin 128) :
    val_main_v62 (F := Ideal) x14 (ix4 b h u c) = Ideal.rsqrt (x14 (ix1 c) + Attn.eps) := by
  rw [val_main_v62_apply, val_main_v61_apply, val_main_v60_apply, val_main_v59_apply, val_main_v58_apply,
    val_main_cst_2_apply]
  exact congrArg (fun j => Ideal.rsqrt (x14 j + Attn.eps)) (funext fun a => match a with | ⟨0, _⟩ => rfl)

/-! ## The clamp's zero -/

/-- The clamp's broadcast zero, read at any index. -/
theorem zero_call0 (i : S8x128x128x128.Idx) : val_main_call0_v0 (F := Ideal) i = Attn.zero := by
  rw [val_main_call0_v0_apply, val_main_call0_cst_apply]; rfl

/-- The clamp's broadcast zero, read at any index. -/
theorem zero_call1 (i : S8x128x128x128.Idx) : val_main_call1_v0 (F := Ideal) i = Attn.zero := by
  rw [val_main_call1_v0_apply, val_main_call1_cst_apply]; rfl

/-- The clamp's broadcast zero, read at any index. -/
theorem zero_call2 (i : S8x128x128x128.Idx) : val_main_call2_v0 (F := Ideal) i = Attn.zero := by
  rw [val_main_call2_v0_apply, val_main_call2_cst_apply]; rfl

/-- The clamp's broadcast zero, read at any index. -/
theorem zero_call3 (i : S8x128x128x128.Idx) : val_main_call3_v0 (F := Ideal) i = Attn.zero := by
  rw [val_main_call3_v0_apply, val_main_call3_cst_apply]; rfl

/-! ## The three convolutions of the input -/

/-- A 1x1 convolution of the input, read at (b, h, u, c): the sum over the 256 input channels. -/
theorem conv_v0 (b : Fin 8) (h u c : Fin 128) :
    val_main_v0 (F := Ideal) x0 x3 (ix4 b h u c) = Attn.convIn x0 x3 b h u c := by
  rw [val_main_v0_apply]
  have el : ∀ k : Fin 256, lidx_main_v0 (ix4 b h u c) k = ix4 b h u k :=
    fun k => funext fun a => match a with | ⟨0, _⟩ => rfl | ⟨1, _⟩ => rfl | ⟨2, _⟩ => rfl | ⟨3, _⟩ => rfl
  have er : ∀ k : Fin 256, ridx_main_v0 (ix4 b h u c) k = ix2 k c :=
    fun k => funext fun a => match a with | ⟨0, _⟩ => rfl | ⟨1, _⟩ => rfl
  simp only [el, er]
  rfl

/-- A 1x1 convolution of the input, read at (b, h, u, c): the sum over the 256 input channels. -/
theorem conv_v34 (b : Fin 8) (h u c : Fin 128) :
    val_main_v34 (F := Ideal) x0 x1 (ix4 b h u c) = Attn.convIn x0 x1 b h u c := by
  rw [val_main_v34_apply]
  have el : ∀ k : Fin 256, lidx_main_v34 (ix4 b h u c) k = ix4 b h u k :=
    fun k => funext fun a => match a with | ⟨0, _⟩ => rfl | ⟨1, _⟩ => rfl | ⟨2, _⟩ => rfl | ⟨3, _⟩ => rfl
  have er : ∀ k : Fin 256, ridx_main_v34 (ix4 b h u c) k = ix2 k c :=
    fun k => funext fun a => match a with | ⟨0, _⟩ => rfl | ⟨1, _⟩ => rfl
  simp only [el, er]
  rfl

/-- A 1x1 convolution of the input, read at (b, h, u, c): the sum over the 256 input channels. -/
theorem conv_v68 (b : Fin 8) (h u c : Fin 128) :
    val_main_v68 (F := Ideal) x0 x5 (ix4 b h u c) = Attn.convIn x0 x5 b h u c := by
  rw [val_main_v68_apply]
  have el : ∀ k : Fin 256, lidx_main_v68 (ix4 b h u c) k = ix4 b h u k :=
    fun k => funext fun a => match a with | ⟨0, _⟩ => rfl | ⟨1, _⟩ => rfl | ⟨2, _⟩ => rfl | ⟨3, _⟩ => rfl
  have er : ∀ k : Fin 256, ridx_main_v68 (ix4 b h u c) k = ix2 k c :=
    fun k => funext fun a => match a with | ⟨0, _⟩ => rfl | ⟨1, _⟩ => rfl
  simp only [el, er]
  rfl

/-! ## The four normalise-and-clamp layers -/

/-- The phi branch's first layer at (b, h, u, c): convolution, normalisation, clamp. -/
theorem phi_one (b : Fin 8) (h u c : Fin 128) :
    val_main_v16 (F := Ideal) x0 x3 x15 x16 x17 x18 (ix4 b h u c)
      = Attn.layerOne x0 x3 x15 x16 x17 x18 b h u c := by
  rw [val_main_v16_apply, val_main_v15_apply, val_main_v12_apply, val_main_v6_apply, val_main_v3_apply,
    chan_v5, conv_v0, chan_v2, rsqrt_v11, chan_v14, zero_call0]
  rfl

/-- The phi branch's second layer at (b, h, u, c), over the first layer's 128 channels. -/
theorem phi_two (b : Fin 8) (h u c : Fin 128) :
    val_main_v33 (F := Ideal) x0 x3 x4 x15 x16 x17 x18 x19 x20 x21 x22 (ix4 b h u c)
      = Attn.layerTwo (Attn.layerOne x0 x3 x15 x16 x17 x18) x4 x19 x20 x21 x22 b h u c := by
  rw [val_main_v33_apply, val_main_v32_apply, val_main_v29_apply, val_main_v23_apply, val_main_v20_apply,
    chan_v22, val_main_v17_apply, chan_v19, rsqrt_v28, chan_v31, zero_call1]
  have el : ∀ k : Fin 128, lidx_main_v17 (ix4 b h u c) k = ix4 b h u k :=
    fun k => funext fun a => match a with | ⟨0, _⟩ => rfl | ⟨1, _⟩ => rfl | ⟨2, _⟩ => rfl | ⟨3, _⟩ => rfl
  have er : ∀ k : Fin 128, ridx_main_v17 (ix4 b h u c) k = ix2 k c :=
    fun k => funext fun a => match a with | ⟨0, _⟩ => rfl | ⟨1, _⟩ => rfl
  simp only [el, er, phi_one]
  rfl

/-- The theta branch's first layer at (b, h, u, c): convolution, normalisation, clamp. -/
theorem theta_one (b : Fin 8) (h u c : Fin 128) :
    val_main_v50 (F := Ideal) x0 x1 x7 x8 x9 x10 (ix4 b h u c)
      = Attn.layerOne x0 x1 x7 x8 x9 x10 b h u c := by
  rw [val_main_v50_apply, val_main_v49_apply, val_main_v46_apply, val_main_v40_apply, val_main_v37_apply,
    chan_v39, conv_v34, chan_v36, rsqrt_v45, chan_v48, zero_call2]
  rfl

/-- The theta branch's second layer at (b, h, u, c), over the first layer's 128 channels. -/
theorem theta_two (b : Fin 8) (h u c : Fin 128) :
    val_main_v67 (F := Ideal) x0 x1 x2 x7 x8 x9 x10 x11 x12 x13 x14 (ix4 b h u c)
      = Attn.layerTwo (Attn.layerOne x0 x1 x7 x8 x9 x10) x2 x11 x12 x13 x14 b h u c := by
  rw [val_main_v67_apply, val_main_v66_apply, val_main_v63_apply, val_main_v57_apply, val_main_v54_apply,
    chan_v56, val_main_v51_apply, chan_v53, rsqrt_v62, chan_v65, zero_call3]
  have el : ∀ k : Fin 128, lidx_main_v51 (ix4 b h u c) k = ix4 b h u k :=
    fun k => funext fun a => match a with | ⟨0, _⟩ => rfl | ⟨1, _⟩ => rfl | ⟨2, _⟩ => rfl | ⟨3, _⟩ => rfl
  have er : ∀ k : Fin 128, ridx_main_v51 (ix4 b h u c) k = ix2 k c :=
    fun k => funext fun a => match a with | ⟨0, _⟩ => rfl | ⟨1, _⟩ => rfl
  simp only [el, er, theta_one]
  rfl

end Cert.ReferenceIdeal.RefValue

end
-- ==== Proof.RefScores.lean ====
/-
  The reference program's scores, each row's maximum, and the weights, read at an index.

  For a fixed (b, h): s[u, v] = scale · Σ_c theta[u, c] · phi[v, c]; the row's maximum is the fold of the
  maximum from −∞ over v, capped below by −∞ once more; the weight of v is
  exp(s[u, v] − max) / Σ_v' exp(s[u, v'] − max).
-/
import proofs.«134137_j43911745634356_2_alg».proof.Proof.RefLayers

noncomputable section

namespace Cert.ReferenceIdeal.RefValue

open Cert.ReferenceIdeal Cert.ReferenceIdeal.Gen Cert.ReferenceIdeal.Read Idealize.ShloMosaic Idealize.ShloMosaic.ValueIdx

variable (x0 : (⟨S8x128x128x256, .f32⟩ : BufTy).Contents (Elt Ideal)) (x1 : (⟨S256x128, .f32⟩ : BufTy).Contents (Elt Ideal)) (x2 : (⟨S128x128, .f32⟩ : BufTy).Contents (Elt Ideal))
  (x3 : (⟨S256x128, .f32⟩ : BufTy).Contents (Elt Ideal)) (x4 : (⟨S128x128, .f32⟩ : BufTy).Contents (Elt Ideal)) (x5 : (⟨S256x128, .f32⟩ : BufTy).Contents (Elt Ideal)) (x6 : (⟨S128x256, .f32⟩ : BufTy).Contents (Elt Ideal))
  (x7 x8 x9 x10 x11 x12 x13 x14 x15 x16 x17 x18 x19 x20 x21 x22 : (⟨S128, .f32⟩ : BufTy).Contents (Elt Ideal))

/-- The theta branch's activations, as the specification writes them. -/
abbrev theta : Attn.Act := Attn.layerTwo (Attn.layerOne x0 x1 x7 x8 x9 x10) x2 x11 x12 x13 x14

/-- The phi branch's activations, as the specification writes them. -/
abbrev phi : Attn.Act := Attn.layerTwo (Attn.layerOne x0 x3 x15 x16 x17 x18) x4 x19 x20 x21 x22

/-! ## The scores -/

/-- The scaled product of theta's row u with phi's row v, read at (b, h, u, v). -/
theorem scores_stage (b : Fin 8) (h u v : Fin 128) :
    val_main_v71 (F := Ideal) x0 x1 x2 x3 x4 x7 x8 x9 x10 x11 x12 x13 x14 x15 x16 x17 x18 x19 x20 x21 x22 (ix4 b h u v)
      = Attn.score (theta x0 x1 x2 x7 x8 x9 x10 x11 x12 x13 x14) (phi x0 x3 x4 x15 x16 x17 x18 x19 x20 x21 x22) b h u v := by
  rw [val_main_v71_apply, val_main_v70_apply, val_main_cst_3_apply, val_main_v69_apply]
  have el : ∀ k : Fin 128, lidx_main_v69 (ix4 b h u v) k = ix4 b h u k :=
    fun k => funext fun a => match a with | ⟨0, _⟩ => rfl | ⟨1, _⟩ => rfl | ⟨2, _⟩ => rfl | ⟨3, _⟩ => rfl
  have er : ∀ k : Fin 128, ridx_main_v69 (ix4 b h u v) k = ix4 b h v k :=
    fun k => funext fun a => match a with | ⟨0, _⟩ => rfl | ⟨1, _⟩ => rfl | ⟨2, _⟩ => rfl | ⟨3, _⟩ => rfl
  simp only [el, er, theta_two, phi_two]
  rfl

/-! ## The row's maximum

The reduce with a maximum body over the last axis is, at (b, h, u), the fold of the maximum from the
initial value over that axis's 128 coordinates; the source index over (b, h, u) with coordinate v on
the dropped axis is (b, h, u, v). The program then takes the maximum with the initial value once more. -/

/-- The scores' last axis drops to give the [8, 128, 128] array of rows. -/
theorem reduces_last : S8x128x128x128.Reduces [3] S8x128x128 := by decide

/-- The source index over (b, h, u) with v on the dropped axis. -/
theorem lift_last (b : Fin 8) (h u : Fin 128) (v : Fin (S8x128x128x128.size 3)) :
    reduces_last.lift (ix3 b h u) v = ix4 b h u v :=
  funext fun a => Fin.ext (by match a with | ⟨0, _⟩ => rfl | ⟨1, _⟩ => rfl | ⟨2, _⟩ => rfl | ⟨3, _⟩ => rfl)

/-- The capped maximum of a row of scores, read at (b, h, u). -/
theorem rowmax_stage (b : Fin 8) (h u : Fin 128) :
    val_main_v74 (F := Ideal) x0 x1 x2 x3 x4 x7 x8 x9 x10 x11 x12 x13 x14 x15 x16 x17 x18 x19 x20 x21 x22 (ix3 b h u)
      = Attn.rowMax (Attn.score (theta x0 x1 x2 x7 x8 x9 x10 x11 x12 x13 x14) (phi x0 x3 x4 x15 x16 x17 x18 x19 x20 x21 x22) b h u) := by
  rw [val_main_v74_apply, val_main_v73_apply, val_main_cst_5_apply]
  unfold val_main_v72
  rw [Host.reduce_eq_fold_single (FloatOps.maximumf (F := Ideal) (φ := .f32)) _ _
    reducesTo_S8x128x128x128_S8x128x128_d3 reduces_last h_S_, val_main_cst_4_apply]
  have e : (val_main_v71 (F := Ideal) x0 x1 x2 x3 x4 x7 x8 x9 x10 x11 x12 x13 x14 x15 x16 x17 x18 x19 x20 x21 x22 ∘ reduces_last.lift (ix3 b h u))
      = (Attn.score (theta x0 x1 x2 x7 x8 x9 x10 x11 x12 x13 x14) (phi x0 x3 x4 x15 x16 x17 x18 x19 x20 x21 x22) b h u) :=
    funext fun v => (congrArg (val_main_v71 (F := Ideal) x0 x1 x2 x3 x4 x7 x8 x9 x10 x11 x12 x13 x14 x15 x16 x17 x18 x19 x20 x21 x22) (lift_last b h u v)).trans
      (scores_stage x0 x1 x2 x3 x4 x7 x8 x9 x10 x11 x12 x13 x14 x15 x16 x17 x18 x19 x20 x21 x22 b h u v)
  rw [e]
  rfl

/-! ## The weights -/

/-- The exponential of a score's difference to its row's maximum, read at (b, h, u, v). -/
theorem exp_stage (b : Fin 8) (h u v : Fin 128) :
    val_main_v78 (F := Ideal) x0 x1 x2 x3 x4 x7 x8 x9 x10 x11 x12 x13 x14 x15 x16 x17 x18 x19 x20 x21 x22 (ix4 b h u v)
      = Ideal.exp ((Attn.score (theta x0 x1 x2 x7 x8 x9 x10 x11 x12 x13 x14) (phi x0 x3 x4 x15 x16 x17 x18 x19 x20 x21 x22) b h u) v - Attn.rowMax (Attn.score (theta x0 x1 x2 x7 x8 x9 x10 x11 x12 x13 x14) (phi x0 x3 x4 x15 x16 x17 x18 x19 x20 x21 x22) b h u)) := by
  rw [val_main_v78_apply, val_main_v77_apply, val_main_v76_apply, val_main_v75_apply]
  have e : idx_main_v75 (idx_main_v76 (ix4 b h u v)) = ix3 b h u :=
    funext fun a => match a with | ⟨0, _⟩ => rfl | ⟨1, _⟩ => rfl | ⟨2, _⟩ => rfl
  rw [e, rowmax_stage, scores_stage]
  rfl

/-- The weight of position v in row (b, h, u): the exponential divided by the row's sum of exponentials.
    The sum starts from the zero word, which adds nothing. -/
theorem weight_stage (b : Fin 8) (h u v : Fin 128) :
    val_main_v82 (F := Ideal) x0 x1 x2 x3 x4 x7 x8 x9 x10 x11 x12 x13 x14 x15 x16 x17 x18 x19 x20 x21 x22 (ix4 b h u v)
      = Attn.weight (Attn.score (theta x0 x1 x2 x7 x8 x9 x10 x11 x12 x13 x14) (phi x0 x3 x4 x15 x16 x17 x18 x19 x20 x21 x22) b h u) v := by
  rw [val_main_v82_apply, val_main_v81_apply, val_main_v80_apply, val_main_v79_apply, val_main_cst_6_apply]
  have e : idx_main_v80 (idx_main_v81 (ix4 b h u v)) = ix3 b h u :=
    funext fun a => match a with | ⟨0, _⟩ => rfl | ⟨1, _⟩ => rfl | ⟨2, _⟩ => rfl
  have ek : ∀ k : Fin 128, idx_main_v79 (ix3 b h u) k = ix4 b h u k :=
    fun k => funext fun a => match a with | ⟨0, _⟩ => rfl | ⟨1, _⟩ => rfl | ⟨2, _⟩ => rfl | ⟨3, _⟩ => rfl
  rw [e]
  simp only [ek, exp_stage]
  rw [Ideal.ofBits_def, Ideal.ofBits_zero_f32, zero_add]
  rfl

end Cert.ReferenceIdeal.RefValue

end
-- ==== Proof.RefIsSpec.lean ====
/-
  The reference program's result, read index by index, is the specification function.

  The weights of a row average gamma over the positions, a last 1x1 convolution maps the 128 channels
  to 256, and every index of the result array is (b, h, u, f) for its four coordinates.
-/
import proofs.«134137_j43911745634356_2_alg».proof.Proof.RefScores

noncomputable section

namespace Cert.ReferenceIdeal.RefValue

open Cert.ReferenceIdeal Cert.ReferenceIdeal.Gen Cert.ReferenceIdeal.Read Idealize.ShloMosaic Idealize.ShloMosaic.ValueIdx

variable (x0 : (⟨S8x128x128x256, .f32⟩ : BufTy).Contents (Elt Ideal)) (x1 : (⟨S256x128, .f32⟩ : BufTy).Contents (Elt Ideal)) (x2 : (⟨S128x128, .f32⟩ : BufTy).Contents (Elt Ideal))
  (x3 : (⟨S256x128, .f32⟩ : BufTy).Contents (Elt Ideal)) (x4 : (⟨S128x128, .f32⟩ : BufTy).Contents (Elt Ideal)) (x5 : (⟨S256x128, .f32⟩ : BufTy).Contents (Elt Ideal)) (x6 : (⟨S128x256, .f32⟩ : BufTy).Contents (Elt Ideal))
  (x7 x8 x9 x10 x11 x12 x13 x14 x15 x16 x17 x18 x19 x20 x21 x22 : (⟨S128, .f32⟩ : BufTy).Contents (Elt Ideal))

/-! ## The weighted average of gamma -/

/-- The weights of row (b, h, u) against gamma's column c, summed over the positions v. -/
theorem attend_stage (b : Fin 8) (h u c : Fin 128) :
    val_main_v83 (F := Ideal) x0 x1 x2 x3 x4 x5 x7 x8 x9 x10 x11 x12 x13 x14 x15 x16 x17 x18 x19 x20 x21 x22 (ix4 b h u c)
      = Attn.attend (theta x0 x1 x2 x7 x8 x9 x10 x11 x12 x13 x14) (phi x0 x3 x4 x15 x16 x17 x18 x19 x20 x21 x22) (Attn.convIn x0 x5) b h u c := by
  rw [val_main_v83_apply]
  have el : ∀ k : Fin 128, lidx_main_v83 (ix4 b h u c) k = ix4 b h u k :=
    fun k => funext fun a => match a with | ⟨0, _⟩ => rfl | ⟨1, _⟩ => rfl | ⟨2, _⟩ => rfl | ⟨3, _⟩ => rfl
  have er : ∀ k : Fin 128, ridx_main_v83 (ix4 b h u c) k = ix4 b h k c :=
    fun k => funext fun a => match a with | ⟨0, _⟩ => rfl | ⟨1, _⟩ => rfl | ⟨2, _⟩ => rfl | ⟨3, _⟩ => rfl
  simp only [el, er, weight_stage, conv_v68]
  rfl

/-! ## The last convolution -/

/-- The 128 averaged channels against the output weight's column f, read at (b, h, u, f). -/
theorem result_stage (b : Fin 8) (h u : Fin 128) (f : Fin 256) :
    val_main_v84 (F := Ideal) x0 x1 x2 x3 x4 x5 x6 x7 x8 x9 x10 x11 x12 x13 x14 x15 x16 x17 x18 x19 x20 x21 x22 (ix4 b h u f)
      = Attn.result x0 x1 x2 x3 x4 x5 x6 x7 x8 x9 x10 x11 x12 x13 x14 x15 x16 x17 x18 x19 x20 x21 x22 b h u f := by
  rw [val_main_v84_apply]
  have el : ∀ k : Fin 128, lidx_main_v84 (ix4 b h u f) k = ix4 b h u k :=
    fun k => funext fun a => match a with | ⟨0, _⟩ => rfl | ⟨1, _⟩ => rfl | ⟨2, _⟩ => rfl | ⟨3, _⟩ => rfl
  have er : ∀ k : Fin 128, ridx_main_v84 (ix4 b h u f) k = ix2 k f :=
    fun k => funext fun a => match a with | ⟨0, _⟩ => rfl | ⟨1, _⟩ => rfl
  simp only [el, er, attend_stage]
  rfl

/-! ## The reference's result is the specification's array -/

/-- The reference program's result, as a function of its 23 arguments, is the specification function. -/
theorem ref_eq_spec (x0 : (⟨S8x128x128x256, .f32⟩ : BufTy).Contents (Elt Ideal)) (x1 : (⟨S256x128, .f32⟩ : BufTy).Contents (Elt Ideal)) (x2 : (⟨S128x128, .f32⟩ : BufTy).Contents (Elt Ideal))
    (x3 : (⟨S256x128, .f32⟩ : BufTy).Contents (Elt Ideal)) (x4 : (⟨S128x128, .f32⟩ : BufTy).Contents (Elt Ideal)) (x5 : (⟨S256x128, .f32⟩ : BufTy).Contents (Elt Ideal)) (x6 : (⟨S128x256, .f32⟩ : BufTy).Contents (Elt Ideal))
    (x7 x8 x9 x10 x11 x12 x13 x14 x15 x16 x17 x18 x19 x20 x21 x22 : (⟨S128, .f32⟩ : BufTy).Contents (Elt Ideal)) :
    Cert.ReferenceIdeal.Read.val_main_v84 (F := Ideal) x0 x1 x2 x3 x4 x5 x6 x7 x8 x9 x10 x11 x12 x13 x14 x15 x16 x17 x18 x19 x20 x21 x22
      = Attn.resultArr x0 x1 x2 x3 x4 x5 x6 x7 x8 x9 x10 x11 x12 x13 x14 x15 x16 x17 x18 x19 x20 x21 x22 := by
  funext i
  obtain ⟨b, h, u, f, rfl⟩ : ∃ (b : Fin 8) (h u : Fin 128) (f : Fin 256), i = ix4 b h u f :=
    ⟨i 0, i 1, i 2, i 3, eq_ix4 i⟩
  exact result_stage x0 x1 x2 x3 x4 x5 x6 x7 x8 x9 x10 x11 x12 x13 x14 x15 x16 x17 x18 x19 x20 x21 x22 b h u f

end Cert.ReferenceIdeal.RefValue

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.LibRank3.lean ====
/-
  Rank-3 arrays [a, b, c] read at an entry: a trailing unit axis, the last axis reduced, and products that
  keep the leading axis as a batch.

  `shapeCast_ab_ab1_apply`      [a, b] cast to [a, b, 1] reads, at (p, q, u), the operand at (p, q);
  `broadcastTo_ab1_abc_apply`   [a, b, 1] broadcast to [a, b, c] reads, at (p, q, r), the operand at (p, q, 0);
  `multiReduction_add_last`     the sum over the last axis, at the ideal instance, read at (p, q): the sum over r;
  `multiReduction_max_last`     the maximum over the last axis, read at (p, q): the fold of max from the start word's
                                 value over r;
  `contr_sum_last_last`, `matmul_zero_last_last`   [a, w, n] by [a, v, n], batch axis 0, both last axes contracted:
                                 entry (p, i, j) is the sum over k of left (p, i, k) times right (p, j, k);
  `contr_sum_last_mid`, `matmul_zero_last_mid`     [a, w, n] by [a, n, c], batch axis 0, the left's last axis against
                                 the right's middle one: entry (p, i, j) is the sum over k of left (p, i, k) times
                                 right (p, k, j).
  The dimension numbers enter through the facts saying where the two operand indices sit; a caller proves them for its
  own record.
-/
import Idealize.ShloMosaic.Lib.Pipeline.Value
import Idealize.ShloMosaic.Lib.ValueIdx
import Idealize.ShloMosaic.PureOps.Ideal.Laws

noncomputable section

open scoped BigOperators

namespace Cert.LibRank3

open Idealize.ShloMosaic Idealize.ShloMosaic.ValueIdx

variable {α : Type}

/-- An [a, b] matrix cast to [a, b, 1] reads, at (p, q, u), the operand at (p, q): both sit at row-major position
    p * b + q. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An [a, b, 1] array broadcast to [a, b, c] reads, at (p, q, r), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- The sum over the last axis of an [a, b, c] array of extended reals, read at (p, q): the sum over r of the
    operand at (p, q, r). -/
theorem multiReduction_add_last {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (p : Fin a) (q : Fin b) :
    multiReduction .add [2] ⟨2, ![a, b]⟩ src 0x00000000#32 h hφ hacc (ix2 p q) = ∑ r : Fin c, src (ix3 p q r) :=
  (Ideal.multiReduction_add_single src 0x00000000#32 h hφ hacc (ix2 p q)).trans
    (Finset.sum_congr rfl fun k _ => congrArg src (funext fun ax => Fin.ext (by
      match ax with
      | ⟨0, _⟩ => rfl
      | ⟨1, _⟩ => rfl
      | ⟨2, _⟩ => rfl)))

/-- The maximum over the last axis of an [a, b, c] array of extended reals, read at (p, q): the fold of max, from
    the start word's value, over r of the operand at (p, q, r). -/
theorem multiReduction_max_last {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (p : Fin a) (q : Fin b) :
    multiReduction .maximumf [2] ⟨2, ![a, b]⟩ src acc h hφ hacc (ix2 p q)
      = (Finset.univ : Finset (Fin c)).fold max (Ideal.ofBits .f32 acc) (fun r => src (ix3 p q r)) := by
  rw [Ideal.multiReduction_maximumf_single src acc h hφ hacc (ix2 p q)]
  refine congrArg (fun f => (Finset.univ : Finset (Fin c)).fold max (Ideal.ofBits .f32 acc) f) ?_
  funext r
  refine congrArg src (funext fun ax => Fin.ext ?_)
  match ax with
  | ⟨0, _⟩ => rfl
  | ⟨1, _⟩ => rfl
  | ⟨2, _⟩ => rfl

section Products

variable {a w v n c : ℕ}

/-- The contraction's sum of a batched product that contracts both operands' last axes, re-indexed by the one
    contracted coordinate. -/
theorem contr_sum_last_last (D : DotDims ⟨3, ![a, w, n]⟩ ⟨3, ![a, v, n]⟩ ⟨3, ![a, w, v]⟩) (hr : D.contr.rank = 1)
    (hs : D.contr.size ⟨0, by omega⟩ = n)
    (hl0 : ∀ i q, (D.lhsIdx i q (0 : Fin 3)).val = (i (0 : Fin 3)).val)
    (hl1 : ∀ i q, (D.lhsIdx i q (1 : Fin 3)).val = (i (1 : Fin 3)).val)
    (hl2 : ∀ i q, (D.lhsIdx i q (2 : Fin 3)).val = (q ⟨0, by omega⟩).val)
    (hr0 : ∀ i q, (D.rhsIdx i q (0 : Fin 3)).val = (i (0 : Fin 3)).val)
    (hr1 : ∀ i q, (D.rhsIdx i q (1 : Fin 3)).val = (i (2 : Fin 3)).val)
    (hr2 : ∀ i q, (D.rhsIdx i q (2 : Fin 3)).val = (q ⟨0, by omega⟩).val)
    (l : (⟨3, ![a, w, n]⟩ : Shape).Idx → EReal) (r : (⟨3, ![a, v, n]⟩ : Shape).Idx → EReal)
    (p : Fin a) (i : Fin w) (j : Fin v) :
    ∑ k : D.contr.Idx, l (D.lhsIdx (ix3 p i j) k) * r (D.rhsIdx (ix3 p i j) k)
      = ∑ k : Fin n, l (ix3 p i k) * r (ix3 p j k) := by
  rw [← Equiv.sum_comp (contrEquiv1 D n hr hs).symm]
  refine Finset.sum_congr rfl fun k _ => ?_
  have hk := contrEquiv1_symm_val D n hr hs k
  have el : D.lhsIdx (ix3 p i j) ((contrEquiv1 D n hr hs).symm k) = ix3 p i k := funext fun ax => Fin.ext (by
    match ax with
    | ⟨0, _⟩ => exact hl0 _ _
    | ⟨1, _⟩ => exact hl1 _ _
    | ⟨2, _⟩ => exact (hl2 _ _).trans hk)
  have er : D.rhsIdx (ix3 p i j) ((contrEquiv1 D n hr hs).symm k) = ix3 p j k := funext fun ax => Fin.ext (by
    match ax with
    | ⟨0, _⟩ => exact hr0 _ _
    | ⟨1, _⟩ => exact hr1 _ _
    | ⟨2, _⟩ => exact (hr2 _ _).trans hk)
  rw [el, er]

/-- A batched product into the zero accumulator, both last axes contracted, at the ideal instance, read at
    (p, i, j): the sum over k of left (p, i, k) times right (p, j, k). -/
theorem matmul_zero_last_last {φ₁ φ₂ : FTy} (D : DotDims ⟨3, ![a, w, n]⟩ ⟨3, ![a, v, n]⟩ ⟨3, ![a, w, v]⟩)
    (hr : D.contr.rank = 1) (hs : D.contr.size ⟨0, by omega⟩ = n)
    (hl0 : ∀ i q, (D.lhsIdx i q (0 : Fin 3)).val = (i (0 : Fin 3)).val)
    (hl1 : ∀ i q, (D.lhsIdx i q (1 : Fin 3)).val = (i (1 : Fin 3)).val)
    (hl2 : ∀ i q, (D.lhsIdx i q (2 : Fin 3)).val = (q ⟨0, by omega⟩).val)
    (hr0 : ∀ i q, (D.rhsIdx i q (0 : Fin 3)).val = (i (0 : Fin 3)).val)
    (hr1 : ∀ i q, (D.rhsIdx i q (1 : Fin 3)).val = (i (2 : Fin 3)).val)
    (hr2 : ∀ i q, (D.rhsIdx i q (2 : Fin 3)).val = (q ⟨0, by omega⟩).val)
    (prec : Option ContractPrecision) (l : FVec Ideal ⟨3, ![a, w, n]⟩ φ₁) (r : FVec Ideal ⟨3, ![a, v, n]⟩ φ₂)
    (p : Fin a) (i : Fin w) (j : Fin v) :
    matmul D prec l r (constant ⟨3, ![a, w, v]⟩ .f32 0x00000000#32) (ix3 p i j)
      = ∑ k : Fin n, l (ix3 p i k) * r (ix3 p j k) :=
  (Ideal.matmul_constant_zero_apply D prec l r (ix3 p i j)).trans
    (contr_sum_last_last D hr hs hl0 hl1 hl2 hr0 hr1 hr2 l r p i j)

/-- The contraction's sum of a batched product that contracts the left operand's last axis with the right operand's
    middle one, re-indexed by the one contracted coordinate. -/
theorem contr_sum_last_mid (D : DotDims ⟨3, ![a, w, n]⟩ ⟨3, ![a, n, c]⟩ ⟨3, ![a, w, c]⟩) (hr : D.contr.rank = 1)
    (hs : D.contr.size ⟨0, by omega⟩ = n)
    (hl0 : ∀ i q, (D.lhsIdx i q (0 : Fin 3)).val = (i (0 : Fin 3)).val)
    (hl1 : ∀ i q, (D.lhsIdx i q (1 : Fin 3)).val = (i (1 : Fin 3)).val)
    (hl2 : ∀ i q, (D.lhsIdx i q (2 : Fin 3)).val = (q ⟨0, by omega⟩).val)
    (hr0 : ∀ i q, (D.rhsIdx i q (0 : Fin 3)).val = (i (0 : Fin 3)).val)
    (hr1 : ∀ i q, (D.rhsIdx i q (1 : Fin 3)).val = (q ⟨0, by omega⟩).val)
    (hr2 : ∀ i q, (D.rhsIdx i q (2 : Fin 3)).val = (i (2 : Fin 3)).val)
    (l : (⟨3, ![a, w, n]⟩ : Shape).Idx → EReal) (r : (⟨3, ![a, n, c]⟩ : Shape).Idx → EReal)
    (p : Fin a) (i : Fin w) (j : Fin c) :
    ∑ k : D.contr.Idx, l (D.lhsIdx (ix3 p i j) k) * r (D.rhsIdx (ix3 p i j) k)
      = ∑ k : Fin n, l (ix3 p i k) * r (ix3 p k j) := by
  rw [← Equiv.sum_comp (contrEquiv1 D n hr hs).symm]
  refine Finset.sum_congr rfl fun k _ => ?_
  have hk := contrEquiv1_symm_val D n hr hs k
  have el : D.lhsIdx (ix3 p i j) ((contrEquiv1 D n hr hs).symm k) = ix3 p i k := funext fun ax => Fin.ext (by
    match ax with
    | ⟨0, _⟩ => exact hl0 _ _
    | ⟨1, _⟩ => exact hl1 _ _
    | ⟨2, _⟩ => exact (hl2 _ _).trans hk)
  have er : D.rhsIdx (ix3 p i j) ((contrEquiv1 D n hr hs).symm k) = ix3 p k j := funext fun ax => Fin.ext (by
    match ax with
    | ⟨0, _⟩ => exact hr0 _ _
    | ⟨1, _⟩ => exact (hr1 _ _).trans hk
    | ⟨2, _⟩ => exact hr2 _ _)
  rw [el, er]

/-- A batched product into the zero accumulator, the left's last axis against the right's middle one, at the ideal
    instance, read at (p, i, j): the sum over k of left (p, i, k) times right (p, k, j). -/
theorem matmul_zero_last_mid {φ₁ φ₂ : FTy} (D : DotDims ⟨3, ![a, w, n]⟩ ⟨3, ![a, n, c]⟩ ⟨3, ![a, w, c]⟩)
    (hr : D.contr.rank = 1) (hs : D.contr.size ⟨0, by omega⟩ = n)
    (hl0 : ∀ i q, (D.lhsIdx i q (0 : Fin 3)).val = (i (0 : Fin 3)).val)
    (hl1 : ∀ i q, (D.lhsIdx i q (1 : Fin 3)).val = (i (1 : Fin 3)).val)
    (hl2 : ∀ i q, (D.lhsIdx i q (2 : Fin 3)).val = (q ⟨0, by omega⟩).val)
    (hr0 : ∀ i q, (D.rhsIdx i q (0 : Fin 3)).val = (i (0 : Fin 3)).val)
    (hr1 : ∀ i q, (D.rhsIdx i q (1 : Fin 3)).val = (q ⟨0, by omega⟩).val)
    (hr2 : ∀ i q, (D.rhsIdx i q (2 : Fin 3)).val = (i (2 : Fin 3)).val)
    (prec : Option ContractPrecision) (l : FVec Ideal ⟨3, ![a, w, n]⟩ φ₁) (r : FVec Ideal ⟨3, ![a, n, c]⟩ φ₂)
    (p : Fin a) (i : Fin w) (j : Fin c) :
    matmul D prec l r (constant ⟨3, ![a, w, c]⟩ .f32 0x00000000#32) (ix3 p i j)
      = ∑ k : Fin n, l (ix3 p i k) * r (ix3 p k j) :=
  (Ideal.matmul_constant_zero_apply D prec l r (ix3 p i j)).trans
    (contr_sum_last_mid D hr hs hl0 hl1 hl2 hr0 hr1 hr2 l r p i j)

end Products

end Cert.LibRank3

end
-- ==== Proof.KernelDots.lean ====
/-
  The kernel's five matrix products read at an entry, at the ideal instance, from where each record's operand
  indices sit: three plain products [rows, n] by [n, columns], and two products batched over the leading axis of
  [16, 128, 128] arrays — scores (both last axes contracted) and the weighted average (the left's last axis against
  the right's middle one).
-/
import proofs.«134137_j43911745634356_2_alg».proof.Proof.Gen.KernelIdeal
import proofs.«134137_j43911745634356_2_alg».proof.Proof.LibMatmulAt
import proofs.«134137_j43911745634356_2_alg».proof.Proof.LibRank3

noncomputable section

namespace Cert.KernelIdeal.Stages

open Cert.KernelIdeal Cert.KernelIdeal.Gen Idealize.ShloMosaic Idealize.ShloMosaic.ValueIdx

/-! ### The plain product S2048x256 by S256x384 -/

theorem l0In (i : S2048x384.Idx) (q : dot_S2048x256_S256x384_S2048x384_1_0_0_1_n_n.contr.Idx) : (dot_S2048x256_S256x384_S2048x384_1_0_0_1_n_n.lhsIdx i q (0 : Fin 2)).val = (i (0 : Fin 2)).val := by
  unfold DotDims.lhsIdx
  rw [dif_neg (show ¬(0 : Fin S2048x256.rank) ∈ dot_S2048x256_S256x384_S2048x384_1_0_0_1_n_n.lhsBatch by decide), dif_pos (show (0 : Fin S2048x256.rank) ∈ dot_S2048x256_S256x384_S2048x384_1_0_0_1_n_n.lhsNonContracting by decide)]
  rfl
theorem l1In (i : S2048x384.Idx) (q : dot_S2048x256_S256x384_S2048x384_1_0_0_1_n_n.contr.Idx) : (dot_S2048x256_S256x384_S2048x384_1_0_0_1_n_n.lhsIdx i q (1 : Fin 2)).val = (q ⟨0, by decide⟩).val :=
  dot_S2048x256_S256x384_S2048x384_1_0_0_1_n_n.lhsIdx_val_of_single rfl i q
theorem r0In (i : S2048x384.Idx) (q : dot_S2048x256_S256x384_S2048x384_1_0_0_1_n_n.contr.Idx) : (dot_S2048x256_S256x384_S2048x384_1_0_0_1_n_n.rhsIdx i q (0 : Fin 2)).val = (q ⟨0, by decide⟩).val :=
  dot_S2048x256_S256x384_S2048x384_1_0_0_1_n_n.rhsIdx_val_of_single rfl i q
theorem r1In (i : S2048x384.Idx) (q : dot_S2048x256_S256x384_S2048x384_1_0_0_1_n_n.contr.Idx) : (dot_S2048x256_S256x384_S2048x384_1_0_0_1_n_n.rhsIdx i q (1 : Fin 2)).val = (i (1 : Fin 2)).val := by
  unfold DotDims.rhsIdx
  rw [dif_neg (show ¬(1 : Fin S256x384.rank) ∈ dot_S2048x256_S256x384_S2048x384_1_0_0_1_n_n.rhsBatch by decide), dif_pos (show (1 : Fin S256x384.rank) ∈ dot_S2048x256_S256x384_S2048x384_1_0_0_1_n_n.rhsNonContracting by decide)]
  rfl

/-- Entry (p, q) of the product is the sum over k of left (p, k) times right (k, q). -/
theorem prodIn {φ₁ φ₂ : FTy} (l : FVec Ideal S2048x256 φ₁) (r : FVec Ideal S256x384 φ₂) (p : Fin 2048) (q : Fin 384) :
    matmul dot_S2048x256_S256x384_S2048x384_1_0_0_1_n_n none l r (constant S2048x384 .f32 0x00000000#32) (ix2 p q) = ∑ k : Fin 256, l (ix2 p k) * r (ix2 k q) :=
  MatmulAt.matmul_zero_ix2 dot_S2048x256_S256x384_S2048x384_1_0_0_1_n_n rfl rfl l0In l1In r0In r1In none l r p q

/-! ### The plain product S2048x256 by S256x256 -/

theorem l0Mid (i : S2048x256.Idx) (q : dot_S2048x256_S256x256_S2048x256_1_0_0_1_n_n.contr.Idx) : (dot_S2048x256_S256x256_S2048x256_1_0_0_1_n_n.lhsIdx i q (0 : Fin 2)).val = (i (0 : Fin 2)).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem l1Mid (i : S2048x256.Idx) (q : dot_S2048x256_S256x256_S2048x256_1_0_0_1_n_n.contr.Idx) : (dot_S2048x256_S256x256_S2048x256_1_0_0_1_n_n.lhsIdx i q (1 : Fin 2)).val = (q ⟨0, by decide⟩).val :=
  dot_S2048x256_S256x256_S2048x256_1_0_0_1_n_n.lhsIdx_val_of_single rfl i q
theorem r0Mid (i : S2048x256.Idx) (q : dot_S2048x256_S256x256_S2048x256_1_0_0_1_n_n.contr.Idx) : (dot_S2048x256_S256x256_S2048x256_1_0_0_1_n_n.rhsIdx i q (0 : Fin 2)).val = (q ⟨0, by decide⟩).val :=
  dot_S2048x256_S256x256_S2048x256_1_0_0_1_n_n.rhsIdx_val_of_single rfl i q
theorem r1Mid (i : S2048x256.Idx) (q : dot_S2048x256_S256x256_S2048x256_1_0_0_1_n_n.contr.Idx) : (dot_S2048x256_S256x256_S2048x256_1_0_0_1_n_n.rhsIdx i q (1 : Fin 2)).val = (i (1 : Fin 2)).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- Entry (p, q) of the product is the sum over k of left (p, k) times right (k, q). -/
theorem prodMid {φ₁ φ₂ : FTy} (l : FVec Ideal S2048x256 φ₁) (r : FVec Ideal S256x256 φ₂) (p : Fin 2048) (q : Fin 256) :
    matmul dot_S2048x256_S256x256_S2048x256_1_0_0_1_n_n none l r (constant S2048x256 .f32 0x00000000#32) (ix2 p q) = ∑ k : Fin 256, l (ix2 p k) * r (ix2 k q) :=
  MatmulAt.matmul_zero_ix2 dot_S2048x256_S256x256_S2048x256_1_0_0_1_n_n rfl rfl l0Mid l1Mid r0Mid r1Mid none l r p q

/-! ### The plain product S2048x128 by S128x256 -/

theorem l0Out (i : S2048x256.Idx) (q : dot_S2048x128_S128x256_S2048x256_1_0_0_1_n_n.contr.Idx) : (dot_S2048x128_S128x256_S2048x256_1_0_0_1_n_n.lhsIdx i q (0 : Fin 2)).val = (i (0 : Fin 2)).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
theorem l1Out (i : S2048x256.Idx) (q : dot_S2048x128_S128x256_S2048x256_1_0_0_1_n_n.contr.Idx) : (dot_S2048x128_S128x256_S2048x256_1_0_0_1_n_n.lhsIdx i q (1 : Fin 2)).val = (q ⟨0, by decide⟩).val :=
  dot_S2048x128_S128x256_S2048x256_1_0_0_1_n_n.lhsIdx_val_of_single rfl i q
theorem r0Out (i : S2048x256.Idx) (q : dot_S2048x128_S128x256_S2048x256_1_0_0_1_n_n.contr.Idx) : (dot_S2048x128_S128x256_S2048x256_1_0_0_1_n_n.rhsIdx i q (0 : Fin 2)).val = (q ⟨0, by decide⟩).val :=
  dot_S2048x128_S128x256_S2048x256_1_0_0_1_n_n.rhsIdx_val_of_single rfl i q
theorem r1Out (i : S2048x256.Idx) (q : dot_S2048x128_S128x256_S2048x256_1_0_0_1_n_n.contr.Idx) : (dot_S2048x128_S128x256_S2048x256_1_0_0_1_n_n.rhsIdx i q (1 : Fin 2)).val = (i (1 : Fin 2)).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

/-- Entry (p, q) of the product is the sum over k of left (p, k) times right (k, q). -/
theorem prodOut {φ₁ φ₂ : FTy} (l : FVec Ideal S2048x128 φ₁) (r : FVec Ideal S128x256 φ₂) (p : Fin 2048) (q : Fin 256) :
    matmul dot_S2048x128_S128x256_S2048x256_1_0_0_1_n_n none l r (constant S2048x256 .f32 0x00000000#32) (ix2 p q) = ∑ k : Fin 128, l (ix2 p k) * r (ix2 k q) :=
  MatmulAt.matmul_zero_ix2 dot_S2048x128_S128x256_S2048x256_1_0_0_1_n_n rfl rfl l0Out l1Out r0Out r1Out none l r p q

/-! ### The scores' product: batch axis 0, both last axes contracted -/

theorem l0Sc (i : S16x128x128.Idx) (q : dot_S16x128x128_S16x128x128_S16x128x128_2_2_1_1_0_0.contr.Idx) : (dot_S16x128x128_S16x128x128_S16x128x128_2_2_1_1_0_0.lhsIdx i q (0 : Fin 3)).val = (i (0 : Fin 3)).val := by
  unfold DotDims.lhsIdx
  rw [dif_pos (show (0 : Fin S16x128x128.rank) ∈ dot_S16x128x128_S16x128x128_S16x128x128_2_2_1_1_0_0.lhsBatch by decide)]
  rfl
theorem l1Sc (i : S16x128x128.Idx) (q : dot_S16x128x128_S16x128x128_S16x128x128_2_2_1_1_0_0.contr.Idx) : (dot_S16x128x128_S16x128x128_S16x128x128_2_2_1_1_0_0.lhsIdx i q (1 : Fin 3)).val = (i (1 : Fin 3)).val := by
  unfold DotDims.lhsIdx
  rw [dif_neg (show ¬(1 : Fin S16x128x128.rank) ∈ dot_S16x128x128_S16x128x128_S16x128x128_2_2_1_1_0_0.lhsBatch by decide), dif_pos (show (1 : Fin S16x128x128.rank) ∈ dot_S16x128x128_S16x128x128_S16x128x128_2_2_1_1_0_0.lhsNonContracting by decide)]
  rfl
theorem l2Sc (i : S16x128x128.Idx) (q : dot_S16x128x128_S16x128x128_S16x128x128_2_2_1_1_0_0.contr.Idx) : (dot_S16x128x128_S16x128x128_S16x128x128_2_2_1_1_0_0.lhsIdx i q (2 : Fin 3)).val = (q ⟨0, by decide⟩).val :=
  dot_S16x128x128_S16x128x128_S16x128x128_2_2_1_1_0_0.lhsIdx_val_of_single rfl i q
theorem r0Sc (i : S16x128x128.Idx) (q : dot_S16x128x128_S16x128x128_S16x128x128_2_2_1_1_0_0.contr.Idx) : (dot_S16x128x128_S16x128x128_S16x128x128_2_2_1_1_0_0.rhsIdx i q (0 : Fin 3)).val = (i (0 : Fin 3)).val := by
  unfold DotDims.rhsIdx
  rw [dif_pos (show (0 : Fin S16x128x128.rank) ∈ dot_S16x128x128_S16x128x128_S16x128x128_2_2_1_1_0_0.rhsBatch by decide)]
  rfl
theorem r1Sc (i : S16x128x128.Idx) (q : dot_S16x128x128_S16x128x128_S16x128x128_2_2_1_1_0_0.contr.Idx) : (dot_S16x128x128_S16x128x128_S16x128x128_2_2_1_1_0_0.rhsIdx i q (1 : Fin 3)).val = (i (2 : Fin 3)).val := by
  unfold DotDims.rhsIdx
  rw [dif_neg (show ¬(1 : Fin S16x128x128.rank) ∈ dot_S16x128x128_S16x128x128_S16x128x128_2_2_1_1_0_0.rhsBatch by decide), dif_pos (show (1 : Fin S16x128x128.rank) ∈ dot_S16x128x128_S16x128x128_S16x128x128_2_2_1_1_0_0.rhsNonContracting by decide)]
  rfl
theorem r2Sc (i : S16x128x128.Idx) (q : dot_S16x128x128_S16x128x128_S16x128x128_2_2_1_1_0_0.contr.Idx) : (dot_S16x128x128_S16x128x128_S16x128x128_2_2_1_1_0_0.rhsIdx i q (2 : Fin 3)).val = (q ⟨0, by decide⟩).val :=
  dot_S16x128x128_S16x128x128_S16x128x128_2_2_1_1_0_0.rhsIdx_val_of_single rfl i q

/-- Entry (p, i, j) is the sum over k of left (p, i, k) times right (p, j, k). -/
theorem prodSc {φ₁ φ₂ : FTy} (l : FVec Ideal S16x128x128 φ₁) (r : FVec Ideal S16x128x128 φ₂) (p : Fin 16) (i j : Fin 128) :
    matmul dot_S16x128x128_S16x128x128_S16x128x128_2_2_1_1_0_0 none l r (constant S16x128x128 .f32 0x00000000#32) (ix3 p i j) = ∑ k : Fin 128, l (ix3 p i k) * r (ix3 p j k) :=
  Cert.LibRank3.matmul_zero_last_last dot_S16x128x128_S16x128x128_S16x128x128_2_2_1_1_0_0 rfl rfl l0Sc l1Sc l2Sc r0Sc r1Sc r2Sc none l r p i j

/-! ### The weighted average's product: batch axis 0, the left's last axis against the right's middle one -/

theorem l0Av (i : S16x128x128.Idx) (q : dot_S16x128x128_S16x128x128_S16x128x128_2_1_1_2_0_0.contr.Idx) : (dot_S16x128x128_S16x128x128_S16x128x128_2_1_1_2_0_0.lhsIdx i q (0 : Fin 3)).val = (i (0 : Fin 3)).val := by
  unfold DotDims.lhsIdx
  rw [dif_pos (show (0 : Fin S16x128x128.rank) ∈ dot_S16x128x128_S16x128x128_S16x128x128_2_1_1_2_0_0.lhsBatch by decide)]
  rfl
theorem l1Av (i : S16x128x128.Idx) (q : dot_S16x128x128_S16x128x128_S16x128x128_2_1_1_2_0_0.contr.Idx) : (dot_S16x128x128_S16x128x128_S16x128x128_2_1_1_2_0_0.lhsIdx i q (1 : Fin 3)).val = (i (1 : Fin 3)).val := by
  unfold DotDims.lhsIdx
  rw [dif_neg (show ¬(1 : Fin S16x128x128.rank) ∈ dot_S16x128x128_S16x128x128_S16x128x128_2_1_1_2_0_0.lhsBatch by decide), dif_pos (show (1 : Fin S16x128x128.rank) ∈ dot_S16x128x128_S16x128x128_S16x128x128_2_1_1_2_0_0.lhsNonContracting by decide)]
  rfl
theorem l2Av (i : S16x128x128.Idx) (q : dot_S16x128x128_S16x128x128_S16x128x128_2_1_1_2_0_0.contr.Idx) : (dot_S16x128x128_S16x128x128_S16x128x128_2_1_1_2_0_0.lhsIdx i q (2 : Fin 3)).val = (q ⟨0, by decide⟩).val :=
  dot_S16x128x128_S16x128x128_S16x128x128_2_1_1_2_0_0.lhsIdx_val_of_single rfl i q
theorem r0Av (i : S16x128x128.Idx) (q : dot_S16x128x128_S16x128x128_S16x128x128_2_1_1_2_0_0.contr.Idx) : (dot_S16x128x128_S16x128x128_S16x128x128_2_1_1_2_0_0.rhsIdx i q (0 : Fin 3)).val = (i (0 : Fin 3)).val := by
  unfold DotDims.rhsIdx
  rw [dif_pos (show (0 : Fin S16x128x128.rank) ∈ dot_S16x128x128_S16x128x128_S16x128x128_2_1_1_2_0_0.rhsBatch by decide)]
  rfl
theorem r2Av (i : S16x128x128.Idx) (q : dot_S16x128x128_S16x128x128_S16x128x128_2_1_1_2_0_0.contr.Idx) : (dot_S16x128x128_S16x128x128_S16x128x128_2_1_1_2_0_0.rhsIdx i q (2 : Fin 3)).val = (i (2 : Fin 3)).val := by
  unfold DotDims.rhsIdx
  rw [dif_neg (show ¬(2 : Fin S16x128x128.rank) ∈ dot_S16x128x128_S16x128x128_S16x128x128_2_1_1_2_0_0.rhsBatch by decide), dif_pos (show (2 : Fin S16x128x128.rank) ∈ dot_S16x128x128_S16x128x128_S16x128x128_2_1_1_2_0_0.rhsNonContracting by decide)]
  rfl
theorem r1Av (i : S16x128x128.Idx) (q : dot_S16x128x128_S16x128x128_S16x128x128_2_1_1_2_0_0.contr.Idx) : (dot_S16x128x128_S16x128x128_S16x128x128_2_1_1_2_0_0.rhsIdx i q (1 : Fin 3)).val = (q ⟨0, by decide⟩).val :=
  dot_S16x128x128_S16x128x128_S16x128x128_2_1_1_2_0_0.rhsIdx_val_of_single rfl i q

/-- Entry (p, i, j) is the sum over k of left (p, i, k) times right (p, k, j). -/
theorem prodAv {φ₁ φ₂ : FTy} (l : FVec Ideal S16x128x128 φ₁) (r : FVec Ideal S16x128x128 φ₂) (p : Fin 16) (i j : Fin 128) :
    matmul dot_S16x128x128_S16x128x128_S16x128x128_2_1_1_2_0_0 none l r (constant S16x128x128 .f32 0x00000000#32) (ix3 p i j) = ∑ k : Fin 128, l (ix3 p i k) * r (ix3 p k j) :=
  Cert.LibRank3.matmul_zero_last_mid dot_S16x128x128_S16x128x128_S16x128x128_2_1_1_2_0_0 rfl rfl l0Av l1Av l2Av r0Av r1Av r2Av none l r p i j

end Cert.KernelIdeal.Stages

end
-- ==== Proof.LibObjectAxis.lean ====
/-
  Layout reads around a pair of axes flattened into one, a middle unit axis, and a vector spread over two leading axes.

  A rank-3 array [a, b, c] and the matrix [a * b, c] that lists its (p, o) pairs row by row hold the same entries: row
  p * b + o of the matrix is the array's fibre at (p, o). Read at an entry:

  `shapeCast_abc_nc_apply`      [a, b, c] cast to [n, c] (n = a * b) reads, at (p * b + o, r), the operand at (p, o, r);
  `shapeCast_nc_abc_apply`      [n, c] cast to [a, b, c] reads, at (p, o, r), the operand at (p * b + o, r);
  `shapeCast_ac_a1c_apply`      [a, c] cast to [a, 1, c] reads, at (p, 0, r), the operand at (p, r);
  `broadcastTo_11c_abc_apply`   [1, 1, c] broadcast to [a, b, c] reads, at (p, q, r), the operand at (0, 0, r);
  `multiReduction_add_mid`      the sum over the middle axis of [a, b, c], at the ideal instance, read at (p, r), is the sum
                                over o of the operand at (p, o, r) (the accumulator pattern is the printed zero word).
-/
import Idealize.ShloMosaic.Lib.Pipeline.Value
import Idealize.ShloMosaic.Lib.ValueIdx
import Idealize.ShloMosaic.PureOps.Ideal.Laws

noncomputable section

open scoped BigOperators

namespace Cert.LibObjectAxis

open Idealize.ShloMosaic Idealize.ShloMosaic.ValueIdx

variable {α : Type}

/-- An [a, b, c] array cast to [n, c] reads, at row p * b + o and column r, the operand at (p, o, r): both sit at
    row-major position (p * b + o) * c + r. -/
theorem shapeCast_abc_nc_apply {a b c n : ℕ} (x : (⟨3, ![a, b, c]⟩ : Shape).Idx → α)
    (h : (⟨3, ![a, b, c]⟩ : Shape).ShapeCasts ⟨2, ![n, c]⟩) (p : Fin a) (o : Fin b) (r : Fin c)
    (hlt : p.val * b + o.val < n) :
    shapeCast ⟨2, ![n, c]⟩ x h (ix2 (⟨p.val * b + o.val, hlt⟩ : Fin n) r) = x (ix3 p o r) :=
  shapeCast_apply x h _ _ (by
    rw [Shape.rowMajor_val_three, Shape.rowMajor_val_two]
    rfl)

/-- An [n, c] matrix cast to [a, b, c] reads, at (p, o, r), the operand at row p * b + o and column r. -/
theorem shapeCast_nc_abc_apply {a b c n : ℕ} (x : (⟨2, ![n, c]⟩ : Shape).Idx → α)
    (h : (⟨2, ![n, c]⟩ : Shape).ShapeCasts ⟨3, ![a, b, c]⟩) (p : Fin a) (o : Fin b) (r : Fin c)
    (hlt : p.val * b + o.val < n) :
    shapeCast ⟨3, ![a, b, c]⟩ x h (ix3 p o r) = x (ix2 (⟨p.val * b + o.val, hlt⟩ : Fin n) r) :=
  shapeCast_apply x h _ _ (by
    rw [Shape.rowMajor_val_three, Shape.rowMajor_val_two]
    rfl)

/-- An [a, c] matrix cast to [a, 1, c] reads, at (p, u, r), the operand at (p, r). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- A [1, 1, c] array broadcast to [a, b, c] reads, at (p, q, r), the operand at (0, 0, r). -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- The sum over the middle axis of an [a, b, c] array of extended reals, read at (p, r): the sum over o of the
    operand at (p, o, r). -/
theorem multiReduction_add_mid {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (p : Fin a) (r : Fin c) :
    multiReduction .add [1] ⟨2, ![a, c]⟩ src 0x00000000#32 h hφ hacc (ix2 p r) = ∑ o : Fin b, src (ix3 p o r) :=
  (Ideal.multiReduction_add_single src 0x00000000#32 h hφ hacc (ix2 p r)).trans
    (Finset.sum_congr rfl fun k _ => congrArg src (funext fun ax => Fin.ext (by
      match ax with
      | ⟨0, _⟩ => rfl
      | ⟨1, _⟩ => rfl
      | ⟨2, _⟩ => rfl)))

end Cert.LibObjectAxis

end
-- ==== Proof.KernelStages.lean ====
/-
  The kernel body's values read at an entry, at the ideal instance, stage by stage.

  A block of the input is [1, 16, 128, 256]: sixteen rows h of 128 positions u with 256 channels. The body flattens
  (h, u) into 2048 matrix rows, row h * 128 + u, multiplies by the [256, 384] weight matrix (three 128-column
  groups side by side), normalises and clamps the first 256 columns, multiplies by a [256, 256] matrix, normalises
  and clamps again, and splits the result into two 128-column halves (theta, phi); the last 128 columns of the
  first product are gamma. Per row h the scores are scale · Σ_c theta[u,c] · phi[v,c], made into weights along v,
  which average gamma over v; a last product with a [128, 256] matrix gives the block's 256 output channels.
-/
import proofs.«134137_j43911745634356_2_alg».proof.Proof.Gen.KernelIdeal.Skeleton
import proofs.«134137_j43911745634356_2_alg».proof.Proof.KernelDots
import proofs.«134137_j43911745634356_2_alg».proof.Proof.LibObjectAxis
import proofs.«134137_j43911745634356_2_alg».proof.Proof.AttnSpec
import Idealize.ShloMosaic.Lib.ValueLayout

noncomputable section

namespace Cert.KernelIdeal.Stages

open Cert.KernelIdeal Cert.KernelIdeal.Gen Idealize.ShloMosaic Idealize.ShloMosaic.ValueIdx
open Cert.LibObjectAxis Cert.LibRank3

/-- Matrix row h * 128 + u of the flattened block. -/
def row (hh : Fin 16) (u : Fin 128) : Fin 2048 := ⟨hh.val * 128 + u.val, by have := hh.isLt; have := u.isLt; omega⟩

/-- Column c of the first, second, third 128-column group. -/
def lo (c : Fin 128) : Fin 256 := ⟨c.val, by have := c.isLt; omega⟩
def hi (c : Fin 128) : Fin 256 := ⟨128 + c.val, by have := c.isLt; omega⟩
def col (j : Fin 256) : Fin 384 := ⟨j.val, by have := j.isLt; omega⟩
def last (c : Fin 128) : Fin 384 := ⟨256 + c.val, by have := c.isLt; omega⟩

/-! ## Small layout facts -/

/-- A 256-vector laid down as one row and repeated over 2048 rows reads, at (r, k), the vector at k. -/
theorem spread_at (v : FVec Ideal S256 .f32) (r : Fin 2048) (k : Fin 256) :
    broadcastTo S2048x256 (shapeCast S1x256 (shapeCast S256 v shapeCasts_S256_S256) shapeCasts_S256_S1x256)
      broadcasts_S1x256_S2048x256 (ix2 r k) = v (ix1 k) := by
  rw [shapeCast_self]
  exact (broadcastTo_1b_ab_apply _ _ r k).trans (shapeCast_a_1a_apply v _ (0 : Fin 1) k)

/-- The same for the reciprocal square root of the vector plus the epsilon. -/
theorem spread_rsqrt_at (v : FVec Ideal S256 .f32) (r : Fin 2048) (k : Fin 256) :
    broadcastTo S2048x256 (shapeCast S1x256 (rsqrt (addf (shapeCast S256 v shapeCasts_S256_S256)
        (broadcast S256 (Scalar.ofBits .f32 0x3A83126F#32)))) shapeCasts_S256_S1x256)
      broadcasts_S1x256_S2048x256 (ix2 r k) = Ideal.rsqrt (v (ix1 k) + Attn.eps) := by
  rw [shapeCast_self]
  exact (broadcastTo_1b_ab_apply _ _ r k).trans (shapeCast_a_1a_apply _ _ (0 : Fin 1) k)

/-- Normalise and clamp, as a function of the matrix entry and the channel's four parameters. -/
def act (y : FVec Ideal S2048x256 .f32) (G B M V : FVec Ideal S256 .f32) (r : Fin 2048) (k : Fin 256) : EReal :=
  max (G (ix1 k) * (y (ix2 r k) - M (ix1 k)) * Ideal.rsqrt (V (ix1 k) + Attn.eps) + B (ix1 k)) Attn.zero

/-- The body's normalise-and-clamp chain read at (r, k). -/
theorem normClamp_at (y : FVec Ideal S2048x256 .f32) (G B M V : FVec Ideal S256 .f32) (r : Fin 2048) (k : Fin 256) :
    maximumf
      (addf
        (mulf
          (mulf (broadcastTo S2048x256 (shapeCast S1x256 (shapeCast S256 G shapeCasts_S256_S256) shapeCasts_S256_S1x256) broadcasts_S1x256_S2048x256)
            (subf y (broadcastTo S2048x256 (shapeCast S1x256 (shapeCast S256 M shapeCasts_S256_S256) shapeCasts_S256_S1x256) broadcasts_S1x256_S2048x256)))
          (broadcastTo S2048x256 (shapeCast S1x256 (rsqrt (addf (shapeCast S256 V shapeCasts_S256_S256)
            (broadcast S256 (Scalar.ofBits .f32 0x3A83126F#32)))) shapeCasts_S256_S1x256) broadcasts_S1x256_S2048x256))
        (broadcastTo S2048x256 (shapeCast S1x256 (shapeCast S256 B shapeCasts_S256_S256) shapeCasts_S256_S1x256) broadcasts_S1x256_S2048x256))
      (broadcast S2048x256 (Scalar.ofBits .f32 0x00000000#32)) (ix2 r k)
    = act y G B M V r k := by
  rw [maximumf_apply, addf_apply, mulf_apply, mulf_apply, subf_apply, spread_at, spread_at, spread_at, spread_rsqrt_at]
  rfl

/-! ## The first product and gamma -/

/-- The flattened block at (row h u, k) is the block at (0, h, u, k). -/
theorem flat_at (X : FVec Ideal S1x16x128x256 .f32) (hh : Fin 16) (u : Fin 128) (k : Fin 256) :
    shapeCast S2048x256 (shapeCast S16x128x256 X shapeCasts_S1x16x128x256_S16x128x256) shapeCasts_S16x128x256_S2048x256
      (ix2 (row hh u) k) = X (ix4 (0 : Fin 1) hh u k) :=
  (shapeCast_abc_nc_apply _ _ hh u k _).trans (shapeCast_1abc_abc_apply X _ hh u k)

/-- The first product at (row h u, j): the block's channels at (h, u) against column j of the weight matrix. -/
theorem first_at (X : Vec Ideal S1x16x128x256 .f32) (W : Vec Ideal S256x384 .f32) (hh : Fin 16) (u : Fin 128) (j : Fin 384) :
    k0_pay2 (F := Ideal) X W (ix2 (row hh u) j) = ∑ k : Fin 256, X (ix4 (0 : Fin 1) hh u k) * W (ix2 k j) := by
  unfold k0_pay2
  refine (prodIn _ _ (row hh u) j).trans ?_
  refine Finset.sum_congr rfl fun k _ => ?_
  refine congrArg₂ (· * ·) ?_ ?_
  · exact flat_at X hh u k
  · exact congrFun (shapeCast_self W shapeCasts_S256x384_S256x384) (ix2 k j)

/-- Gamma at (row h u, c) is the first product's column 256 + c. -/
theorem gamma_at (X : Vec Ideal S1x16x128x256 .f32) (W : Vec Ideal S256x384 .f32) (hh : Fin 16) (u : Fin 128) (c : Fin 128) :
    k0_pay3 (F := Ideal) X W (ix2 (row hh u) c) = ∑ k : Fin 256, X (ix4 (0 : Fin 1) hh u k) * W (ix2 k (last c)) := by
  unfold k0_pay3
  exact (slice2_axis1_apply 256 (k0_pay2 (F := Ideal) X W) slices_S2048x384_o0_256_S2048x128 (row hh u) c (last c) rfl).trans
    (first_at X W hh u (last c))

end Cert.KernelIdeal.Stages

end
-- ==== Proof.KernelWindows.lean ====
/-
  The arrays the region finds, read at an entry, at the ideal instance.

  Before the region @main assembles the kernel's operands out of the arguments:
  the [256, 384] weight matrix is the three [256, 128] first-layer matrices (theta, phi, gamma) side by side;
  the [256, 256] second-layer matrix is block diagonal, the theta matrix in the upper left [128, 128] block, the phi
  matrix in the lower right, and the zero word broadcast in the two other blocks;
  each of the eight [256] normalisation vectors is a theta vector followed by the phi vector of the same role.
  Arguments 0 and 6 (the input and the last [128, 256] matrix) reach the region as launched.
-/
import proofs.«134137_j43911745634356_2_alg».proof.Proof.FrameIdeal
import proofs.«134137_j43911745634356_2_alg».proof.Proof.KernelStages
import Idealize.ShloMosaic.Lib.Pipeline.Value
import Idealize.ShloMosaic.Lib.IdealHost

noncomputable section

namespace Cert.KernelIdeal.KValue

open Cert.KernelIdeal Cert.KernelIdeal.Gen Cert.KernelIdeal.Frame Cert.KernelIdeal.Stages
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The operands as terms of the arguments -/

/-- The [256, 384] operand: the three first-layer matrices side by side. -/
theorem wide_eq (c : Dev nD) : (V m c main_v0 : S256x384.Idx → EReal)
    = concatenate S256x384 1 [⟨S256x128, m ((c : Thread nD τ).loc main_arg1)⟩, ⟨S256x128, m ((c : Thread nD τ).loc main_arg3)⟩, ⟨S256x128, m ((c : Thread nD τ).loc main_arg5)⟩]
        concatenates_S256x128_S256x128_S256x128_S256x384_d1 := by
  dsimp only [V, hostOps0]
  after_results
  rfl

/-- The [128, 128] block of zero words. -/
abbrev zeroBlock : S128x128.Idx → EReal := broadcastInDim S128x128 ![] bcast_S_S128x128 (constant (F := Ideal) S_ .f32 0x00000000#32)

/-- The [256, 256] operand: block diagonal, theta's matrix then phi's, zero words off the diagonal. -/
theorem diag_eq (c : Dev nD) : (V m c main_v4 : S256x256.Idx → EReal)
    = concatenate S256x256 0
        [⟨S128x256, concatenate S128x256 1 [⟨S128x128, m ((c : Thread nD τ).loc main_arg2)⟩, ⟨S128x128, zeroBlock⟩] concatenates_S128x128_S128x128_S128x256_d1⟩,
         ⟨S128x256, concatenate S128x256 1 [⟨S128x128, zeroBlock⟩, ⟨S128x128, m ((c : Thread nD τ).loc main_arg4)⟩] concatenates_S128x128_S128x128_S128x256_d1⟩]
        concatenates_S128x256_S128x256_S256x256_d0 := by
  dsimp only [V, hostOps0]
  after_results

/-! ## Two pieces along an axis, read at an entry of either -/

/-- Two [128, 128] blocks side by side: the left block at the low columns, the right at the high. -/
theorem sideBySide_at (x y : S128x128.Idx → EReal) (k c : Fin 128) :
    concatenate S128x256 1 [⟨S128x128, x⟩, ⟨S128x128, y⟩] concatenates_S128x128_S128x128_S128x256_d1 (ix2 k (lo c)) = x (ix2 k c)
    ∧ concatenate S128x256 1 [⟨S128x128, x⟩, ⟨S128x128, y⟩] concatenates_S128x128_S128x128_S128x256_d1 (ix2 k (hi c)) = y (ix2 k c) := by
  constructor
  · exact concatenate_pair_apply_left (1 : Fin 2) x y _ (ix2 k (lo c)) rfl (ix2 k c)
      (fun b => by match b with | ⟨0, _⟩ => rfl | ⟨1, _⟩ => rfl)
  · exact concatenate_pair_apply_right (1 : Fin 2) x y _ (ix2 k (hi c)) rfl rfl (ix2 k c)
      (fun b hb => by match b with | ⟨0, _⟩ => rfl | ⟨1, _⟩ => exact absurd rfl hb)
      (by show c.val + 128 = 128 + c.val; omega)

/-- Two [128, 256] blocks one above the other: the upper block at the low rows, the lower at the high. -/
theorem stacked_at (x y : S128x256.Idx → EReal) (k : Fin 128) (j : Fin 256) :
    concatenate S256x256 0 [⟨S128x256, x⟩, ⟨S128x256, y⟩] concatenates_S128x256_S128x256_S256x256_d0 (ix2 (lo k) j) = x (ix2 k j)
    ∧ concatenate S256x256 0 [⟨S128x256, x⟩, ⟨S128x256, y⟩] concatenates_S128x256_S128x256_S256x256_d0 (ix2 (hi k) j) = y (ix2 k j) := by
  constructor
  · exact concatenate_pair_apply_left (0 : Fin 2) x y _ (ix2 (lo k) j) rfl (ix2 k j)
      (fun b => by match b with | ⟨0, _⟩ => rfl | ⟨1, _⟩ => rfl)
  · exact concatenate_pair_apply_right (0 : Fin 2) x y _ (ix2 (hi k) j) rfl rfl (ix2 k j)
      (fun b hb => by match b with | ⟨0, _⟩ => exact absurd rfl hb | ⟨1, _⟩ => rfl)
      (by show k.val + 128 = 128 + k.val; omega)

/-- Three [256, 128] blocks side by side: each at its own 128 columns. -/
theorem sideBySide3_at (x y z : S256x128.Idx → EReal) (k : Fin 256) (j : Fin 128) :
    concatenate S256x384 1 [⟨S256x128, x⟩, ⟨S256x128, y⟩, ⟨S256x128, z⟩] concatenates_S256x128_S256x128_S256x128_S256x384_d1 (ix2 k (col (lo j))) = x (ix2 k j)
    ∧ concatenate S256x384 1 [⟨S256x128, x⟩, ⟨S256x128, y⟩, ⟨S256x128, z⟩] concatenates_S256x128_S256x128_S256x128_S256x384_d1 (ix2 k (col (hi j))) = y (ix2 k j)
    ∧ concatenate S256x384 1 [⟨S256x128, x⟩, ⟨S256x128, y⟩, ⟨S256x128, z⟩] concatenates_S256x128_S256x128_S256x128_S256x384_d1 (ix2 k (last j)) = z (ix2 k j) := by
  refine ⟨?_, ?_, ?_⟩
  · exact concatenate_apply_piece (1 : Fin 2) [⟨S256x128, x⟩, ⟨S256x128, y⟩, ⟨S256x128, z⟩] _ (ix2 k (col (lo j))) 0 (by simp) S256x128 x rfl rfl 0 rfl (ix2 k j)
      (fun b hb => by match b with | ⟨0, _⟩ => rfl | ⟨1, _⟩ => exact absurd rfl hb)
      (by show 0 + j.val = j.val; omega)
  · exact concatenate_apply_piece (1 : Fin 2) [⟨S256x128, x⟩, ⟨S256x128, y⟩, ⟨S256x128, z⟩] _ (ix2 k (col (hi j))) 1 (by simp) S256x128 y rfl rfl 128 rfl (ix2 k j)
      (fun b hb => by match b with | ⟨0, _⟩ => rfl | ⟨1, _⟩ => exact absurd rfl hb)
      (by show 128 + j.val = 128 + j.val; rfl)
  · exact concatenate_apply_piece (1 : Fin 2) [⟨S256x128, x⟩, ⟨S256x128, y⟩, ⟨S256x128, z⟩] _ (ix2 k (last j)) 2 (by simp) S256x128 z rfl rfl 256 rfl (ix2 k j)
      (fun b hb => by match b with | ⟨0, _⟩ => rfl | ⟨1, _⟩ => exact absurd rfl hb)
      (by show 256 + j.val = 256 + j.val; rfl)

/-- The zero block reads the zero word everywhere. -/
theorem zeroBlock_at (i : S128x128.Idx) : zeroBlock i = Attn.zero :=
  broadcastInDim_scalar_apply bcast_S_S128x128 _ i

/-! ## The operands at an entry -/

/-- The wide matrix's first 128 columns are theta's first-layer matrix, -/
theorem wide_theta (c : Dev nD) (k : Fin 256) (j : Fin 128) :
    (V m c main_v0 : S256x384.Idx → EReal) (ix2 k (col (lo j))) = (m ((c : Thread nD τ).loc main_arg1) : S256x128.Idx → EReal) (ix2 k j) := by
  rw [wide_eq]; exact (sideBySide3_at _ _ _ k j).1

/-- its next 128 columns phi's, -/
theorem wide_phi (c : Dev nD) (k : Fin 256) (j : Fin 128) :
    (V m c main_v0 : S256x384.Idx → EReal) (ix2 k (col (hi j))) = (m ((c : Thread nD τ).loc main_arg3) : S256x128.Idx → EReal) (ix2 k j) := by
  rw [wide_eq]; exact (sideBySide3_at _ _ _ k j).2.1

/-- and its last 128 columns gamma's. -/
theorem wide_gamma (c : Dev nD) (k : Fin 256) (j : Fin 128) :
    (V m c main_v0 : S256x384.Idx → EReal) (ix2 k (last j)) = (m ((c : Thread nD τ).loc main_arg5) : S256x128.Idx → EReal) (ix2 k j) := by
  rw [wide_eq]; exact (sideBySide3_at _ _ _ k j).2.2

/-- The second-layer matrix: theta's in the upper left block, -/
theorem diag_tt (c : Dev nD) (k j : Fin 128) :
    (V m c main_v4 : S256x256.Idx → EReal) (ix2 (lo k) (lo j)) = (m ((c : Thread nD τ).loc main_arg2) : S128x128.Idx → EReal) (ix2 k j) := by
  rw [diag_eq, (stacked_at _ _ k (lo j)).1]; exact (sideBySide_at _ _ k j).1
/-- zero in the upper right, -/
theorem diag_tp (c : Dev nD) (k j : Fin 128) :
    (V m c main_v4 : S256x256.Idx → EReal) (ix2 (lo k) (hi j)) = Attn.zero := by
  rw [diag_eq, (stacked_at _ _ k (hi j)).1, (sideBySide_at _ _ k j).2]; exact zeroBlock_at _
/-- zero in the lower left, -/
theorem diag_pt (c : Dev nD) (k j : Fin 128) :
    (V m c main_v4 : S256x256.Idx → EReal) (ix2 (hi k) (lo j)) = Attn.zero := by
  rw [diag_eq, (stacked_at _ _ k (lo j)).2, (sideBySide_at _ _ k j).1]; exact zeroBlock_at _
/-- phi's in the lower right. -/
theorem diag_pp (c : Dev nD) (k j : Fin 128) :
    (V m c main_v4 : S256x256.Idx → EReal) (ix2 (hi k) (hi j)) = (m ((c : Thread nD τ).loc main_arg4) : S128x128.Idx → EReal) (ix2 k j) := by
  rw [diag_eq, (stacked_at _ _ k (hi j)).2]; exact (sideBySide_at _ _ k j).2

end Cert.KernelIdeal.KValue

end
-- ==== Proof.KernelVectors.lean ====
/-
  The eight normalisation vectors the region finds, read at an entry, at the ideal instance: each [256] vector is
  a theta vector of 128 channels followed by the phi vector of the same role (scale, shift, mean, variance; first
  layer then second).
-/
import proofs.«134137_j43911745634356_2_alg».proof.Proof.FrameIdeal
import proofs.«134137_j43911745634356_2_alg».proof.Proof.KernelStages
import Idealize.ShloMosaic.Lib.Pipeline.Value

noncomputable section

namespace Cert.KernelIdeal.KValue

open Cert.KernelIdeal Cert.KernelIdeal.Gen Cert.KernelIdeal.Frame Cert.KernelIdeal.Stages
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The operands as terms of the arguments -/

/-- The eight [256] operands: a theta vector followed by the phi vector of the same role. -/
theorem vec5_eq (c : Dev nD) : (V m c main_v5 : S256.Idx → EReal)
    = concatenate S256 0 [⟨S128, m ((c : Thread nD τ).loc main_arg7)⟩, ⟨S128, m ((c : Thread nD τ).loc main_arg15)⟩] concatenates_S128_S128_S256_d0 := by
  dsimp only [V, hostOps0]
  after_results
theorem vec6_eq (c : Dev nD) : (V m c main_v6 : S256.Idx → EReal)
    = concatenate S256 0 [⟨S128, m ((c : Thread nD τ).loc main_arg8)⟩, ⟨S128, m ((c : Thread nD τ).loc main_arg16)⟩] concatenates_S128_S128_S256_d0 := by
  dsimp only [V, hostOps0]
  after_results
theorem vec7_eq (c : Dev nD) : (V m c main_v7 : S256.Idx → EReal)
    = concatenate S256 0 [⟨S128, m ((c : Thread nD τ).loc main_arg9)⟩, ⟨S128, m ((c : Thread nD τ).loc main_arg17)⟩] concatenates_S128_S128_S256_d0 := by
  dsimp only [V, hostOps0]
  after_results
theorem vec8_eq (c : Dev nD) : (V m c main_v8 : S256.Idx → EReal)
    = concatenate S256 0 [⟨S128, m ((c : Thread nD τ).loc main_arg10)⟩, ⟨S128, m ((c : Thread nD τ).loc main_arg18)⟩] concatenates_S128_S128_S256_d0 := by
  dsimp only [V, hostOps0]
  after_results
theorem vec9_eq (c : Dev nD) : (V m c main_v9 : S256.Idx → EReal)
    = concatenate S256 0 [⟨S128, m ((c : Thread nD τ).loc main_arg11)⟩, ⟨S128, m ((c : Thread nD τ).loc main_arg19)⟩] concatenates_S128_S128_S256_d0 := by
  dsimp only [V, hostOps0]
  after_results
theorem vec10_eq (c : Dev nD) : (V m c main_v10 : S256.Idx → EReal)
    = concatenate S256 0 [⟨S128, m ((c : Thread nD τ).loc main_arg12)⟩, ⟨S128, m ((c : Thread nD τ).loc main_arg20)⟩] concatenates_S128_S128_S256_d0 := by
  dsimp only [V, hostOps0]
  after_results
theorem vec11_eq (c : Dev nD) : (V m c main_v11 : S256.Idx → EReal)
    = concatenate S256 0 [⟨S128, m ((c : Thread nD τ).loc main_arg13)⟩, ⟨S128, m ((c : Thread nD τ).loc main_arg21)⟩] concatenates_S128_S128_S256_d0 := by
  dsimp only [V, hostOps0]
  after_results
theorem vec12_eq (c : Dev nD) : (V m c main_v12 : S256.Idx → EReal)
    = concatenate S256 0 [⟨S128, m ((c : Thread nD τ).loc main_arg14)⟩, ⟨S128, m ((c : Thread nD τ).loc main_arg22)⟩] concatenates_S128_S128_S256_d0 := by
  dsimp only [V, hostOps0]
  after_results

/-! ## Read at an entry -/

/-- A [256] vector made of two [128] halves reads its first half at the low positions and its second at the high. -/
theorem halves_at (x y : S128.Idx → EReal) (c : Fin 128) :
    concatenate S256 0 [⟨S128, x⟩, ⟨S128, y⟩] concatenates_S128_S128_S256_d0 (ix1 (lo c)) = x (ix1 c)
    ∧ concatenate S256 0 [⟨S128, x⟩, ⟨S128, y⟩] concatenates_S128_S128_S256_d0 (ix1 (hi c)) = y (ix1 c) := by
  constructor
  · exact concatenate_pair_apply_left (0 : Fin 1) x y _ (ix1 (lo c)) rfl (ix1 c)
      (fun b => by match b with | ⟨0, _⟩ => rfl)
  · exact concatenate_pair_apply_right (0 : Fin 1) x y _ (ix1 (hi c)) rfl rfl (ix1 c)
      (fun b hb => by match b with | ⟨0, _⟩ => exact absurd rfl hb)
      (by show c.val + 128 = 128 + c.val; omega)

/-- Each normalisation vector: theta's at the low positions, phi's at the high. -/
theorem vec5_at (c : Dev nD) (j : Fin 128) :
    (V m c main_v5 : S256.Idx → EReal) (ix1 (lo j)) = (m ((c : Thread nD τ).loc main_arg7) : S128.Idx → EReal) (ix1 j)
    ∧ (V m c main_v5 : S256.Idx → EReal) (ix1 (hi j)) = (m ((c : Thread nD τ).loc main_arg15) : S128.Idx → EReal) (ix1 j) := by
  rw [vec5_eq]; exact halves_at _ _ j
theorem vec6_at (c : Dev nD) (j : Fin 128) :
    (V m c main_v6 : S256.Idx → EReal) (ix1 (lo j)) = (m ((c : Thread nD τ).loc main_arg8) : S128.Idx → EReal) (ix1 j)
    ∧ (V m c main_v6 : S256.Idx → EReal) (ix1 (hi j)) = (m ((c : Thread nD τ).loc main_arg16) : S128.Idx → EReal) (ix1 j) := by
  rw [vec6_eq]; exact halves_at _ _ j
theorem vec7_at (c : Dev nD) (j : Fin 128) :
    (V m c main_v7 : S256.Idx → EReal) (ix1 (lo j)) = (m ((c : Thread nD τ).loc main_arg9) : S128.Idx → EReal) (ix1 j)
    ∧ (V m c main_v7 : S256.Idx → EReal) (ix1 (hi j)) = (m ((c : Thread nD τ).loc main_arg17) : S128.Idx → EReal) (ix1 j) := by
  rw [vec7_eq]; exact halves_at _ _ j
theorem vec8_at (c : Dev nD) (j : Fin 128) :
    (V m c main_v8 : S256.Idx → EReal) (ix1 (lo j)) = (m ((c : Thread nD τ).loc main_arg10) : S128.Idx → EReal) (ix1 j)
    ∧ (V m c main_v8 : S256.Idx → EReal) (ix1 (hi j)) = (m ((c : Thread nD τ).loc main_arg18) : S128.Idx → EReal) (ix1 j) := by
  rw [vec8_eq]; exact halves_at _ _ j
theorem vec9_at (c : Dev nD) (j : Fin 128) :
    (V m c main_v9 : S256.Idx → EReal) (ix1 (lo j)) = (m ((c : Thread nD τ).loc main_arg11) : S128.Idx → EReal) (ix1 j)
    ∧ (V m c main_v9 : S256.Idx → EReal) (ix1 (hi j)) = (m ((c : Thread nD τ).loc main_arg19) : S128.Idx → EReal) (ix1 j) := by
  rw [vec9_eq]; exact halves_at _ _ j
theorem vec10_at (c : Dev nD) (j : Fin 128) :
    (V m c main_v10 : S256.Idx → EReal) (ix1 (lo j)) = (m ((c : Thread nD τ).loc main_arg12) : S128.Idx → EReal) (ix1 j)
    ∧ (V m c main_v10 : S256.Idx → EReal) (ix1 (hi j)) = (m ((c : Thread nD τ).loc main_arg20) : S128.Idx → EReal) (ix1 j) := by
  rw [vec10_eq]; exact halves_at _ _ j
theorem vec11_at (c : Dev nD) (j : Fin 128) :
    (V m c main_v11 : S256.Idx → EReal) (ix1 (lo j)) = (m ((c : Thread nD τ).loc main_arg13) : S128.Idx → EReal) (ix1 j)
    ∧ (V m c main_v11 : S256.Idx → EReal) (ix1 (hi j)) = (m ((c : Thread nD τ).loc main_arg21) : S128.Idx → EReal) (ix1 j) := by
  rw [vec11_eq]; exact halves_at _ _ j
theorem vec12_at (c : Dev nD) (j : Fin 128) :
    (V m c main_v12 : S256.Idx → EReal) (ix1 (lo j)) = (m ((c : Thread nD τ).loc main_arg14) : S128.Idx → EReal) (ix1 j)
    ∧ (V m c main_v12 : S256.Idx → EReal) (ix1 (hi j)) = (m ((c : Thread nD τ).loc main_arg22) : S128.Idx → EReal) (ix1 j) := by
  rw [vec12_eq]; exact halves_at _ _ j

end Cert.KernelIdeal.KValue

end
-- ==== Proof.KernelAttend.lean ====
/-
  The kernel body's second product, its scores, weights and weighted average, and its last product, read at an
  entry at the ideal instance.
-/
import proofs.«134137_j43911745634356_2_alg».proof.Proof.KernelStages

noncomputable section

namespace Cert.KernelIdeal.Stages

open Cert.KernelIdeal Cert.KernelIdeal.Gen Idealize.ShloMosaic Idealize.ShloMosaic.ValueIdx
open Cert.LibObjectAxis Cert.LibRank3

/-! ## The second product -/

/-- The first product's first 256 columns. -/
def firstCols (X : Vec Ideal S1x16x128x256 .f32) (W : Vec Ideal S256x384 .f32) : FVec Ideal S2048x256 .f32 :=
  extractStridedSlice S2048x256 ![0, 0] (k0_pay2 (F := Ideal) X W) slices_S2048x384_o0_0_S2048x256

theorem firstCols_at (X : Vec Ideal S1x16x128x256 .f32) (W : Vec Ideal S256x384 .f32) (r : Fin 2048) (k : Fin 256) :
    firstCols X W (ix2 r k) = k0_pay2 (F := Ideal) X W (ix2 r (col k)) :=
  slice2_axis1_apply 0 (k0_pay2 (F := Ideal) X W) slices_S2048x384_o0_0_S2048x256 r k (col k) (Nat.zero_add _).symm

/-- The second product at (r, j): the normalised and clamped first 256 columns of row r against column j. -/
theorem second_at (X : Vec Ideal S1x16x128x256 .f32) (W : Vec Ideal S256x384 .f32) (G B M V : Vec Ideal S256 .f32)
    (W2 : Vec Ideal S256x256 .f32) (r : Fin 2048) (j : Fin 256) :
    k0_pay4 (F := Ideal) X W G B M V W2 (ix2 r j) = ∑ k : Fin 256, act (firstCols X W) G B M V r k * W2 (ix2 k j) := by
  unfold k0_pay4
  refine (prodMid _ _ r j).trans ?_
  refine Finset.sum_congr rfl fun k _ => ?_
  refine congrArg₂ (· * ·) ?_ ?_
  · exact normClamp_at (firstCols X W) G B M V r k
  · exact congrFun (shapeCast_self W2 shapeCasts_S256x256_S256x256) (ix2 k j)

/-! ## Scores and weights over [16, 128, 128] -/

/-- The scaled scores at (h, u, v). -/
theorem scores_at {φ₁ φ₂ : FTy} (th : FVec Ideal S16x128x128 φ₁) (ph : FVec Ideal S16x128x128 φ₂) (hh : Fin 16) (u v : Fin 128) :
    mulf (broadcast S16x128x128 (Scalar.ofBits .f32 0x3DB504F3#32))
        (matmul dot_S16x128x128_S16x128x128_S16x128x128_2_2_1_1_0_0 none th ph (constant S16x128x128 .f32 0x00000000#32)) (ix3 hh u v)
      = Attn.scale * ∑ c : Fin 128, th (ix3 hh u c) * ph (ix3 hh v c) := by
  rw [mulf_apply, broadcast_apply, prodSc]
  rfl

/-- A [16, 128] array repeated along a new last axis of 128. -/
def alongLast (a : FVec Ideal S16x128 .f32) : FVec Ideal S16x128x128 .f32 :=
  broadcastTo S16x128x128 (shapeCast S16x128x1 a shapeCasts_S16x128_S16x128x1) broadcasts_S16x128x1_S16x128x128

theorem alongLast_at (a : FVec Ideal S16x128 .f32) (hh : Fin 16) (u v : Fin 128) : alongLast a (ix3 hh u v) = a (ix2 hh u) :=
  (broadcastTo_ab1_abc_apply _ _ hh u v).trans (shapeCast_ab_ab1_apply a _ hh u (0 : Fin 1))

/-- The rows' maxima. -/
def rowMaxima (s : FVec Ideal S16x128x128 .f32) : FVec Ideal S16x128 .f32 :=
  maximumf (broadcast S16x128 (Scalar.ofBits .f32 0xFF800000#32))
    (multiReduction .maximumf [2] S16x128 s 0xFF800000#32 reduces_S16x128x128_S16x128 (.inl rfl) rfl)

theorem rowMaxima_at (s : FVec Ideal S16x128x128 .f32) (hh : Fin 16) (u : Fin 128) :
    rowMaxima s (ix2 hh u) = Attn.rowMax (fun v => s (ix3 hh u v)) := by
  exact congrArg (fun z => max (Ideal.ofBits .f32 0xFF800000#32) z)
    (multiReduction_max_last s 0xFF800000#32 reduces_S16x128x128_S16x128 (.inl rfl) rfl hh u)

/-- The exponentials of the differences to the row's maximum. -/
def expDiff (s : FVec Ideal S16x128x128 .f32) : FVec Ideal S16x128x128 .f32 := exp (subf s (alongLast (rowMaxima s)))

theorem expDiff_at (s : FVec Ideal S16x128x128 .f32) (hh : Fin 16) (u v : Fin 128) :
    expDiff s (ix3 hh u v) = Ideal.exp (s (ix3 hh u v) - Attn.rowMax (fun v' => s (ix3 hh u v'))) := by
  show Ideal.exp (subf s (alongLast (rowMaxima s)) (ix3 hh u v)) = _
  rw [subf_apply, alongLast_at, rowMaxima_at]

/-- The weights. -/
def weights (s : FVec Ideal S16x128x128 .f32) : FVec Ideal S16x128x128 .f32 :=
  divf (expDiff s) (alongLast (multiReduction .add [2] S16x128 (expDiff s) 0x00000000#32 reduces_S16x128x128_S16x128 (.inl rfl) rfl))

theorem weights_at (s : FVec Ideal S16x128x128 .f32) (hh : Fin 16) (u v : Fin 128) :
    weights s (ix3 hh u v) = Attn.weight (fun v' => s (ix3 hh u v')) v := by
  show Ideal.div (expDiff s (ix3 hh u v)) (alongLast _ (ix3 hh u v)) = _
  rw [alongLast_at]
  refine congrArg₂ Ideal.div (expDiff_at s hh u v) ?_
  refine (multiReduction_add_last (expDiff s) reduces_S16x128x128_S16x128 (.inl rfl) rfl hh u).trans ?_
  exact Finset.sum_congr rfl fun v' _ => expDiff_at s hh u v'

/-! ## The weighted average -/

/-- The first 128 columns of a [2048, 256] matrix as a [16, 128, 128] array. -/
def firstHalf3 (z : FVec Ideal S2048x256 .f32) : FVec Ideal S16x128x128 .bf16 :=
  shapeCast S16x128x128 (truncf .bf16 (extractStridedSlice S2048x128 ![0, 0] z slices_S2048x256_o0_0_S2048x128) bitsLt_bf16_f32)
    shapeCasts_S2048x128_S16x128x128

theorem firstHalf3_at (z : FVec Ideal S2048x256 .f32) (hh : Fin 16) (u c : Fin 128) :
    firstHalf3 z (ix3 hh u c) = z (ix2 (row hh u) (lo c)) :=
  (shapeCast_nc_abc_apply _ _ hh u c (row hh u).isLt).trans
    (slice2_axis1_apply 0 z slices_S2048x256_o0_0_S2048x128 (row hh u) c (lo c) (Nat.zero_add _).symm)

/-- The last 128 columns of a [2048, 256] matrix as a [16, 128, 128] array. -/
def secondHalf3 (z : FVec Ideal S2048x256 .f32) : FVec Ideal S16x128x128 .bf16 :=
  shapeCast S16x128x128 (truncf .bf16 (extractStridedSlice S2048x128 ![0, 128] z slices_S2048x256_o0_128_S2048x128) bitsLt_bf16_f32)
    shapeCasts_S2048x128_S16x128x128

theorem secondHalf3_at (z : FVec Ideal S2048x256 .f32) (hh : Fin 16) (u c : Fin 128) :
    secondHalf3 z (ix3 hh u c) = z (ix2 (row hh u) (hi c)) :=
  (shapeCast_nc_abc_apply _ _ hh u c (row hh u).isLt).trans
    (slice2_axis1_apply 128 z slices_S2048x256_o0_128_S2048x128 (row hh u) c (hi c) rfl)

/-- A [2048, 128] matrix as a [16, 128, 128] array. -/
theorem unflat_at {φ : FTy} (g : FVec Ideal S2048x128 φ) (hh : Fin 16) (v c : Fin 128) :
    shapeCast S16x128x128 g shapeCasts_S2048x128_S16x128x128 (ix3 hh v c) = g (ix2 (row hh v) c) :=
  shapeCast_nc_abc_apply g _ hh v c (row hh v).isLt

/-- A [16, 128, 128] array as a [2048, 128] matrix. -/
theorem reflat_at {φ : FTy} (a : FVec Ideal S16x128x128 φ) (hh : Fin 16) (u c : Fin 128) :
    shapeCast S2048x128 a shapeCasts_S16x128x128_S2048x128 (ix2 (row hh u) c) = a (ix3 hh u c) :=
  shapeCast_abc_nc_apply a _ hh u c (row hh u).isLt

/-- The weighted average at (row h u, c): the weights of row (h, u) — from the scores of the second layer's first 128
    columns at (h, u) against its last 128 columns at (h, v) — against gamma at (row h v, c). -/
theorem attend_at (gam : FVec Ideal S2048x128 .bf16) (y : FVec Ideal S2048x256 .f32) (G B M V : Vec Ideal S256 .f32)
    (hh : Fin 16) (u c : Fin 128) :
    k0_pay5 (F := Ideal) gam y G B M V (ix2 (row hh u) c)
      = ∑ v : Fin 128,
          Attn.weight (fun v' => Attn.scale * ∑ c' : Fin 128, act y G B M V (row hh u) (lo c') * act y G B M V (row hh v') (hi c')) v
            * gam (ix2 (row hh v) c) := by
  unfold k0_pay5
  refine (reflat_at _ hh u c).trans ?_
  refine (prodAv _ _ hh u c).trans ?_
  refine Finset.sum_congr rfl fun v _ => ?_
  refine congrArg₂ (· * ·) ?_ (unflat_at gam hh v c)
  refine (weights_at _ hh u v).trans ?_
  refine congrArg (fun s => Attn.weight s v) (funext fun v' => ?_)
  refine (scores_at _ _ hh u v').trans ?_
  refine congrArg (fun z => Attn.scale * z) (Finset.sum_congr rfl fun c' _ => ?_)
  refine congrArg₂ (· * ·) ?_ ?_
  · exact (firstHalf3_at _ hh u c').trans (normClamp_at y G B M V (row hh u) (lo c'))
  · exact (secondHalf3_at _ hh v' c').trans (normClamp_at y G B M V (row hh v') (hi c'))

/-! ## The last product -/

/-- The block's output at (0, h, u, f): the weighted average at row (h, u) against column f of the last matrix. -/
theorem out_at (att : FVec Ideal S2048x128 .f32) (RW : Vec Ideal S128x256 .f32) (hh : Fin 16) (u : Fin 128) (f : Fin 256) :
    k0_pay1 (F := Ideal) att RW (ix4 (0 : Fin 1) hh u f) = ∑ c : Fin 128, att (ix2 (row hh u) c) * RW (ix2 c f) := by
  unfold k0_pay1
  refine (shapeCast_abc_1abc_apply _ _ (0 : Fin 1) hh u f).trans ?_
  refine (shapeCast_nc_abc_apply _ _ hh u f (row hh u).isLt).trans ?_
  exact prodOut _ _ (row hh u) f

end Cert.KernelIdeal.Stages

end
-- ==== Proof.KernelBlock.lean ====
/-
  One block of the kernel is the specification's function on the rows it holds.

  The weight matrix of the first product lists theta's, phi's and gamma's weights side by side, so its column c,
  128 + c, 256 + c is that branch's convolution; the second product's matrix is block diagonal — theta's weights
  against the first 128 columns, phi's against the last 128, zeros elsewhere — so a sum over its 256 rows is the sum
  over the 128 rows of the branch's own block, the other half contributing products with zero; the normalisation's
  parameters are the two branches' vectors end to end.
-/
import proofs.«134137_j43911745634356_2_alg».proof.Proof.KernelAttend

noncomputable section

namespace Cert.KernelIdeal.Stages

open Cert.KernelIdeal Cert.KernelIdeal.Gen Idealize.ShloMosaic Idealize.ShloMosaic.ValueIdx

/-- A sum over 256 positions against a column that is a 128-column on its first half and zero on its second half. -/
theorem sum_first_half (a w : Fin 256 → EReal) (t : Fin 128 → EReal)
    (h1 : ∀ k, w (lo k) = t k) (h2 : ∀ k, w (hi k) = Attn.zero) :
    ∑ k : Fin 256, a k * w k = ∑ k : Fin 128, a (lo k) * t k := by
  rw [Attn.sum_halves]
  show ∑ k : Fin 128, a (lo k) * w (lo k) + ∑ k : Fin 128, a (hi k) * w (hi k) = _
  have hz : ∀ k : Fin 128, a (hi k) * w (hi k) = 0 := fun k => by
    rw [h2, Attn.zero, Ideal.ofBits_zero_f32, mul_zero]
  simp only [hz, h1, Finset.sum_const_zero, add_zero]

/-- The same with the zero half first. -/
theorem sum_second_half (a w : Fin 256 → EReal) (t : Fin 128 → EReal)
    (h1 : ∀ k, w (lo k) = Attn.zero) (h2 : ∀ k, w (hi k) = t k) :
    ∑ k : Fin 256, a k * w k = ∑ k : Fin 128, a (hi k) * t k := by
  rw [Attn.sum_halves]
  show ∑ k : Fin 128, a (lo k) * w (lo k) + ∑ k : Fin 128, a (hi k) * w (hi k) = _
  have hz : ∀ k : Fin 128, a (lo k) * w (lo k) = 0 := fun k => by
    rw [h1, Attn.zero, Ideal.ofBits_zero_f32, mul_zero]
  simp only [hz, h2, Finset.sum_const_zero, zero_add]

section Block

variable (X : Vec Ideal S1x16x128x256 .f32) (W : Vec Ideal S256x384 .f32) (W2 : Vec Ideal S256x256 .f32) (RW : Vec Ideal S128x256 .f32)
    (G1 B1 M1 V1 G2 B2 M2 V2 : Vec Ideal S256 .f32)
    (x : Attn.Arr4) (tw1 : Attn.MatIn) (tw2 : Attn.MatMid) (pw1 : Attn.MatIn) (pw2 : Attn.MatMid) (gw : Attn.MatIn) (rw : Attn.MatOut)
    (t1g t1b t1m t1v t2g t2b t2m t2v p1g p1b p1m p1v p2g p2b p2m p2v : Attn.Chan)
    (b : Fin 8) (h : Fin 128) (hh : Fin 16)

/-- A branch's first layer, from the branch's group of columns of the first product and its half of the parameters. -/
theorem first_layer (j : Fin 128 → Fin 256) (w1 : Attn.MatIn) (g bt mu v : Attn.Chan)
    (hX : ∀ (u : Fin 128) (k : Fin 256), X (ix4 (0 : Fin 1) hh u k) = x (ix4 b h u k))
    (hW : ∀ (k : Fin 256) (c : Fin 128), W (ix2 k (col (j c))) = w1 (ix2 k c))
    (hG : ∀ c : Fin 128, G1 (ix1 (j c)) = g (ix1 c)) (hB : ∀ c : Fin 128, B1 (ix1 (j c)) = bt (ix1 c))
    (hM : ∀ c : Fin 128, M1 (ix1 (j c)) = mu (ix1 c)) (hV : ∀ c : Fin 128, V1 (ix1 (j c)) = v (ix1 c))
    (u k : Fin 128) :
    act (firstCols X W) G1 B1 M1 V1 (row hh u) (j k) = Attn.layerOne x w1 g bt mu v b h u k := by
  unfold act Attn.layerOne Attn.normClamp Attn.convIn
  rw [firstCols_at, first_at, hG, hB, hM, hV]
  simp only [hX, hW]

/-- A branch's second layer, from its half of the second product's columns and its half of the parameters, given
    the sum over the 256 rows of the second matrix as the branch's own sum. -/
theorem second_layer (j : Fin 128 → Fin 256) (a : Attn.Act) (w2 : Attn.MatMid) (g bt mu v : Attn.Chan)
    (y : FVec Ideal S2048x256 .f32)
    (hy : ∀ (u c : Fin 128), y (ix2 (row hh u) (j c)) = ∑ k : Fin 128, a b h u k * w2 (ix2 k c))
    (hG : ∀ c : Fin 128, G2 (ix1 (j c)) = g (ix1 c)) (hB : ∀ c : Fin 128, B2 (ix1 (j c)) = bt (ix1 c))
    (hM : ∀ c : Fin 128, M2 (ix1 (j c)) = mu (ix1 c)) (hV : ∀ c : Fin 128, V2 (ix1 (j c)) = v (ix1 c))
    (u c : Fin 128) :
    act y G2 B2 M2 V2 (row hh u) (j c) = Attn.layerTwo a w2 g bt mu v b h u c := by
  unfold act Attn.layerTwo Attn.normClamp
  rw [hy, hG, hB, hM, hV]

/-- One block's output at (0, hh, u, f) is the specification at (b, h, u, f), when the block's rows hh are the
    input's rows (b, h) and the resident operands are the arguments laid side by side. -/
theorem block_spec
    (hX : ∀ (u : Fin 128) (k : Fin 256), X (ix4 (0 : Fin 1) hh u k) = x (ix4 b h u k))
    (hWt : ∀ (k : Fin 256) (c : Fin 128), W (ix2 k (col (lo c))) = tw1 (ix2 k c))
    (hWp : ∀ (k : Fin 256) (c : Fin 128), W (ix2 k (col (hi c))) = pw1 (ix2 k c))
    (hWg : ∀ (k : Fin 256) (c : Fin 128), W (ix2 k (last c)) = gw (ix2 k c))
    (hW2tt : ∀ k c : Fin 128, W2 (ix2 (lo k) (lo c)) = tw2 (ix2 k c))
    (hW2tp : ∀ k c : Fin 128, W2 (ix2 (lo k) (hi c)) = Attn.zero)
    (hW2pt : ∀ k c : Fin 128, W2 (ix2 (hi k) (lo c)) = Attn.zero)
    (hW2pp : ∀ k c : Fin 128, W2 (ix2 (hi k) (hi c)) = pw2 (ix2 k c))
    (hRW : ∀ (c : Fin 128) (f : Fin 256), RW (ix2 c f) = rw (ix2 c f))
    (hG1 : ∀ c : Fin 128, G1 (ix1 (lo c)) = t1g (ix1 c) ∧ G1 (ix1 (hi c)) = p1g (ix1 c))
    (hB1 : ∀ c : Fin 128, B1 (ix1 (lo c)) = t1b (ix1 c) ∧ B1 (ix1 (hi c)) = p1b (ix1 c))
    (hM1 : ∀ c : Fin 128, M1 (ix1 (lo c)) = t1m (ix1 c) ∧ M1 (ix1 (hi c)) = p1m (ix1 c))
    (hV1 : ∀ c : Fin 128, V1 (ix1 (lo c)) = t1v (ix1 c) ∧ V1 (ix1 (hi c)) = p1v (ix1 c))
    (hG2 : ∀ c : Fin 128, G2 (ix1 (lo c)) = t2g (ix1 c) ∧ G2 (ix1 (hi c)) = p2g (ix1 c))
    (hB2 : ∀ c : Fin 128, B2 (ix1 (lo c)) = t2b (ix1 c) ∧ B2 (ix1 (hi c)) = p2b (ix1 c))
    (hM2 : ∀ c : Fin 128, M2 (ix1 (lo c)) = t2m (ix1 c) ∧ M2 (ix1 (hi c)) = p2m (ix1 c))
    (hV2 : ∀ c : Fin 128, V2 (ix1 (lo c)) = t2v (ix1 c) ∧ V2 (ix1 (hi c)) = p2v (ix1 c))
    (u : Fin 128) (f : Fin 256) :
    k0_pay1 (F := Ideal) (k0_pay5 (k0_pay3 X W) (k0_pay4 X W G1 B1 M1 V1 W2) G2 B2 M2 V2) RW (ix4 (0 : Fin 1) hh u f)
      = Attn.result x tw1 tw2 pw1 pw2 gw rw t1g t1b t1m t1v t2g t2b t2m t2v p1g p1b p1m p1v p2g p2b p2m p2v b h u f := by
  -- the two branches' first layers
  have hT1 : ∀ u k : Fin 128, act (firstCols X W) G1 B1 M1 V1 (row hh u) (lo k) = Attn.layerOne x tw1 t1g t1b t1m t1v b h u k :=
    first_layer X W G1 B1 M1 V1 x b h hh lo tw1 t1g t1b t1m t1v hX hWt (fun c => (hG1 c).1) (fun c => (hB1 c).1)
      (fun c => (hM1 c).1) (fun c => (hV1 c).1)
  have hP1 : ∀ u k : Fin 128, act (firstCols X W) G1 B1 M1 V1 (row hh u) (hi k) = Attn.layerOne x pw1 p1g p1b p1m p1v b h u k :=
    first_layer X W G1 B1 M1 V1 x b h hh hi pw1 p1g p1b p1m p1v hX hWp (fun c => (hG1 c).2) (fun c => (hB1 c).2)
      (fun c => (hM1 c).2) (fun c => (hV1 c).2)
  -- the second product's two halves: each a sum over its own branch's 128 rows
  have hyT : ∀ u c : Fin 128, k0_pay4 (F := Ideal) X W G1 B1 M1 V1 W2 (ix2 (row hh u) (lo c))
      = ∑ k : Fin 128, Attn.layerOne x tw1 t1g t1b t1m t1v b h u k * tw2 (ix2 k c) := fun u c => by
    rw [second_at]
    refine (sum_first_half _ (fun k => W2 (ix2 k (lo c))) (fun k => tw2 (ix2 k c)) (fun k => hW2tt k c) (fun k => hW2pt k c)).trans ?_
    exact Finset.sum_congr rfl fun k _ => by rw [hT1]
  have hyP : ∀ u c : Fin 128, k0_pay4 (F := Ideal) X W G1 B1 M1 V1 W2 (ix2 (row hh u) (hi c))
      = ∑ k : Fin 128, Attn.layerOne x pw1 p1g p1b p1m p1v b h u k * pw2 (ix2 k c) := fun u c => by
    rw [second_at]
    refine (sum_second_half _ (fun k => W2 (ix2 k (hi c))) (fun k => pw2 (ix2 k c)) (fun k => hW2tp k c) (fun k => hW2pp k c)).trans ?_
    exact Finset.sum_congr rfl fun k _ => by rw [hP1]
  -- the second layers
  have hT2 := second_layer G2 B2 M2 V2 b h hh lo (Attn.layerOne x tw1 t1g t1b t1m t1v) tw2 t2g t2b t2m t2v
    (k0_pay4 (F := Ideal) X W G1 B1 M1 V1 W2) hyT (fun c => (hG2 c).1) (fun c => (hB2 c).1) (fun c => (hM2 c).1) (fun c => (hV2 c).1)
  have hP2 := second_layer G2 B2 M2 V2 b h hh hi (Attn.layerOne x pw1 p1g p1b p1m p1v) pw2 p2g p2b p2m p2v
    (k0_pay4 (F := Ideal) X W G1 B1 M1 V1 W2) hyP (fun c => (hG2 c).2) (fun c => (hB2 c).2) (fun c => (hM2 c).2) (fun c => (hV2 c).2)
  -- gamma
  have hGa : ∀ v c : Fin 128, k0_pay3 (F := Ideal) X W (ix2 (row hh v) c) = Attn.convIn x gw b h v c := fun v c => by
    rw [gamma_at]
    unfold Attn.convIn
    simp only [hX, hWg]
  -- the block's output
  rw [out_at]
  unfold Attn.result
  refine Finset.sum_congr rfl fun c _ => ?_
  rw [hRW, attend_at]
  unfold Attn.attend Attn.score
  simp only [hT2, hP2, hGa]

end Block

end Cert.KernelIdeal.Stages

end
-- ==== Proof.KernelValue.lean ====
/-
  The kernel's value at the ideal instance: the result array after the run, as one function of the arguments.

  Each of the 64 grid points (b, q), b and q below 8, reads the input's block of rows 16 q … 16 q + 15 of batch b
  and every other operand whole, and writes back the block of the result at the same place.  What it writes is the
  specification's function read through that block: the block's entry (0, hh, u, f) is the result at
  (b, 16 q + hh, u, f).  The 64 blocks cover the result array — the entry (b, h, u, f) lies in the block of the point
  (b, h / 16) — so the array ends holding the specification's function everywhere; the arguments end as launched.
-/
import proofs.«134137_j43911745634356_2_alg».proof.Proof.FrameIdeal
import proofs.«134137_j43911745634356_2_alg».proof.Proof.KernelWindows
import proofs.«134137_j43911745634356_2_alg».proof.Proof.KernelVectors
import proofs.«134137_j43911745634356_2_alg».proof.Proof.KernelBlock
import Idealize.ShloMosaic.Lib.Pipeline.Value

noncomputable section

namespace Cert.KernelIdeal.KValue

open Cert.KernelIdeal Cert.KernelIdeal.Gen Cert.KernelIdeal.Frame Cert.KernelIdeal.Stages
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeros4 : (![0, 0, 0, 0] : Fin 4 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-! ## The index maps, decided over the grid -/

/-- The input's window and the result's move together: the same block (b, q, 0, 0) at every point, b and q below 8. -/
theorem idx_grid : ∀ t : Fin cfg0.N, win0_0.index t (0 : Fin 4) = win0_12.index t (0 : Fin 4)
    ∧ win0_0.index t (1 : Fin 4) = win0_12.index t (1 : Fin 4)
    ∧ win0_0.index t (2 : Fin 4) = 0 ∧ win0_0.index t (3 : Fin 4) = 0
    ∧ win0_12.index t (2 : Fin 4) = 0 ∧ win0_12.index t (3 : Fin 4) = 0
    ∧ win0_12.index t (0 : Fin 4) < 8 ∧ win0_12.index t (1 : Fin 4) < 8 :=
  (by decide +kernel : ∀ t : Fin grid0.N, _)

/-- Every pair (b, q) below 8 is some point's. -/
theorem idx_onto : ∀ (b q : Fin 8), ∃ t : Fin cfg0.N, win0_12.index t (0 : Fin 4) = b.val ∧ win0_12.index t (1 : Fin 4) = q.val :=
  (by decide +kernel : ∀ (b q : Fin 8), ∃ t : Fin grid0.N, win0_12.index t (0 : Fin 4) = b.val ∧ win0_12.index t (1 : Fin 4) = q.val)

/-- The eleven whole-array windows stay at block zero. -/
theorem idx_whole1 : ∀ t : Fin cfg0.N, win0_1.index t (0 : Fin 2) = 0 ∧ win0_1.index t (1 : Fin 2) = 0 :=
  (by decide +kernel : ∀ t : Fin grid0.N, _)
theorem idx_whole2 : ∀ t : Fin cfg0.N, win0_2.index t (0 : Fin 2) = 0 ∧ win0_2.index t (1 : Fin 2) = 0 :=
  (by decide +kernel : ∀ t : Fin grid0.N, _)
theorem idx_whole3 : ∀ t : Fin cfg0.N, win0_3.index t (0 : Fin 2) = 0 ∧ win0_3.index t (1 : Fin 2) = 0 :=
  (by decide +kernel : ∀ t : Fin grid0.N, _)
theorem idx_whole4 : ∀ t : Fin cfg0.N, win0_4.index t (0 : Fin 1) = 0 :=
  (by decide +kernel : ∀ t : Fin grid0.N, _)
theorem idx_whole5 : ∀ t : Fin cfg0.N, win0_5.index t (0 : Fin 1) = 0 :=
  (by decide +kernel : ∀ t : Fin grid0.N, _)
theorem idx_whole6 : ∀ t : Fin cfg0.N, win0_6.index t (0 : Fin 1) = 0 :=
  (by decide +kernel : ∀ t : Fin grid0.N, _)
theorem idx_whole7 : ∀ t : Fin cfg0.N, win0_7.index t (0 : Fin 1) = 0 :=
  (by decide +kernel : ∀ t : Fin grid0.N, _)
theorem idx_whole8 : ∀ t : Fin cfg0.N, win0_8.index t (0 : Fin 1) = 0 :=
  (by decide +kernel : ∀ t : Fin grid0.N, _)
theorem idx_whole9 : ∀ t : Fin cfg0.N, win0_9.index t (0 : Fin 1) = 0 :=
  (by decide +kernel : ∀ t : Fin grid0.N, _)
theorem idx_whole10 : ∀ t : Fin cfg0.N, win0_10.index t (0 : Fin 1) = 0 :=
  (by decide +kernel : ∀ t : Fin grid0.N, _)
theorem idx_whole11 : ∀ t : Fin cfg0.N, win0_11.index t (0 : Fin 1) = 0 :=
  (by decide +kernel : ∀ t : Fin grid0.N, _)

/-! ## The input blocks as the arrays the region finds -/

/-- A whole-array window's block is the array. -/
theorem blk1_eq (c : Dev nD) (t : Fin cfg0.N) : (iblk m c 1 t : Vec Ideal S256x384 .f32) = (V m c main_v0 : S256x384.Idx → EReal) := by
  obtain ⟨e0, e1⟩ := idx_whole1 t
  funext j
  unfold iblk
  rw [View.read_apply]
  show (V m c main_v0 : S256x384.Idx → EReal) _ = _
  refine congrArg _ (funext fun a => Fin.ext ?_)
  match a with
  | ⟨0, _⟩ => show win0_1.index t (0 : Fin 2) * 256 + 1 * (j 0).val = (j 0).val; rw [e0]; omega
  | ⟨1, _⟩ => show win0_1.index t (1 : Fin 2) * 384 + 1 * (j 1).val = (j 1).val; rw [e1]; omega
theorem blk2_eq (c : Dev nD) (t : Fin cfg0.N) : (iblk m c 2 t : Vec Ideal S256x256 .f32) = (V m c main_v4 : S256x256.Idx → EReal) := by
  obtain ⟨e0, e1⟩ := idx_whole2 t
  funext j
  unfold iblk
  rw [View.read_apply]
  show (V m c main_v4 : S256x256.Idx → EReal) _ = _
  refine congrArg _ (funext fun a => Fin.ext ?_)
  match a with
  | ⟨0, _⟩ => show win0_2.index t (0 : Fin 2) * 256 + 1 * (j 0).val = (j 0).val; rw [e0]; omega
  | ⟨1, _⟩ => show win0_2.index t (1 : Fin 2) * 256 + 1 * (j 1).val = (j 1).val; rw [e1]; omega
theorem blk3_eq (c : Dev nD) (t : Fin cfg0.N) : (iblk m c 3 t : Vec Ideal S128x256 .f32) = (V m c main_arg6 : S128x256.Idx → EReal) := by
  obtain ⟨e0, e1⟩ := idx_whole3 t
  funext j
  unfold iblk
  rw [View.read_apply]
  show (V m c main_arg6 : S128x256.Idx → EReal) _ = _
  refine congrArg _ (funext fun a => Fin.ext ?_)
  match a with
  | ⟨0, _⟩ => show win0_3.index t (0 : Fin 2) * 128 + 1 * (j 0).val = (j 0).val; rw [e0]; omega
  | ⟨1, _⟩ => show win0_3.index t (1 : Fin 2) * 256 + 1 * (j 1).val = (j 1).val; rw [e1]; omega
theorem blk4_eq (c : Dev nD) (t : Fin cfg0.N) : (iblk m c 4 t : Vec Ideal S256 .f32) = (V m c main_v5 : S256.Idx → EReal) := by
  have e0 := idx_whole4 t
  funext j
  unfold iblk
  rw [View.read_apply]
  show (V m c main_v5 : S256.Idx → EReal) _ = _
  refine congrArg _ (funext fun a => Fin.ext ?_)
  match a with
  | ⟨0, _⟩ => show win0_4.index t (0 : Fin 1) * 256 + 1 * (j 0).val = (j 0).val; rw [e0]; omega
theorem blk5_eq (c : Dev nD) (t : Fin cfg0.N) : (iblk m c 5 t : Vec Ideal S256 .f32) = (V m c main_v6 : S256.Idx → EReal) := by
  have e0 := idx_whole5 t
  funext j
  unfold iblk
  rw [View.read_apply]
  show (V m c main_v6 : S256.Idx → EReal) _ = _
  refine congrArg _ (funext fun a => Fin.ext ?_)
  match a with
  | ⟨0, _⟩ => show win0_5.index t (0 : Fin 1) * 256 + 1 * (j 0).val = (j 0).val; rw [e0]; omega
theorem blk6_eq (c : Dev nD) (t : Fin cfg0.N) : (iblk m c 6 t : Vec Ideal S256 .f32) = (V m c main_v7 : S256.Idx → EReal) := by
  have e0 := idx_whole6 t
  funext j
  unfold iblk
  rw [View.read_apply]
  show (V m c main_v7 : S256.Idx → EReal) _ = _
  refine congrArg _ (funext fun a => Fin.ext ?_)
  match a with
  | ⟨0, _⟩ => show win0_6.index t (0 : Fin 1) * 256 + 1 * (j 0).val = (j 0).val; rw [e0]; omega
theorem blk7_eq (c : Dev nD) (t : Fin cfg0.N) : (iblk m c 7 t : Vec Ideal S256 .f32) = (V m c main_v8 : S256.Idx → EReal) := by
  have e0 := idx_whole7 t
  funext j
  unfold iblk
  rw [View.read_apply]
  show (V m c main_v8 : S256.Idx → EReal) _ = _
  refine congrArg _ (funext fun a => Fin.ext ?_)
  match a with
  | ⟨0, _⟩ => show win0_7.index t (0 : Fin 1) * 256 + 1 * (j 0).val = (j 0).val; rw [e0]; omega
theorem blk8_eq (c : Dev nD) (t : Fin cfg0.N) : (iblk m c 8 t : Vec Ideal S256 .f32) = (V m c main_v9 : S256.Idx → EReal) := by
  have e0 := idx_whole8 t
  funext j
  unfold iblk
  rw [View.read_apply]
  show (V m c main_v9 : S256.Idx → EReal) _ = _
  refine congrArg _ (funext fun a => Fin.ext ?_)
  match a with
  | ⟨0, _⟩ => show win0_8.index t (0 : Fin 1) * 256 + 1 * (j 0).val = (j 0).val; rw [e0]; omega
theorem blk9_eq (c : Dev nD) (t : Fin cfg0.N) : (iblk m c 9 t : Vec Ideal S256 .f32) = (V m c main_v10 : S256.Idx → EReal) := by
  have e0 := idx_whole9 t
  funext j
  unfold iblk
  rw [View.read_apply]
  show (V m c main_v10 : S256.Idx → EReal) _ = _
  refine congrArg _ (funext fun a => Fin.ext ?_)
  match a with
  | ⟨0, _⟩ => show win0_9.index t (0 : Fin 1) * 256 + 1 * (j 0).val = (j 0).val; rw [e0]; omega
theorem blk10_eq (c : Dev nD) (t : Fin cfg0.N) : (iblk m c 10 t : Vec Ideal S256 .f32) = (V m c main_v11 : S256.Idx → EReal) := by
  have e0 := idx_whole10 t
  funext j
  unfold iblk
  rw [View.read_apply]
  show (V m c main_v11 : S256.Idx → EReal) _ = _
  refine congrArg _ (funext fun a => Fin.ext ?_)
  match a with
  | ⟨0, _⟩ => show win0_10.index t (0 : Fin 1) * 256 + 1 * (j 0).val = (j 0).val; rw [e0]; omega
theorem blk11_eq (c : Dev nD) (t : Fin cfg0.N) : (iblk m c 11 t : Vec Ideal S256 .f32) = (V m c main_v12 : S256.Idx → EReal) := by
  have e0 := idx_whole11 t
  funext j
  unfold iblk
  rw [View.read_apply]
  show (V m c main_v12 : S256.Idx → EReal) _ = _
  refine congrArg _ (funext fun a => Fin.ext ?_)
  match a with
  | ⟨0, _⟩ => show win0_11.index t (0 : Fin 1) * 256 + 1 * (j 0).val = (j 0).val; rw [e0]; omega

/-- The input's block at a point: entry (0, hh, u, k) is the input at (b, 16 q + hh, u, k). -/
theorem blk0_at (c : Dev nD) (t : Fin cfg0.N) (hh : Fin 16) (u : Fin 128) (k : Fin 256) (b : Fin 8) (h : Fin 128)
    (hb : b.val = win0_12.index t (0 : Fin 4)) (hh' : h.val = win0_12.index t (1 : Fin 4) * 16 + hh.val) :
    (iblk m c 0 t : Vec Ideal S1x16x128x256 .f32) (ix4 (0 : Fin 1) hh u k)
      = ((m ((c : Thread nD τ).loc main_arg0)) : S8x128x128x256.Idx → EReal) (ix4 b h u k) := by
  obtain ⟨e0, e1, e2, e3, -⟩ := idx_grid t
  unfold iblk
  rw [View.read_apply]
  show (V m c main_arg0 : S8x128x128x256.Idx → EReal) _ = _
  refine (congrFun (V_main_arg0 m c) _).trans ?_
  refine congrArg _ (funext fun a => Fin.ext ?_)
  match a with
  | ⟨0, _⟩ => show win0_0.index t (0 : Fin 4) * 1 + 1 * 0 = b.val; omega
  | ⟨1, _⟩ => show win0_0.index t (1 : Fin 4) * 16 + 1 * hh.val = h.val; omega
  | ⟨2, _⟩ => show win0_0.index t (2 : Fin 4) * 128 + 1 * u.val = u.val; omega
  | ⟨3, _⟩ => show win0_0.index t (3 : Fin 4) * 256 + 1 * k.val = k.val; omega

/-! ## What a point writes back -/

/-- The body's stored value at the block entry (0, hh, u, f) is the specification's function at the array entry under it. -/
theorem point_eq (c : Dev nD) (t : Fin cfg0.N) (hh : Fin 16) (u : Fin 128) (f : Fin 256) :
    k0_pay1 (F := Ideal)
        (k0_pay5 (k0_pay3 (iblk m c 0 t) (iblk m c 1 t))
          (k0_pay4 (iblk m c 0 t) (iblk m c 1 t) (iblk m c 4 t) (iblk m c 5 t) (iblk m c 6 t) (iblk m c 7 t) (iblk m c 2 t))
          (iblk m c 8 t) (iblk m c 9 t) (iblk m c 10 t) (iblk m c 11 t))
        (iblk m c 3 t) (ix4 (0 : Fin 1) hh u f)
      = (Attn.resultArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) (((cfg0.win 12).blk t).view.emb (ix4 (0 : Fin 1) hh u f)) := by
  obtain ⟨e0, e1, e2, e3, e4, e5, e6, e7⟩ := idx_grid t
  have hhlt := hh.isLt
  refine (block_spec (iblk m c 0 t) (iblk m c 1 t) (iblk m c 2 t) (iblk m c 3 t)
    (iblk m c 4 t) (iblk m c 5 t) (iblk m c 6 t) (iblk m c 7 t) (iblk m c 8 t) (iblk m c 9 t) (iblk m c 10 t) (iblk m c 11 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))
    ⟨win0_12.index t (0 : Fin 4), e6⟩ ⟨win0_12.index t (1 : Fin 4) * 16 + hh.val, by omega⟩ hh
    (fun u k => blk0_at m c t hh u k _ _ rfl rfl)
    (fun k j => (congrFun (blk1_eq m c t) _).trans (wide_theta m c k j))
    (fun k j => (congrFun (blk1_eq m c t) _).trans (wide_phi m c k j))
    (fun k j => (congrFun (blk1_eq m c t) _).trans (wide_gamma m c k j))
    (fun k j => (congrFun (blk2_eq m c t) _).trans (diag_tt m c k j))
    (fun k j => (congrFun (blk2_eq m c t) _).trans (diag_tp m c k j))
    (fun k j => (congrFun (blk2_eq m c t) _).trans (diag_pt m c k j))
    (fun k j => (congrFun (blk2_eq m c t) _).trans (diag_pp m c k j))
    (fun j f => (congrFun (blk3_eq m c t) _).trans (congrFun (V_main_arg6 m c) _))
    (fun j => by rw [blk4_eq m c t]; exact vec5_at m c j)
    (fun j => by rw [blk5_eq m c t]; exact vec6_at m c j)
    (fun j => by rw [blk6_eq m c t]; exact vec7_at m c j)
    (fun j => by rw [blk7_eq m c t]; exact vec8_at m c j)
    (fun j => by rw [blk8_eq m c t]; exact vec9_at m c j)
    (fun j => by rw [blk9_eq m c t]; exact vec10_at m c j)
    (fun j => by rw [blk10_eq m c t]; exact vec11_at m c j)
    (fun j => by rw [blk11_eq m c t]; exact vec12_at m c j)
    u f).trans ?_
  show Attn.resultArr _ _ _ _ _ _ _ _ _ _ _ _ _ _ _ _ _ _ _ _ _ _ _ (ix4 _ _ u f) = _
  refine congrArg _ (funext fun a => Fin.ext ?_)
  match a with
  | ⟨0, _⟩ => show win0_12.index t (0 : Fin 4) = win0_12.index t (0 : Fin 4) * 1 + 1 * 0; omega
  | ⟨1, _⟩ => show win0_12.index t (1 : Fin 4) * 16 + hh.val = win0_12.index t (1 : Fin 4) * 16 + 1 * hh.val; omega
  | ⟨2, _⟩ => show u.val = win0_12.index t (2 : Fin 4) * 128 + 1 * u.val; omega
  | ⟨3, _⟩ => show f.val = win0_12.index t (3 : Fin 4) * 256 + 1 * f.val; omega

/-- The same at any entry of the block: every entry is (0, hh, u, f) for its last three coordinates. -/
theorem point_whole (c : Dev nD) (t : Fin cfg0.N) (y : S1x16x128x256.Idx) :
    k0_pay1 (F := Ideal)
        (k0_pay5 (k0_pay3 (iblk m c 0 t) (iblk m c 1 t))
          (k0_pay4 (iblk m c 0 t) (iblk m c 1 t) (iblk m c 4 t) (iblk m c 5 t) (iblk m c 6 t) (iblk m c 7 t) (iblk m c 2 t))
          (iblk m c 8 t) (iblk m c 9 t) (iblk m c 10 t) (iblk m c 11 t))
        (iblk m c 3 t) y
      = (Attn.resultArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) (((cfg0.win 12).blk t).view.emb y) := by
  have hy : y = ix4 (0 : Fin 1) (y 1) (y 2) (y 3) :=
    (eq_ix4 y).trans (congrArg (fun z : Fin 1 => ix4 z (y 1) (y 2) (y 3)) (Subsingleton.elim _ _))
  rw [hy]
  exact point_eq m c t (y 1) (y 2) (y 3)

/-- What point `t` writes back to the result array is the specification's function read through the point's block. -/
theorem flushed12_eq (c : Dev nD) (t : Fin cfg0.N) :
    (dats (F := Ideal) m 0 c).flushed 12 t = ((cfg0.win 12).blk t).view.read (Elt Ideal) (Attn.resultArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) := by
  show (cfg0.win 12).cut (grid0.coords t) ((dats m 0 c).after 12 t) = _
  rw [after12]
  unfold out12
  rw [View.canon_unit_zero zeros4]
  simp only [View.ld_unit_zero (S := S1x16x128x256) zeros4, View.ld_unit_zero (S := S256x384) zeros2, View.ld_unit_zero (S := S256x256) zeros2,
    View.ld_unit_zero (S := S128x256) zeros2, View.ld_unit_zero (S := S256) zeros1]
  funext y
  exact point_whole m c t y

/-! ## The blocks cover the result array -/

/-- An entry of the result array is in point `t`'s block iff each coordinate is in the block's range on its axis. -/
theorem mem_blk12 (t : Fin cfg0.N) (i : S8x128x128x256.Idx) :
    i ∈ ((cfg0.win 12).blk t).view.set ↔ ∀ a : Fin 4, win0_12.index t a * S1x16x128x256.size a ≤ (i a).val ∧ (i a).val < win0_12.index t a * S1x16x128x256.size a + S1x16x128x256.size a := by
  show i ∈ ((View.whole main_v13).slice (win0_12.rect t)).set ↔ _
  rw [View.set_slice_whole, Rect.mem_set_unit]
  exact Iff.rfl

/-- The entry (b, h, u, f) lies in the block of the point (b, h / 16). -/
theorem covered12 (i : S8x128x128x256.Idx) :
    ∃ t : Fin cfg0.N, (cfg0.win 12).flush t = true ∧ i ∈ ((cfg0.win 12).blk t).view.set := by
  have h0 : (i 0).val < 8 := (i 0).isLt
  have h1 : (i 1).val < 128 := (i 1).isLt
  have h2 : (i 2).val < 128 := (i 2).isLt
  have h3 : (i 3).val < 256 := (i 3).isLt
  obtain ⟨t, q0, q1⟩ := idx_onto ⟨(i 0).val, h0⟩ ⟨(i 1).val / 16, by omega⟩
  have q0' : win0_12.index t (0 : Fin 4) = (i 0).val := q0
  have q1' : win0_12.index t (1 : Fin 4) = (i 1).val / 16 := q1
  obtain ⟨-, -, -, -, e4, e5, -, -⟩ := idx_grid t
  refine ⟨t, flush0_12 t, ?_⟩
  rw [mem_blk12]
  intro a
  match a with
  | ⟨0, _⟩ => show win0_12.index t (0 : Fin 4) * 1 ≤ (i 0).val ∧ (i 0).val < win0_12.index t (0 : Fin 4) * 1 + 1; omega
  | ⟨1, _⟩ => show win0_12.index t (1 : Fin 4) * 16 ≤ (i 1).val ∧ (i 1).val < win0_12.index t (1 : Fin 4) * 16 + 16; omega
  | ⟨2, _⟩ => show win0_12.index t (2 : Fin 4) * 128 ≤ (i 2).val ∧ (i 2).val < win0_12.index t (2 : Fin 4) * 128 + 128; omega
  | ⟨3, _⟩ => show win0_12.index t (3 : Fin 4) * 256 ≤ (i 3).val ∧ (i 3).val < win0_12.index t (3 : Fin 4) * 256 + 256; omega

/-- So the result array ends holding the specification's function of the arguments. -/
theorem final12 (c : Dev nD) : (dats (F := Ideal) m 0 c).arrAt 12 cfg0.N = Attn.resultArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) :=
  (dats (F := Ideal) m 0 c).arrAt_eq_of_cover 12 (Attn.resultArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) (fun t _ => flushed12_eq m c t) covered12

/-! ## The run, read -/

/-- At the compiled mesh, from any memory with zero counters: @main runs to its end without fault, the result array
    ends at the specification's function of the arguments as launched, and every argument ends as launched. -/
theorem run : θ_run (defs (F := Ideal)) (onTc (τ := τ) (main (F := Ideal))) ⟨m, fun _ => 0, ρ⟩ (fun r => ∀ c : Dev nD,
      r.2.mem ((c.tc : Thread nD τ).loc main_v13) = Attn.resultArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨((h c).1 12).trans (final12 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 3).trans (((dats m 0 c).arrAt_in 3 rfl _).trans ((A_eq m c 3).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c)⟩)
    (run_main m ρ)

end Cert.KernelIdeal.KValue

end
-- ==== Proof.lean ====
/-
  A self-attention layer over an [8, 128, 128, 256] input, computed in one fused kernel, against the same layer
  written with plain array operations.

  Both programs compute, for each (b, h), from the 128 positions u with 256 channels: two branches theta and phi
  (a 1x1 convolution to 128 channels, a per-channel affine normalisation g·(y − mu)·(v + eps)^(-1/2) + beta clamped
  below at zero, a second convolution and a second normalisation and clamp) and a third branch gamma (one
  convolution); the scores scale · Σ_c theta[u,c]·phi[v,c]; along v the exponentials of the differences to the
  row's maximum divided by their sum; the average of gamma over v with those weights; and a last convolution back
  to 256 channels (Proof/AttnSpec.lean states this function once, `Attn.resultArr`).

  The kernel takes blocks of sixteen rows h, flattens (h, u) into 2048 matrix rows, and fuses the branches'
  products: the three first-layer weight matrices side by side in one [256, 384] matrix, the two second-layer
  matrices on the diagonal of a [256, 256] matrix whose off-diagonal blocks are zero, the normalisations'
  parameters end to end. On the extended reals a product with zero is zero and a sum splits into the sums over
  its two halves, so the fused products are the branches' own (Proof/KernelBlock.lean); no law used needs the
  inputs to be finite. The reference is read operation by operation (Proof/RefIsSpec.lean); every block of the
  kernel's result array is the specification on the rows it holds, and the blocks cover the array
  (Proof/KernelValue.lean). The frames of the two kernel programs are Proof/FrameBits.lean and
  Proof/FrameIdeal.lean; the reference's frame is its run with the result dropped; the idealization rewrote
  nothing.
-/
import proofs.«134137_j43911745634356_2_alg».proof.Defs
import proofs.«134137_j43911745634356_2_alg».proof.Proof.Gen.Kernel
import proofs.«134137_j43911745634356_2_alg».proof.Proof.Gen.Kernel.Skeleton
import proofs.«134137_j43911745634356_2_alg».proof.Proof.Gen.Kernel.Launch
import proofs.«134137_j43911745634356_2_alg».proof.Proof.Gen.Kernel.Points
import proofs.«134137_j43911745634356_2_alg».proof.Proof.Gen.KernelIdeal
import proofs.«134137_j43911745634356_2_alg».proof.Proof.Gen.KernelIdeal.Skeleton
import proofs.«134137_j43911745634356_2_alg».proof.Proof.Gen.KernelIdeal.Launch
import proofs.«134137_j43911745634356_2_alg».proof.Proof.Gen.KernelIdeal.Points
import proofs.«134137_j43911745634356_2_alg».proof.Proof.Gen.ReferenceIdeal
import proofs.«134137_j43911745634356_2_alg».proof.Proof.Gen.Pre_finite_inputs
import proofs.«134137_j43911745634356_2_alg».proof.Proof.Gen.ReferenceIdeal.Run
import proofs.«134137_j43911745634356_2_alg».proof.Proof.Gen.ReferenceIdeal.Read
import proofs.«134137_j43911745634356_2_alg».proof.Proof.FrameBits
import proofs.«134137_j43911745634356_2_alg».proof.Proof.FrameIdeal
import proofs.«134137_j43911745634356_2_alg».proof.Proof.RefIsSpec
import proofs.«134137_j43911745634356_2_alg».proof.Proof.KernelValue
import Idealize.ShloMosaic.Adequacy
import Idealize.ShloMosaic.Init

noncomputable section

namespace Cert.Proof

open Idealize.ShloMosaic Idealize.ShloMosaic.TcCoe Idealize.SL.Sem

/-- The specification function of equal arguments: one equation per argument. -/
theorem resultArr_congr {x0 y0 : Attn.Arr4} {x1 y1 : Attn.MatIn} {x2 y2 : Attn.MatMid} {x3 y3 : Attn.MatIn} {x4 y4 : Attn.MatMid}
    {x5 y5 : Attn.MatIn} {x6 y6 : Attn.MatOut}
    {x7 y7 x8 y8 x9 y9 x10 y10 x11 y11 x12 y12 x13 y13 x14 y14 x15 y15 x16 y16 x17 y17 x18 y18 x19 y19 x20 y20 x21 y21
      x22 y22 : Attn.Chan}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10)
    (h11 : x11 = y11) (h12 : x12 = y12) (h13 : x13 = y13) (h14 : x14 = y14) (h15 : x15 = y15) (h16 : x16 = y16) (h17 : x17 = y17) (h18 : x18 = y18) (h19 : x19 = y19) (h20 : x20 = y20) (h21 : x21 = y21) (h22 : x22 = y22) :
    Attn.resultArr x0 x1 x2 x3 x4 x5 x6 x7 x8 x9 x10 x11 x12 x13 x14 x15 x16 x17 x18 x19 x20 x21 x22
      = Attn.resultArr y0 y1 y2 y3 y4 y5 y6 y7 y8 y9 y10 y11 y12 y13 y14 y15 y16 y17 y18 y19 y20 y21 y22 := by
  subst h0 h1 h2 h3 h4 h5 h6 h7 h8 h9 h10 h11 h12 h13 h14 h15 h16 h17 h18 h19 h20 h21 h22
  rfl

/-- The kernel as printed runs to its end and leaves its arguments as launched. -/
theorem frame_p : Cert.frame_Kernel := fun m ρ _ => Cert.Kernel.Frame.frame (F := Bits) m ρ

/-- The idealized kernel runs to its end and leaves its arguments as launched. -/
theorem frame_pi : Cert.frame_KernelIdeal := fun m ρ _ => Cert.KernelIdeal.Frame.frame (F := Ideal) m ρ

/-- The reference runs to its end and leaves its arguments as launched: its value run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values the kernel's result array is the specification function of its arguments, and the
    reference's result, read index by index, is the same function of arguments that agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v84_eq, Cert.ReferenceIdeal.RefValue.ref_eq_spec]
  exact resultArr_congr (hagree c).1 (hagree c).2.1 (hagree c).2.2.1 (hagree c).2.2.2.1 (hagree c).2.2.2.2.1 (hagree c).2.2.2.2.2.1 (hagree c).2.2.2.2.2.2.1 (hagree c).2.2.2.2.2.2.2.1
    (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1
    (hagree c).2.2.2.2.2.2.2.2.2.2.2.2.2.2.2.1 (hagree c).2.2.2.2.2.2.2.2.2.2.2.2.2.2.2.2.1 (hagree c).2.2.2.2.2.2.2.2.2.2.2.2.2.2.2.2.2.1 (hagree c).2.2.2.2.2.2.2.2.2.2.2.2.2.2.2.2.2.2.1 (hagree c).2.2.2.2.2.2.2.2.2.2.2.2.2.2.2.2.2.2.2.1
    (hagree c).2.2.2.2.2.2.2.2.2.2.2.2.2.2.2.2.2.2.2.2.1 (hagree c).2.2.2.2.2.2.2.2.2.2.2.2.2.2.2.2.2.2.2.2.2.1 (hagree c).2.2.2.2.2.2.2.2.2.2.2.2.2.2.2.2.2.2.2.2.2.2

theorem claim : Cert.Claim := ⟨Cert.Kernel.Gen.facts, Cert.KernelIdeal.Gen.facts, Cert.ReferenceIdeal.Gen.facts,
  Cert.Pre_finite_inputs.Gen.facts, frame_p, frame_pi, frame_ri, preserves, algebraic⟩

end Cert.Proof

end
